-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S200000x128 : Shape := ⟨2, ![200000, 128]⟩
abbrev S100000x151 : Shape := ⟨2, ![100000, 151]⟩
abbrev S100000x10 : Shape := ⟨2, ![100000, 10]⟩
abbrev S100000 : Shape := ⟨1, ![100000]⟩
abbrev S279x512 : Shape := ⟨2, ![279, 512]⟩
abbrev S512 : Shape := ⟨1, ![512]⟩
abbrev S512x128 : Shape := ⟨2, ![512, 128]⟩
abbrev S128 : Shape := ⟨1, ![128]⟩
abbrev S128x512 : Shape := ⟨2, ![128, 512]⟩
abbrev S512x1 : Shape := ⟨2, ![512, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S100000x151 : S_.BroadcastsInDim S100000x151 (![] : Fin 0 → Fin S100000x151.rank)
  reducesTo_S100000x151_S_d0_1 : S100000x151.ReducesTo [0, 1] S_
  bcast_S_S279x512 : S_.BroadcastsInDim S279x512 (![] : Fin 0 → Fin S279x512.rank)
  reducesTo_S279x512_S_d0_1 : S279x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg24 : FVec F S512x1 .f32) (main_arg25 : FVec F S1 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S512x1 .f32 := Host.absf main_arg24
  let main_cst_40 : FVec F S_ .f32 := constant S_ .f32 0x7F800000#32
  let main_v105 : FVec F S512x1 .f32 := broadcastInDim S512x1 ![] bcast_S_S512x1 main_cst_40
  let main_v106 : IVec S512x1 1 := cmpf .olt main_v104 main_v105
  let main_c_41 : IVec S_ 1 := constantI S_ 1 1#1
  let main_v107 : IVec S_ 1 := (fun x v => Host.reduce IntOp.andi x v reducesTo_S512x1_S_d0_1 h_S_) main_v106 main_c_41
  let main_v108 : IVec S_ 1 := andi main_v103 main_v107
  let main_v109 : FVec F S1 .f32 := Host.absf main_arg25
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg21 : FVec F S1 .f32) (main_arg22 : FVec F S128x512 .f32) (main_arg23 : FVec F S512 .f32) (main_arg24 : FVec F S512x1 .f32) (main_arg25 : FVec F S1 .f32) (main_v83 : IVec S_ 1) (main_v84 : FVec F S512x1 .f32) (main_cst_32 : FVec F S_ .f32) : IVec S_ 1 :=
  let main_v85 : FVec F S512x1 .f32 := broadcastInDim S512x1 ![] bcast_S_S512x1 main_cst_32
  let main_v86 : IVec S512x1 1 := cmpf .olt main_v84 main_v85
  let main_c_33 : IVec S_ 1 := constantI S_ 1 1#1
  let main_v87 : IVec S_ 1 := (fun x v => Host.reduce IntOp.andi x v reducesTo_S512x1_S_d0_1 h_S_) main_v86 main_c_33
  let main_v88 : IVec S_ 1 := andi main_v83 main_v87
  let main_v89 : FVec F S1 .f32 := Host.absf main_arg21
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S128x512 .f32 := Host.absf main_arg22
  let main_cst_36 : FVec F S_ .f32 := constant S_ .f32 0x7F800000#32
  let main_v95 : FVec F S128x512 .f32 := broadcastInDim S128x512 ![] bcast_S_S128x512 main_cst_36
  let main_v96 : IVec S128x512 1 := cmpf .olt main_v94 main_v95
  let main_c_37 : IVec S_ 1 := constantI S_ 1 1#1
  let main_v97 : IVec S_ 1 := (fun x v => Host.reduce IntOp.andi x v reducesTo_S128x512_S_d0_1 h_S_) main_v96 main_c_37
  let main_v98 : IVec S_ 1 := andi main_v93 main_v97
  let main_v99 : FVec F S512 .f32 := Host.absf main_arg23
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg24 main_arg25 main_v98 main_v101 main_c_39

def fn_part4 {F : FTy → Type} [FloatOps F] (main_arg17 : FVec F S128 .f32) (main_arg18 : FVec F S128x512 .f32) (main_arg19 : FVec F S512 .f32) (main_arg20 : FVec F S512x1 .f32) (main_arg21 : FVec F S1 .f32) (main_arg22 : FVec F S128x512 .f32) (main_arg23 : FVec F S512 .f32) (main_arg24 : FVec F S512x1 .f32) (main_arg25 : FVec F S1 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x512 .f32 := Host.absf main_arg18
  let main_cst_28 : FVec F S_ .f32 := constant S_ .f32 0x7F800000#32
  let main_v75 : FVec F S128x512 .f32 := broadcastInDim S128x512 ![] bcast_S_S128x512 main_cst_28
  let main_v76 : IVec S128x512 1 := cmpf .olt main_v74 main_v75
  let main_c_29 : IVec S_ 1 := constantI S_ 1 1#1
  let main_v77 : IVec S_ 1 := (fun x v => Host.reduce IntOp.andi x v reducesTo_S128x512_S_d0_1 h_S_) main_v76 main_c_29
  let main_v78 : IVec S_ 1 := andi main_v73 main_v77
  let main_v79 : FVec F S512 .f32 := Host.absf main_arg19
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x1 .f32 := Host.absf main_arg20
  let main_cst_32 : FVec F S_ .f32 := constant S_ .f32 0x7F800000#32
  fn_part5 (F := F) main_arg21 main_arg22 main_arg23 main_arg24 main_arg25 main_v83 main_v84 main_cst_32

def fn_part3 {F : FTy → Type} [FloatOps F] (main_arg14 : FVec F S512x128 .f32) (main_arg15 : FVec F S128 .f32) (main_arg16 : FVec F S128 .f32) (main_arg17 : FVec F S128 .f32) (main_arg18 : FVec F S128x512 .f32) (main_arg19 : FVec F S512 .f32) (main_arg20 : FVec F S512x1 .f32) (main_arg21 : FVec F S1 .f32) (main_arg22 : FVec F S128x512 .f32) (main_arg23 : FVec F S512 .f32) (main_arg24 : FVec F S512x1 .f32) (main_arg25 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x128 .f32 := Host.absf main_arg14
  let main_cst_20 : FVec F S_ .f32 := constant S_ .f32 0x7F800000#32
  let main_v55 : FVec F S512x128 .f32 := broadcastInDim S512x128 ![] bcast_S_S512x128 main_cst_20
  let main_v56 : IVec S512x128 1 := cmpf .olt main_v54 main_v55
  let main_c_21 : IVec S_ 1 := constantI S_ 1 1#1
  let main_v57 : IVec S_ 1 := (fun x v => Host.reduce IntOp.andi x v reducesTo_S512x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_arg19 main_arg20 main_arg21 main_arg22 main_arg23 main_arg24 main_arg25 main_v63 main_v67

def fn_part2 {F : FTy → Type} [FloatOps F] (main_arg10 : FVec F S128 .f32) (main_arg11 : FVec F S128 .f32) (main_arg12 : FVec F S279x512 .f32) (main_arg13 : FVec F S512 .f32) (main_arg14 : FVec F S512x128 .f32) (main_arg15 : FVec F S128 .f32) (main_arg16 : FVec F S128 .f32) (main_arg17 : FVec F S128 .f32) (main_arg18 : FVec F S128x512 .f32) (main_arg19 : FVec F S512 .f32) (main_arg20 : FVec F S512x1 .f32) (main_arg21 : FVec F S1 .f32) (main_arg22 : FVec F S128x512 .f32) (main_arg23 : FVec F S512 .f32) (main_arg24 : FVec F S512x1 .f32) (main_arg25 : FVec F S1 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S279x512 .f32 := Host.absf main_arg12
  let main_cst_16 : FVec F S_ .f32 := constant S_ .f32 0x7F800000#32
  let main_v45 : FVec F S279x512 .f32 := broadcastInDim S279x512 ![] bcast_S_S279x512 main_cst_16
  let main_v46 : IVec S279x512 1 := cmpf .olt main_v44 main_v45
  let main_c_17 : IVec S_ 1 := constantI S_ 1 1#1
  let main_v47 : IVec S_ 1 := (fun x v => Host.reduce IntOp.andi x v reducesTo_S279x512_S_d0_1 h_S_) main_v46 main_c_17
  let main_v48 : IVec S_ 1 := andi main_v43 main_v47
  let main_v49 : FVec F S512 .f32 := Host.absf main_arg13
  let main_cst_18 : FVec F S_ .f32 := constant S_ .f32 0x7F800000#32
  let main_v50 : FVec F S512 .f32 := broadcastInDim S512 ![] bcast_S_S512 main_cst_18
  fn_part3 (F := F) main_arg14 main_arg15 main_arg16 main_arg17 main_arg18 main_arg19 main_arg20 main_arg21 main_arg22 main_arg23 main_arg24 main_arg25 main_v48 main_v49 main_v50

def fn_part1 {F : FTy → Type} [FloatOps F] (main_arg7 : FVec F S512 .f32) (main_arg8 : FVec F S512x128 .f32) (main_arg9 : FVec F S128 .f32) (main_arg10 : FVec F S128 .f32) (main_arg11 : FVec F S128 .f32) (main_arg12 : FVec F S279x512 .f32) (main_arg13 : FVec F S512 .f32) (main_arg14 : FVec F S512x128 .f32) (main_arg15 : FVec F S128 .f32) (main_arg16 : FVec F S128 .f32) (main_arg17 : FVec F S128 .f32) (main_arg18 : FVec F S128x512 .f32) (main_arg19 : FVec F S512 .f32) (main_arg20 : FVec F S512x1 .f32) (main_arg21 : FVec F S1 .f32) (main_arg22 : FVec F S128x512 .f32) (main_arg23 : FVec F S512 .f32) (main_arg24 : FVec F S512x1 .f32) (main_arg25 : FVec F S1 .f32) (main_v13 : IVec S_ 1) (main_v16 : IVec S279x512 1) : IVec S_ 1 :=
  let main_c_5 : IVec S_ 1 := constantI S_ 1 1#1
  let main_v17 : IVec S_ 1 := (fun x v => Host.reduce IntOp.andi x v reducesTo_S279x512_S_d0_1 h_S_) main_v16 main_c_5
  let main_v18 : IVec S_ 1 := andi main_v13 main_v17
  let main_v19 : FVec F S512 .f32 := Host.absf main_arg7
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg8
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S100000x128 .f32) (main_arg1 : FVec F S200000x128 .f32) (main_arg2 : FVec F S100000x151 .f32) (main_arg3 : IVec S100000x10 32) (main_arg4 : IVec S100000x10 32) (main_arg5 : IVec S100000 32) (main_arg6 : FVec F S279x512 .f32) (main_arg7 : FVec F S512 .f32) (main_arg8 : FVec F S512x128 .f32) (main_arg9 : FVec F S128 .f32) (main_arg10 : FVec F S128 .f32) (main_arg11 : FVec F S128 .f32) (main_arg12 : FVec F S279x512 .f32) (main_arg13 : FVec F S512 .f32) (main_arg14 : FVec F S512x128 .f32) (main_arg15 : FVec F S128 .f32) (main_arg16 : FVec F S128 .f32) (main_arg17 : FVec F S128 .f32) (main_arg18 : FVec F S128x512 .f32) (main_arg19 : FVec F S512 .f32) (main_arg20 : FVec F S512x1 .f32) (main_arg21 : FVec F S1 .f32) (main_arg22 : FVec F S128x512 .f32) (main_arg23 : FVec F S512 .f32) (main_arg24 : FVec F S512x1 .f32) (main_arg25 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S100000x151 .f32 := Host.absf main_arg2
  let main_cst_2 : FVec F S_ .f32 := constant S_ .f32 0x7F800000#32
  let main_v10 : FVec F S100000x151 .f32 := broadcastInDim S100000x151 ![] bcast_S_S100000x151 main_cst_2
  let main_v11 : IVec S100000x151 1 := cmpf .olt main_v9 main_v10
  let main_c_3 : IVec S_ 1 := constantI S_ 1 1#1
  let main_v12 : IVec S_ 1 := (fun x v => Host.reduce IntOp.andi x v reducesTo_S100000x151_S_d0_1 h_S_) main_v11 main_c_3
  let main_v13 : IVec S_ 1 := andi main_v8 main_v12
  let main_v14 : FVec F S279x512 .f32 := Host.absf main_arg6
  let main_cst_4 : FVec F S_ .f32 := constant S_ .f32 0x7F800000#32
  let main_v15 : FVec F S279x512 .f32 := broadcastInDim S279x512 ![] bcast_S_S279x512 main_cst_4
  let main_v16 : IVec S279x512 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x128 : Shape := ⟨2, ![100000, 128]⟩
abbrev S200000x128 : Shape := ⟨2, ![200000, 128]⟩
abbrev S100000x151 : Shape := ⟨2, ![100000, 151]⟩
abbrev S100000x10 : Shape := ⟨2, ![100000, 10]⟩
abbrev S100000 : Shape := ⟨1, ![100000]⟩
abbrev S279x512 : Shape := ⟨2, ![279, 512]⟩
abbrev S512 : Shape := ⟨1, ![512]⟩
abbrev S512x128 : Shape := ⟨2, ![512, 128]⟩
abbrev S128 : Shape := ⟨1, ![128]⟩
abbrev S128x512 : Shape := ⟨2, ![128, 512]⟩
abbrev S512x1 : Shape := ⟨2, ![512, 1]⟩
abbrev S1 : Shape := ⟨1, ![1]⟩
abbrev S_ : Shape := ⟨0, ![]⟩
abbrev S100000x10x1 : Shape := ⟨3, ![100000, 10, 1]⟩
abbrev S1x1x1 : Shape := ⟨3, ![1, 1, 1]⟩
abbrev S100000x10x128 : Shape := ⟨3, ![100000, 10, 128]⟩
abbrev S151x512 : Shape := ⟨2, ![151, 512]⟩
abbrev S1x512 : Shape := ⟨2, ![1, 512]⟩
abbrev S1x128 : Shape := ⟨2, ![1, 128]⟩
abbrev S1000x151 : Shape := ⟨2, ![1000, 151]⟩
abbrev S1000x128 : Shape := ⟨2, ![1000, 128]⟩
abbrev S1000x512 : Shape := ⟨2, ![1000, 512]⟩
abbrev S1000 : Shape := ⟨1, ![1000]⟩
abbrev S1000x1 : Shape := ⟨2, ![1000, 1]⟩
abbrev S1024 : Shape := ⟨1, ![1024]⟩
abbrev S100000x1 : Shape := ⟨2, ![100000, 1]⟩
abbrev S1024x1 : Shape := ⟨2, ![1024, 1]⟩
abbrev S1024x128 : Shape := ⟨2, ![1024, 128]⟩
abbrev S1x1 : Shape := ⟨2, ![1, 1]⟩
abbrev S1024x512 : Shape := ⟨2, ![1024, 512]⟩

abbrev nBuf : Space → Nat
  | .hbm => 117
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S100000x151, .f32⟩
  | .hbm, ⟨3, _⟩ => ⟨S100000x10, .i32⟩
  | .hbm, ⟨4, _⟩ => ⟨S100000x10, .i32⟩
  | .hbm, ⟨5, _⟩ => ⟨S100000, .i32⟩
  | .hbm, ⟨6, _⟩ => ⟨S279x512, .f32⟩
  | .hbm, ⟨7, _⟩ => ⟨S512, .f32⟩
  | .hbm, ⟨8, _⟩ => ⟨S512x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S279x512, .f32⟩
  | .hbm, ⟨13, _⟩ => ⟨S512, .f32⟩
  | .hbm, ⟨14, _⟩ => ⟨S512x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x512, .f32⟩
  | .hbm, ⟨19, _⟩ => ⟨S512, .f32⟩
  | .hbm, ⟨20, _⟩ => ⟨S512x1, .f32⟩
  | .hbm, ⟨21, _⟩ => ⟨S1, .f32⟩
  | .hbm, ⟨22, _⟩ => ⟨S128x512, .f32⟩
  | .hbm, ⟨23, _⟩ => ⟨S512, .f32⟩
  | .hbm, ⟨24, _⟩ => ⟨S512x1, .f32⟩
  | .hbm, ⟨25, _⟩ => ⟨S1, .f32⟩
  | .hbm, ⟨26, _⟩ => ⟨S_, .i32⟩
  | .hbm, ⟨27, _⟩ => ⟨S100000x10, .i32⟩
  | .hbm, ⟨28, _⟩ => ⟨S100000x10, .i1⟩
  | .hbm, ⟨29, _⟩ => ⟨S_, .i32⟩
  | .hbm, ⟨30, _⟩ => ⟨S100000x10, .i32⟩
  | .hbm, ⟨31, _⟩ => ⟨S100000x10, .i32⟩
  | .hbm, ⟨32, _⟩ => ⟨S100000x10, .i32⟩
  | .hbm, ⟨33, _⟩ => ⟨S100000x10x1, .i32⟩
  | .hbm, ⟨34, _⟩ => ⟨S1, .i32⟩
  | .hbm, ⟨35, _⟩ => ⟨S_, .i32⟩
  | .hbm, ⟨36, _⟩ => ⟨S100000x10x1, .i32⟩
  | .hbm, ⟨37, _⟩ => ⟨S100000x10x1, .i1⟩
  | .hbm, ⟨38, _⟩ => ⟨S1x1x1, .i32⟩
  | .hbm, ⟨39, _⟩ => ⟨S100000x10x1, .i32⟩
  | .hbm, ⟨40, _⟩ => ⟨S100000x10x1, .i1⟩
  | .hbm, ⟨41, _⟩ => ⟨S100000x10x1, .i1⟩
  | .hbm, ⟨42, _⟩ => ⟨S_, .i1⟩
  | .hbm, ⟨43, _⟩ => ⟨S100000x10, .i1⟩
  | .hbm, ⟨44, _⟩ => ⟨S100000x10x128, .f32⟩
  | .hbm, ⟨45, _⟩ => ⟨S100000x10x128, .i1⟩
  | .hbm, ⟨46, _⟩ => ⟨S_, .f32⟩
  | .hbm, ⟨47, _⟩ => ⟨S100000x10x128, .f32⟩
  | .hbm, ⟨48, _⟩ => ⟨S100000x10x128, .f32⟩
  | .hbm, ⟨49, _⟩ => ⟨S_, .f32⟩
  | .hbm, ⟨50, _⟩ => ⟨S100000x128, .f32⟩
  | .hbm, ⟨51, _⟩ => ⟨S_, .i32⟩
  | .hbm, ⟨52, _⟩ => ⟨S100000x10, .i32⟩
  | .hbm, ⟨53, _⟩ => ⟨S100000x10, .i1⟩
  | .hbm, ⟨54, _⟩ => ⟨S_, .i32⟩
  | .hbm, ⟨55, _⟩ => ⟨S100000x10, .i32⟩
  | .hbm, ⟨56, _⟩ => ⟨S100000x10, .i32⟩
  | .hbm, ⟨57, _⟩ => ⟨S100000x10, .i32⟩
  | .hbm, ⟨58, _⟩ => ⟨S100000x10x1, .i32⟩
  | .hbm, ⟨59, _⟩ => ⟨S1, .i32⟩
  | .hbm, ⟨60, _⟩ => ⟨S_, .i32⟩
  | .hbm, ⟨61, _⟩ => ⟨S100000x10x1, .i32⟩
  | .hbm, ⟨62, _⟩ => ⟨S100000x10x1, .i1⟩
  | .hbm, ⟨63, _⟩ => ⟨S1x1x1, .i32⟩
  | .hbm, ⟨64, _⟩ => ⟨S100000x10x1, .i32⟩
  | .hbm, ⟨65, _⟩ => ⟨S100000x10x1, .i1⟩
  | .hbm, ⟨66, _⟩ => ⟨S100000x10x1, .i1⟩
  | .hbm, ⟨67, _⟩ => ⟨S_, .i1⟩
  | .hbm, ⟨68, _⟩ => ⟨S100000x10, .i1⟩
  | .hbm, ⟨69, _⟩ => ⟨S100000x10x128, .f32⟩
  | .hbm, ⟨70, _⟩ => ⟨S100000x10x128, .i1⟩
  | .hbm, ⟨71, _⟩ => ⟨S_, .f32⟩
  | .hbm, ⟨72, _⟩ => ⟨S100000x10x128, .f32⟩
  | .hbm, ⟨73, _⟩ => ⟨S100000x10x128, .f32⟩
  | .hbm, ⟨74, _⟩ => ⟨S_, .f32⟩
  | .hbm, ⟨75, _⟩ => ⟨S100000x128, .f32⟩
  | .hbm, ⟨76, _⟩ => ⟨S151x512, .f32⟩
  | .hbm, ⟨77, _⟩ => ⟨S128x512, .f32⟩
  | .hbm, ⟨78, _⟩ => ⟨S151x512, .f32⟩
  | .hbm, ⟨79, _⟩ => ⟨S128x512, .f32⟩
  | .hbm, ⟨80, _⟩ => ⟨S1x512, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x512, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000, .f32⟩
  | .hbm, ⟨92, _⟩ => ⟨S_, .f32⟩
  | .hbm, ⟨93, _⟩ => ⟨S1024, .f32⟩
  | .hbm, ⟨94, _⟩ => ⟨S100000x1, .i32⟩
  | .hbm, ⟨95, _⟩ => ⟨S1024, .f32⟩
  | .hbm, ⟨96, _⟩ => ⟨S_, .f32⟩
  | .hbm, ⟨97, _⟩ => ⟨S1024, .f32⟩
  | .hbm, ⟨98, _⟩ => ⟨S1024, .f32⟩
  | .hbm, ⟨99, _⟩ => ⟨S1024x1, .f32⟩
  | .hbm, ⟨100, _⟩ => ⟨S_, .f32⟩
  | .hbm, ⟨101, _⟩ => ⟨S1024x128, .f32⟩
  | .hbm, ⟨102, _⟩ => ⟨S100000x1, .i32⟩
  | .hbm, ⟨103, _⟩ => ⟨S1024x128, .f32⟩
  | .hbm, ⟨104, _⟩ => ⟨S1024x128, .f32⟩
  | .hbm, ⟨105, _⟩ => ⟨S1024x128, .f32⟩
  | .hbm, ⟨106, _⟩ => ⟨S_, .f32⟩
  | .hbm, ⟨107, _⟩ => ⟨S1024x128, .f32⟩
  | .hbm, ⟨108, _⟩ => ⟨S100000x1, .i32⟩
  | .hbm, ⟨109, _⟩ => ⟨S1024x128, .f32⟩
  | .hbm, ⟨110, _⟩ => ⟨S1024x128, .f32⟩
  | .hbm, ⟨111, _⟩ => ⟨S1024x128, .f32⟩
  | .hbm, ⟨112, _⟩ => ⟨S1x512, .f32⟩
  | .hbm, ⟨113, _⟩ => ⟨S1x1, .f32⟩
  | .hbm, ⟨114, _⟩ => ⟨S1x512, .f32⟩
  | .hbm, ⟨115, _⟩ => ⟨S1x1, .f32⟩
  | .hbm, ⟨116, _⟩ => ⟨S1024x1, .f32⟩
  | .local _ .vmem, ⟨0, _⟩ => ⟨S1000x151, .f32⟩
  | .local _ .vmem, ⟨1, _⟩ => ⟨S1000x151, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S151x512, .f32⟩
  | .local _ .vmem, ⟨7, _⟩ => ⟨S128x512, .f32⟩
  | .local _ .vmem, ⟨8, _⟩ => ⟨S1x512, .f32⟩
  | .local _ .vmem, ⟨9, _⟩ => ⟨S512x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S151x512, .f32⟩
  | .local _ .vmem, ⟨14, _⟩ => ⟨S128x512, .f32⟩
  | .local _ .vmem, ⟨15, _⟩ => ⟨S1x512, .f32⟩
  | .local _ .vmem, ⟨16, _⟩ => ⟨S512x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1024x128, .f32⟩
  | .local _ .vmem, ⟨25, _⟩ => ⟨S1024x128, .f32⟩
  | .local _ .vmem, ⟨26, _⟩ => ⟨S128x512, .f32⟩
  | .local _ .vmem, ⟨27, _⟩ => ⟨S1x512, .f32⟩
  | .local _ .vmem, ⟨28, _⟩ => ⟨S512x1, .f32⟩
  | .local _ .vmem, ⟨29, _⟩ => ⟨S1x1, .f32⟩
  | .local _ .vmem, ⟨30, _⟩ => ⟨S128x512, .f32⟩
  | .local _ .vmem, ⟨31, _⟩ => ⟨S1x512, .f32⟩
  | .local _ .vmem, ⟨32, _⟩ => ⟨S512x1, .f32⟩
  | .local _ .vmem, ⟨33, _⟩ => ⟨S1x1, .f32⟩
  | .local _ .vmem, ⟨34, _⟩ => ⟨S1024x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v0 : Ref sig .tc := ⟨.hbm, 48, rfl⟩
abbrev main_cst : Ref sig .tc := ⟨.hbm, 49, rfl⟩
abbrev main_v1 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v2 : Ref sig .tc := ⟨.hbm, 73, rfl⟩
abbrev main_cst_0 : Ref sig .tc := ⟨.hbm, 74, rfl⟩
abbrev main_v3 : Ref sig .tc := ⟨.hbm, 75, rfl⟩
abbrev main_v4 : Ref sig .tc := ⟨.hbm, 76, rfl⟩
abbrev main_v5 : Ref sig .tc := ⟨.hbm, 77, rfl⟩
abbrev main_v6 : Ref sig .tc := ⟨.hbm, 78, rfl⟩
abbrev main_v7 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_v14 : Ref sig .tc := ⟨.hbm, 86, rfl⟩
abbrev main_v15 : Ref sig .tc := ⟨.hbm, 87, rfl⟩
abbrev main_v16_0 : Ref sig .tc := ⟨.hbm, 88, rfl⟩
abbrev main_v16_1 : Ref sig .tc := ⟨.hbm, 89, rfl⟩
abbrev main_cst_1 : Ref sig .tc := ⟨.hbm, 90, rfl⟩
abbrev main_v17 : Ref sig .tc := ⟨.hbm, 91, rfl⟩
abbrev main_cst_2 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_cst_3 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_cst_4 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_cst_5 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc1_stg0_0 : Ref sig .tc := ⟨.vmem, 24, rfl⟩
abbrev cc1_stg1_0 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg10_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc1_sem0_0 : DmaSem sig := 24
abbrev cc1_sem1_0 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem9_0 : DmaSem sig := 33
abbrev cc1_sem10_0 : DmaSem sig := 34

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x151 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S151x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S151x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1000x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1000x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

class Facts₀ : Prop where
  bcast_S_S100000x10 : S_.BroadcastsInDim S100000x10 (![] : Fin 0 → Fin S100000x10.rank)
  bcast_S100000x10_S100000x10x1_0_1 : S100000x10.BroadcastsInDim S100000x10x1 (![0, 1] : Fin 2 → Fin S100000x10x1.rank)
  bcast_S_S100000x10x1 : S_.BroadcastsInDim S100000x10x1 (![] : Fin 0 → Fin S100000x10x1.rank)
  bcast_S1_S1x1x1_2 : S1.BroadcastsInDim S1x1x1 (![2] : Fin 1 → Fin S1x1x1.rank)
  bcast_S1x1x1_S100000x10x1_0_1_2 : S1x1x1.BroadcastsInDim S100000x10x1 (![0, 1, 2] : Fin 3 → Fin S100000x10x1.rank)
  reducesTo_S100000x10x1_S100000x10_d2 : S100000x10x1.ReducesTo [2] S100000x10
  h_S_ : 0 < S_.numel
  bcast_S100000x10_S100000x10x128_0_1 : S100000x10.BroadcastsInDim S100000x10x128 (![0, 1] : Fin 2 → Fin S100000x10x128.rank)
  bcast_S_S100000x10x128 : S_.BroadcastsInDim S100000x10x128 (![] : Fin 0 → Fin S100000x10x128.rank)
  reducesTo_S100000x10x128_S100000x128_d1 : S100000x10x128.ReducesTo [1] S100000x128
  slices_S279x512_S151x512_0_0 : S279x512.Slices ![0, 0] S151x512
  slices_S279x512_S128x512_151_0 : S279x512.Slices ![151, 0] S128x512
  shapeCasts_S512_S1x512 : S512.ShapeCasts S1x512
  shapeCasts_S128_S1x128 : S128.ShapeCasts S1x128
  inb_S1000x151_S1000x151_0_0 : ∀ a, (![0, 0] : Fin 2 → Nat) a + S1000x151.size a ≤ S1000x151.size a
  h_S1000x151 : 0 < S1000x151.numel
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S151x512_S151x512_0_0 : ∀ a, (![0, 0] : Fin 2 → Nat) a + S151x512.size a ≤ S151x512.size a
  h_S151x512 : 0 < S151x512.numel
  shapeCasts_S151x512_S151x512 : S151x512.ShapeCasts S151x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  reduces_S1000x128_S1000 : S1000x128.Reduces [1] S1000
  shapeCasts_S1000_S1000x1 : S1000.ShapeCasts S1000x1
  broadcasts_S1000x1_S1000x128 : S1000x1.Broadcasts S1000x128
  bcast_S_S100000 : S_.BroadcastsInDim S100000 (![] : Fin 0 → Fin S100000.rank)
  bcast_S_S1024 : S_.BroadcastsInDim S1024 (![] : Fin 0 → Fin S1024.rank)
  bcast_S100000_S100000x1_0 : S100000.BroadcastsInDim S100000x1 (![0] : Fin 1 → Fin S100000x1.rank)
  bcast_S1024_S1024x1_0 : S1024.BroadcastsInDim S1024x1 (![0] : Fin 1 → Fin S1024x1.rank)
  bcast_S_S1024x128 : S_.BroadcastsInDim S1024x128 (![] : Fin 0 → Fin S1024x128.rank)
  bcast_S1024x1_S1024x128_0_1 : S1024x1.BroadcastsInDim S1024x128 (![0, 1] : Fin 2 → Fin S1024x128.rank)
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1x512_S1024x512 : S1x512.Broadcasts S1024x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  gather_S100000x128_S100000x10x1_S100000x10x128_2_0_n_n_0_2_1128_wf : GatherDims.WF S100000x128 S100000x10x1 S100000x10x128 [2] [0] [] [0] [] 2 ![1, 128]
  gather_S200000x128_S100000x10x1_S100000x10x128_2_0_n_n_0_2_1128_wf : GatherDims.WF S200000x128 S100000x10x1 S100000x10x128 [2] [0] [] [0] [] 2 ![1, 128]
  dot_S1000x151_S151x512_S1000x512_1_0_0_1_n_n_wf : DotDims.WF S1000x151 S151x512 S1000x512 [1] [0] [0] [1] [] []
  dot_S1000x128_S128x512_S1000x512_1_0_0_1_n_n_wf : DotDims.WF S1000x128 S128x512 S1000x512 [1] [0] [0] [1] [] []
  dot_S1000x512_S512x128_S1000x128_1_0_0_1_n_n_wf : DotDims.WF S1000x512 S512x128 S1000x128 [1] [0] [0] [1] [] []
  scatter_S1024_S100000x1_S100000_n_0_0_1_wf : ScatterDims.WF S1024 S100000x1 S100000 [] [0] [0] 1
  scatter_S1024x128_S100000x1_S100000x128_1_0_0_1_wf : ScatterDims.WF S1024x128 S100000x1 S100000x128 [1] [0] [0] 1
  dot_S1024x128_S128x512_S1024x512_1_0_0_1_n_n_wf : DotDims.WF S1024x128 S128x512 S1024x512 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x151.size a ≤ S100000x151.size a
  hwx0_0 : ∀ i : grid0.Coords, EltTy.bits .f32 = 32 ∨ (Rect.block (s := S100000x151) S1000x151.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S100000x128.size a
  hwx0_1 : ∀ i : grid0.Coords, EltTy.bits .f32 = 32 ∨ (Rect.block (s := S100000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S151x512.size a ≤ S151x512.size a
  hwx0_3 : ∀ i : grid0.Coords, EltTy.bits .f32 = 32 ∨ (Rect.block (s := S151x512) S151x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .f32 = 32 ∨ (Rect.block (s := S512x128) S512x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S151x512.size a ≤ S151x512.size a
  hwx0_10 : ∀ i : grid0.Coords, EltTy.bits .f32 = 32 ∨ (Rect.block (s := S151x512) S151x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x512.size a ≤ S128x512.size a
  hwx0_11 : ∀ i : grid0.Coords, EltTy.bits .f32 = 32 ∨ (Rect.block (s := S128x512) S128x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x128.size a ≤ S512x128.size a
  hwx0_13 : ∀ i : grid0.Coords, EltTy.bits .f32 = 32 ∨ (Rect.block (s := S512x128) S512x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1000x128.size a ≤ S100000x128.size a
  hwx0_17 : ∀ i : grid0.Coords, EltTy.bits .f32 = 32 ∨ (Rect.block (s := S100000x128) S1000x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1000x128.size a ≤ S100000x128.size a
  hwx0_18 : ∀ i : grid0.Coords, EltTy.bits .f32 = 32 ∨ (Rect.block (s := S100000x128) S1000x128.size (cc0_transform_18 i) (hinb0_18 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x128.size a
  hwx1_0 : ∀ i : grid1.Coords, EltTy.bits .f32 = 32 ∨ (Rect.block (s := S1024x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .f32 = 32 ∨ (Rect.block (s := S128x512) S128x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S512x1.size a
  hwx1_4 : ∀ i : grid1.Coords, EltTy.bits .f32 = 32 ∨ (Rect.block (s := S512x1) S512x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x512.size a ≤ S128x512.size a
  hwx1_6 : ∀ i : grid1.Coords, EltTy.bits .f32 = 32 ∨ (Rect.block (s := S128x512) S128x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x1.size a ≤ S512x1.size a
  hwx1_8 : ∀ i : grid1.Coords, EltTy.bits .f32 = 32 ∨ (Rect.block (s := S512x1) S512x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1024x1.size a ≤ S1024x1.size a
  hwx1_10 : ∀ i : grid1.Coords, EltTy.bits .f32 = 32 ∨ (Rect.block (s := S1024x1) S1024x1.size (cc1_transform_10 i) (hinb1_10 i)).WholeWords (EltTy.packing .f32)

variable [Facts₀]

def gather_S100000x128_S100000x10x1_S100000x10x128_2_0_n_n_0_2_1128 : GatherDims S100000x128 S100000x10x1 S100000x10x128 where
  offsetDims := [2]
  collapsedSliceDims := [0]
  operandBatchingDims := []
  startIndicesBatchingDims := []
  startIndexMap := [0]
  indexVectorDim := 2
  sliceSizes := ![1, 128]
  wf := gather_S100000x128_S100000x10x1_S100000x10x128_2_0_n_n_0_2_1128_wf
def gather_S200000x128_S100000x10x1_S100000x10x128_2_0_n_n_0_2_1128 : GatherDims S200000x128 S100000x10x1 S100000x10x128 where
  offsetDims := [2]
  collapsedSliceDims := [0]
  operandBatchingDims := []
  startIndicesBatchingDims := []
  startIndexMap := [0]
  indexVectorDim := 2
  sliceSizes := ![1, 128]
  wf := gather_S200000x128_S100000x10x1_S100000x10x128_2_0_n_n_0_2_1128_wf
def dot_S1000x151_S151x512_S1000x512_1_0_0_1_n_n : DotDims S1000x151 S151x512 S1000x512 where
  lhsContracting := [1]
  rhsContracting := [0]
  lhsNonContracting := [0]
  rhsNonContracting := [1]
  lhsBatch := []
  rhsBatch := []
  wf := dot_S1000x151_S151x512_S1000x512_1_0_0_1_n_n_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_arg2) S1000x151.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S151x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S512x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S151x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S128x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S512x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v14) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v15) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v16_0) S1000x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v16_1) S1000x128.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_v28) S1024x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg18) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg20) S512x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg22) S128x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg24) S512x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v38) S1024x1.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x128 : Shape := ⟨2, ![100000, 128]⟩
abbrev S200000x128 : Shape := ⟨2, ![200000, 128]⟩
abbrev S100000x151 : Shape := ⟨2, ![100000, 151]⟩
abbrev S100000x10 : Shape := ⟨2, ![100000, 10]⟩
abbrev S100000 : Shape := ⟨1, ![100000]⟩
abbrev S279x512 : Shape := ⟨2, ![279, 512]⟩
abbrev S512 : Shape := ⟨1, ![512]⟩
abbrev S512x128 : Shape := ⟨2, ![512, 128]⟩
abbrev S128 : Shape := ⟨1, ![128]⟩
abbrev S128x512 : Shape := ⟨2, ![128, 512]⟩
abbrev S512x1 : Shape := ⟨2, ![512, 1]⟩
abbrev S1 : Shape := ⟨1, ![1]⟩
abbrev S_ : Shape := ⟨0, ![]⟩
abbrev S100000x10x1 : Shape := ⟨3, ![100000, 10, 1]⟩
abbrev S1x1x1 : Shape := ⟨3, ![1, 1, 1]⟩
abbrev S100000x10x128 : Shape := ⟨3, ![100000, 10, 128]⟩
abbrev S100000x279 : Shape := ⟨2, ![100000, 279]⟩
abbrev S100000x512 : Shape := ⟨2, ![100000, 512]⟩
abbrev S1x512 : Shape := ⟨2, ![1, 512]⟩
abbrev S1x128 : Shape := ⟨2, ![1, 128]⟩
abbrev S100000x1 : Shape := ⟨2, ![100000, 1]⟩
abbrev S1024 : Shape := ⟨1, ![1024]⟩
abbrev S1024x1 : Shape := ⟨2, ![1024, 1]⟩
abbrev S1024x128 : Shape := ⟨2, ![1024, 128]⟩
abbrev S1024x512 : Shape := ⟨2, ![1024, 512]⟩
abbrev S1x1 : Shape := ⟨2, ![1, 1]⟩

abbrev nBuf : Space → Nat
  | .hbm => 206
  | .vmem => 0
  | .smem => 0
  | _ => 0

abbrev hbmTy0_0 (i : Nat) : BufTy := match i % 128 with
  | 0 => ⟨S100000x128, .f32⟩
  | 1 => ⟨S200000x128, .f32⟩
  | 2 => ⟨S100000x151, .f32⟩
  | 3 => ⟨S100000x10, .i32⟩
  | 4 => ⟨S100000x10, .i32⟩
  | 5 => ⟨S100000, .i32⟩
  | 6 => ⟨S279x512, .f32⟩
  | 7 => ⟨S512, .f32⟩
  | 8 => ⟨S512x128, .f32⟩
  | 9 => ⟨S128, .f32⟩
  | 10 => ⟨S128, .f32⟩
  | 11 => ⟨S128, .f32⟩
  | 12 => ⟨S279x512, .f32⟩
  | 13 => ⟨S512, .f32⟩
  | 14 => ⟨S512x128, .f32⟩
  | 15 => ⟨S128, .f32⟩
  | 16 => ⟨S128, .f32⟩
  | 17 => ⟨S128, .f32⟩
  | 18 => ⟨S128x512, .f32⟩
  | 19 => ⟨S512, .f32⟩
  | 20 => ⟨S512x1, .f32⟩
  | 21 => ⟨S1, .f32⟩
  | 22 => ⟨S128x512, .f32⟩
  | 23 => ⟨S512, .f32⟩
  | 24 => ⟨S512x1, .f32⟩
  | 25 => ⟨S1, .f32⟩
  | 26 => ⟨S_, .i32⟩
  | 27 => ⟨S100000x10, .i32⟩
  | 28 => ⟨S100000x10, .i1⟩
  | 29 => ⟨S_, .i32⟩
  | 30 => ⟨S100000x10, .i32⟩
  | 31 => ⟨S100000x10, .i32⟩
  | 32 => ⟨S100000x10, .i32⟩
  | 33 => ⟨S100000x10x1, .i32⟩
  | 34 => ⟨S1, .i32⟩
  | 35 => ⟨S_, .i32⟩
  | 36 => ⟨S100000x10x1, .i32⟩
  | 37 => ⟨S100000x10x1, .i1⟩
  | 38 => ⟨S1x1x1, .i32⟩
  | 39 => ⟨S100000x10x1, .i32⟩
  | 40 => ⟨S100000x10x1, .i1⟩
  | 41 => ⟨S100000x10x1, .i1⟩
  | 42 => ⟨S_, .i1⟩
  | 43 => ⟨S100000x10, .i1⟩
  | 44 => ⟨S100000x10x128, .f32⟩
  | 45 => ⟨S100000x10x128, .i1⟩
  | 46 => ⟨S_, .f32⟩
  | 47 => ⟨S100000x10x128, .f32⟩
  | 48 => ⟨S100000x10x128, .f32⟩
  | 49 => ⟨S_, .f32⟩
  | 50 => ⟨S100000x128, .f32⟩
  | 51 => ⟨S100000x279, .f32⟩
  | 52 => ⟨S100000x512, .f32⟩
  | 53 => ⟨S1x512, .f32⟩
  | 54 => ⟨S100000x512, .f32⟩
  | 55 => ⟨S100000x512, .f32⟩
  | 56 => ⟨S_, .f32⟩
  | 57 => ⟨S100000x512, .f32⟩
  | 58 => ⟨S100000x512, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000, .f32⟩
  | 65 => ⟨S100000x1, .f32⟩
  | 66 => ⟨S_, .f32⟩
  | 67 => ⟨S100000x1, .f32⟩
  | 68 => ⟨S100000x1, .f32⟩
  | 69 => ⟨S100000x128, .f32⟩
  | 70 => ⟨S100000x128, .f32⟩
  | 71 => ⟨S100000x128, .f32⟩
  | 72 => ⟨S_, .f32⟩
  | 73 => ⟨S100000, .f32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S_, .f32⟩
  | 81 => ⟨S100000x1, .f32⟩
  | 82 => ⟨S100000x1, .f32⟩
  | 83 => ⟨S100000x1, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .i32⟩
  | 93 => ⟨S100000x10, .i32⟩
  | 94 => ⟨S100000x10, .i1⟩
  | 95 => ⟨S_, .i32⟩
  | 96 => ⟨S100000x10, .i32⟩
  | 97 => ⟨S100000x10, .i32⟩
  | 98 => ⟨S100000x10, .i32⟩
  | 99 => ⟨S100000x10x1, .i32⟩
  | 100 => ⟨S1, .i32⟩
  | 101 => ⟨S_, .i32⟩
  | 102 => ⟨S100000x10x1, .i32⟩
  | 103 => ⟨S100000x10x1, .i1⟩
  | 104 => ⟨S1x1x1, .i32⟩
  | 105 => ⟨S100000x10x1, .i32⟩
  | 106 => ⟨S100000x10x1, .i1⟩
  | 107 => ⟨S100000x10x1, .i1⟩
  | 108 => ⟨S_, .i1⟩
  | 109 => ⟨S100000x10, .i1⟩
  | 110 => ⟨S100000x10x128, .f32⟩
  | 111 => ⟨S100000x10x128, .i1⟩
  | 112 => ⟨S_, .f32⟩
  | 113 => ⟨S100000x10x128, .f32⟩
  | 114 => ⟨S100000x10x128, .f32⟩
  | 115 => ⟨S_, .f32⟩
  | 116 => ⟨S100000x128, .f32⟩
  | 117 => ⟨S100000x279, .f32⟩
  | 118 => ⟨S100000x512, .f32⟩
  | 119 => ⟨S1x512, .f32⟩
  | 120 => ⟨S100000x512, .f32⟩
  | 121 => ⟨S100000x512, .f32⟩
  | 122 => ⟨S_, .f32⟩
  | 123 => ⟨S100000x512, .f32⟩
  | 124 => ⟨S100000x512, .f32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000, .f32⟩
  | 3 => ⟨S100000x1, .f32⟩
  | 4 => ⟨S_, .f32⟩
  | 5 => ⟨S100000x1, .f32⟩
  | 6 => ⟨S100000x1, .f32⟩
  | 7 => ⟨S100000x128, .f32⟩
  | 8 => ⟨S100000x128, .f32⟩
  | 9 => ⟨S100000x128, .f32⟩
  | 10 => ⟨S_, .f32⟩
  | 11 => ⟨S100000, .f32⟩
  | 12 => ⟨S100000x1, .f32⟩
  | 13 => ⟨S_, .f32⟩
  | 14 => ⟨S100000x1, .f32⟩
  | 15 => ⟨S100000x1, .f32⟩
  | 16 => ⟨S100000x128, .f32⟩
  | 17 => ⟨S100000x128, .f32⟩
  | 18 => ⟨S_, .f32⟩
  | 19 => ⟨S100000x1, .f32⟩
  | 20 => ⟨S100000x1, .f32⟩
  | 21 => ⟨S100000x1, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000, .f32⟩
  | 32 => ⟨S_, .f32⟩
  | 33 => ⟨S1024, .f32⟩
  | 34 => ⟨S100000x1, .i32⟩
  | 35 => ⟨S1024, .f32⟩
  | 36 => ⟨S_, .f32⟩
  | 37 => ⟨S1024, .f32⟩
  | 38 => ⟨S1024, .f32⟩
  | 39 => ⟨S1024x1, .f32⟩
  | 40 => ⟨S_, .f32⟩
  | 41 => ⟨S1024x128, .f32⟩
  | 42 => ⟨S100000x1, .i32⟩
  | 43 => ⟨S1024x128, .f32⟩
  | 44 => ⟨S1024x128, .f32⟩
  | 45 => ⟨S1024x128, .f32⟩
  | 46 => ⟨S_, .f32⟩
  | 47 => ⟨S1024x128, .f32⟩
  | 48 => ⟨S100000x1, .i32⟩
  | 49 => ⟨S1024x128, .f32⟩
  | 50 => ⟨S1024x128, .f32⟩
  | 51 => ⟨S1024x128, .f32⟩
  | 52 => ⟨S1024x512, .f32⟩
  | 53 => ⟨S1x512, .f32⟩
  | 54 => ⟨S1024x512, .f32⟩
  | 55 => ⟨S1024x512, .f32⟩
  | 56 => ⟨S_, .f32⟩
  | 57 => ⟨S1024x512, .f32⟩
  | 58 => ⟨S1024x512, .f32⟩
  | 59 => ⟨S1024x1, .f32⟩
  | 60 => ⟨S1x1, .f32⟩
  | 61 => ⟨S1024x1, .f32⟩
  | 62 => ⟨S1024x1, .f32⟩
  | 63 => ⟨S1024x512, .f32⟩
  | 64 => ⟨S1x512, .f32⟩
  | 65 => ⟨S1024x512, .f32⟩
  | 66 => ⟨S1024x512, .f32⟩
  | 67 => ⟨S_, .f32⟩
  | 68 => ⟨S1024x512, .f32⟩
  | 69 => ⟨S1024x512, .f32⟩
  | 70 => ⟨S1024x1, .f32⟩
  | 71 => ⟨S1x1, .f32⟩
  | 72 => ⟨S1024x1, .f32⟩
  | 73 => ⟨S1024x1, .f32⟩
  | 74 => ⟨S1024x1, .f32⟩
  | 75 => ⟨S_, .f32⟩
  | 76 => ⟨S1024x1, .f32⟩
  | 77 => ⟨S1024x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v0 : Ref sig .tc := ⟨.hbm, 48, rfl⟩
abbrev main_cst : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_call1_cst : Ref sig .tc := ⟨.hbm, 56, rfl⟩
abbrev main_call1_v0 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_cst_0 : Ref sig .tc := ⟨.hbm, 63, rfl⟩
abbrev main_v12 : Ref sig .tc := ⟨.hbm, 64, rfl⟩
abbrev main_v13 : Ref sig .tc := ⟨.hbm, 65, rfl⟩
abbrev main_cst_1 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_cst_2 : Ref sig .tc := ⟨.hbm, 72, rfl⟩
abbrev main_v19 : Ref sig .tc := ⟨.hbm, 73, rfl⟩
abbrev main_v20 : Ref sig .tc := ⟨.hbm, 74, rfl⟩
abbrev main_cst_3 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_cst_4 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v36 : Ref sig .tc := ⟨.hbm, 114, rfl⟩
abbrev main_cst_5 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_call3_cst : Ref sig .tc := ⟨.hbm, 122, rfl⟩
abbrev main_call3_v0 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_cst_6 : Ref sig .tc := ⟨.hbm, 129, rfl⟩
abbrev main_v48 : Ref sig .tc := ⟨.hbm, 130, rfl⟩
abbrev main_v49 : Ref sig .tc := ⟨.hbm, 131, rfl⟩
abbrev main_cst_7 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_cst_8 : Ref sig .tc := ⟨.hbm, 138, rfl⟩
abbrev main_v55 : Ref sig .tc := ⟨.hbm, 139, rfl⟩
abbrev main_v56 : Ref sig .tc := ⟨.hbm, 140, rfl⟩
abbrev main_cst_9 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_cst_10 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_cst_11 : Ref sig .tc := ⟨.hbm, 158, rfl⟩
abbrev main_v72 : Ref sig .tc := ⟨.hbm, 159, rfl⟩
abbrev main_cst_12 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_cst_13 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_cst_14 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_cst_15 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_call4_cst : Ref sig .tc := ⟨.hbm, 184, rfl⟩
abbrev main_call4_v0 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_call5_cst : Ref sig .tc := ⟨.hbm, 195, rfl⟩
abbrev main_call5_v0 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_cst_16 : Ref sig .tc := ⟨.hbm, 203, rfl⟩
abbrev main_v108 : Ref sig .tc := ⟨.hbm, 204, rfl⟩
abbrev main_v109 : Ref sig .tc := ⟨.hbm, 205, rfl⟩

abbrev nD : Nat := 1
abbrev τ : Topo := Topo.v7x

variable {F : FTy → Type} [FloatOps F]

class Facts₀ : Prop where
  bcast_S_S100000x10 : S_.BroadcastsInDim S100000x10 (![] : Fin 0 → Fin S100000x10.rank)
  bcast_S100000x10_S100000x10x1_0_1 : S100000x10.BroadcastsInDim S100000x10x1 (![0, 1] : Fin 2 → Fin S100000x10x1.rank)
  bcast_S_S100000x10x1 : S_.BroadcastsInDim S100000x10x1 (![] : Fin 0 → Fin S100000x10x1.rank)
  bcast_S1_S1x1x1_2 : S1.BroadcastsInDim S1x1x1 (![2] : Fin 1 → Fin S1x1x1.rank)
  bcast_S1x1x1_S100000x10x1_0_1_2 : S1x1x1.BroadcastsInDim S100000x10x1 (![0, 1, 2] : Fin 3 → Fin S100000x10x1.rank)
  reducesTo_S100000x10x1_S100000x10_d2 : S100000x10x1.ReducesTo [2] S100000x10
  h_S_ : 0 < S_.numel
  bcast_S100000x10_S100000x10x128_0_1 : S100000x10.BroadcastsInDim S100000x10x128 (![0, 1] : Fin 2 → Fin S100000x10x128.rank)
  bcast_S_S100000x10x128 : S_.BroadcastsInDim S100000x10x128 (![] : Fin 0 → Fin S100000x10x128.rank)
  reducesTo_S100000x10x128_S100000x128_d1 : S100000x10x128.ReducesTo [1] S100000x128
  concatenates_S100000x151_S100000x128_S100000x279_d1 : Shape.Concatenates [S100000x151, S100000x128] S100000x279 1
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100000 : S_.BroadcastsInDim S100000 (![] : Fin 0 → Fin S100000.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S1024x128 : S_.BroadcastsInDim S1024x128 (![] : Fin 0 → Fin S1024x128.rank)
  bcast_S1024x1_S1024x128_0_1 : S1024x1.BroadcastsInDim S1024x128 (![0, 1] : Fin 2 → Fin S1024x128.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  gather_S100000x128_S100000x10x1_S100000x10x128_2_0_n_n_0_2_1128_wf : GatherDims.WF S100000x128 S100000x10x1 S100000x10x128 [2] [0] [] [0] [] 2 ![1, 128]
  dot_S100000x279_S279x512_S100000x512_1_0_0_1_n_n_wf : DotDims.WF S100000x279 S279x512 S100000x512 [1] [0] [0] [1] [] []
  dot_S100000x512_S512x128_S100000x128_1_0_0_1_n_n_wf : DotDims.WF S100000x512 S512x128 S100000x128 [1] [0] [0] [1] [] []
  gather_S200000x128_S100000x10x1_S100000x10x128_2_0_n_n_0_2_1128_wf : GatherDims.WF S200000x128 S100000x10x1 S100000x10x128 [2] [0] [] [0] [] 2 ![1, 128]
  scatter_S1024_S100000x1_S100000_n_0_0_1_wf : ScatterDims.WF S1024 S100000x1 S100000 [] [0] [0] 1
  scatter_S1024x128_S100000x1_S100000x128_1_0_0_1_wf : ScatterDims.WF S1024x128 S100000x1 S100000x128 [1] [0] [0] 1
  dot_S1024x128_S128x512_S1024x512_1_0_0_1_n_n_wf : DotDims.WF S1024x128 S128x512 S1024x512 [1] [0] [0] [1] [] []
  dot_S1024x512_S512x1_S1024x1_1_0_0_1_n_n_wf : DotDims.WF S1024x512 S512x1 S1024x1 [1] [0] [0] [1] [] []

variable [Facts₀]

def gather_S100000x128_S100000x10x1_S100000x10x128_2_0_n_n_0_2_1128 : GatherDims S100000x128 S100000x10x1 S100000x10x128 where
  offsetDims := [2]
  collapsedSliceDims := [0]
  operandBatchingDims := []
  startIndicesBatchingDims := []
  startIndexMap := [0]
  indexVectorDim := 2
  sliceSizes := ![1, 128]
  wf := gather_S100000x128_S100000x10x1_S100000x10x128_2_0_n_n_0_2_1128_wf
def dot_S100000x279_S279x512_S100000x512_1_0_0_1_n_n : DotDims S100000x279 S279x512 S100000x512 where
  lhsContracting := [1]
  rhsContracting := [0]
  lhsNonContracting := [0]
  rhsNonContracting := [1]
  lhsBatch := []
  rhsBatch := []
  wf := dot_S100000x279_S279x512_S100000x512_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S200000x128_S100000x10x1_S100000x10x128_2_0_n_n_0_2_1128 : GatherDims S200000x128 S100000x10x1 S100000x10x128 where
  offsetDims := [2]
  collapsedSliceDims := [0]
  operandBatchingDims := []
  startIndicesBatchingDims := []
  startIndexMap := [0]
  indexVectorDim := 2
  sliceSizes := ![1, 128]
  wf := gather_S200000x128_S100000x10x1_S100000x10x128_2_0_n_n_0_2_1128_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

class Facts : Prop extends Facts₀ where

variable [Facts]
-- ==== Proof.KRun.lean ====
/-
  The kernel program's run with its result named. The program is a chain of host stretches and two
  pipelined regions; the contents of every buffer at each boundary of the chain form a fold from the launch
  memory (a stretch rewrites the buffers its operations write, a region leaves its arrays at what its
  write-backs produce and every other buffer as it found it). The run's final memory agrees with the last
  boundary of that fold on every unscoped buffer; read at the result buffer this names the result, and read
  at each argument it gives the argument as launched.
-/
import proofs.«100054_j87634512707836_1_alg».proof.Proof.Gen.KernelIdeal.Frame

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with the statement, which
-- takes unfolding plain definitions in a metavariable's type
set_option backward.isDefEq.respectTransparency.types false in
/-- From any memory with zero counters every weakly fair execution of the program on the TensorCores
    terminates without fault, and in every final state the result buffer holds the last boundary's contents
    of the fold and every argument holds what it held at launch. -/
theorem run : θ_run defs (onTc (τ := τ) (main (F := F))) ⟨m, fun _ => 0, ρ⟩ (fun r => ∀ c : Dev nD,
      r.2.mem ((c.tc : Thread nD τ).loc main_v38) = W7 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v38 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c),
       (h c _ (mem_uc main_arg20 (by decide))).trans (W7_main_arg20 m ρ c),
       (h c _ (mem_uc main_arg21 (by decide))).trans (W7_main_arg21 m ρ c),
       (h c _ (mem_uc main_arg22 (by decide))).trans (W7_main_arg22 m ρ c),
       (h c _ (mem_uc main_arg23 (by decide))).trans (W7_main_arg23 m ρ c),
       (h c _ (mem_uc main_arg24 (by decide))).trans (W7_main_arg24 m ρ c),
       (h c _ (mem_uc main_arg25 (by decide))).trans (W7_main_arg25 m ρ c)⟩)

end Cert.KRun

end
-- ==== Proof.KFns.lean ====
/-
  The kernel program's host stages as named functions of whole arrays: each is the composition of the
  program's own host operations, in order, for one mathematical step — the clamped row gather (a negative
  index wraps once, an index still out of range yields the fill value), the sum over an atom's neighbours,
  the count of atoms per molecule, and the per-molecule mean of atom rows.
-/
import proofs.«100054_j87634512707836_1_alg».proof.KernelIdeal
import proofs.«100054_j87634512707836_1_alg».proof.Proof.Gen.KernelIdeal

noncomputable section

namespace Cert.KFns

open Idealize.ShloMosaic Cert.KernelIdeal Cert.KernelIdeal.Gen

variable {F : FTy → Type} [FloatOps F]

/-- Rows of a 100000-row table gathered at 10 indices per atom: a negative index wraps once, an index still
    outside the table yields the fill value. -/
def takeA (x : (⟨S100000x128, .f32⟩ : BufTy).Contents (Elt F)) (idx : (⟨S100000x10, .i32⟩ : BufTy).Contents (Elt F)) :
    (⟨S100000x10x128, .f32⟩ : BufTy).Contents (Elt F) :=
  have c : (⟨S_, .i32⟩ : BufTy).Contents (Elt F) := constantI S_ 32 0#32
  have v0 : (⟨S100000x10, .i32⟩ : BufTy).Contents (Elt F) := broadcastInDim S100000x10 ![] bcast_S_S100000x10 c
  have v1 : (⟨S100000x10, .i1⟩ : BufTy).Contents (Elt F) := cmpi .slt idx v0
  have c_0 : (⟨S_, .i32⟩ : BufTy).Contents (Elt F) := constantI S_ 32 100000#32
  have v2 : (⟨S100000x10, .i32⟩ : BufTy).Contents (Elt F) := broadcastInDim S100000x10 ![] bcast_S_S100000x10 c_0
  have v3 : (⟨S100000x10, .i32⟩ : BufTy).Contents (Elt F) := addi idx v2
  have v4 : (⟨S100000x10, .i32⟩ : BufTy).Contents (Elt F) := select v1 v3 idx
  have v5 : (⟨S100000x10x1, .i32⟩ : BufTy).Contents (Elt F) := broadcastInDim S100000x10x1 ![0, 1] bcast_S100000x10_S100000x10x1_0_1 v4
  have c_1 : (⟨S1, .i32⟩ : BufTy).Contents (Elt F) := constantI S1 32 99999#32
  have c_2 : (⟨S_, .i32⟩ : BufTy).Contents (Elt F) := constantI S_ 32 0#32
  have v6 : (⟨S100000x10x1, .i32⟩ : BufTy).Contents (Elt F) := broadcastInDim S100000x10x1 ![] bcast_S_S100000x10x1 c_2
  have v7 : (⟨S100000x10x1, .i1⟩ : BufTy).Contents (Elt F) := cmpi .sge v5 v6
  have v8 : (⟨S1x1x1, .i32⟩ : BufTy).Contents (Elt F) := broadcastInDim S1x1x1 ![2] bcast_S1_S1x1x1_2 c_1
  have v9 : (⟨S100000x10x1, .i32⟩ : BufTy).Contents (Elt F) := broadcastInDim S100000x10x1 ![0, 1, 2] bcast_S1x1x1_S100000x10x1_0_1_2 v8
  have v10 : (⟨S100000x10x1, .i1⟩ : BufTy).Contents (Elt F) := cmpi .sle v5 v9
  have v11 : (⟨S100000x10x1, .i1⟩ : BufTy).Contents (Elt F) := andi v7 v10
  have c_3 : (⟨S_, .i1⟩ : BufTy).Contents (Elt F) := constantI S_ 1 1#1
  have v12 : (⟨S100000x10, .i1⟩ : BufTy).Contents (Elt F) := Host.reduce IntOp.andi v11 c_3 reducesTo_S100000x10x1_S100000x10_d2 h_S_
  have v13 : (⟨S100000x10x128, .f32⟩ : BufTy).Contents (Elt F) := Host.gather gather_S100000x128_S100000x10x1_S100000x10x128_2_0_n_n_0_2_1128 x v5
  have v14 : (⟨S100000x10x128, .i1⟩ : BufTy).Contents (Elt F) := broadcastInDim S100000x10x128 ![0, 1] bcast_S100000x10_S100000x10x128_0_1 v12
  have cst : (⟨S_, .f32⟩ : BufTy).Contents (Elt F) := constant S_ .f32 0x7FC00000#32
  have v15 : (⟨S100000x10x128, .f32⟩ : BufTy).Contents (Elt F) := broadcastInDim S100000x10x128 ![] bcast_S_S100000x10x128 cst
  select v14 v13 v15

/-- The same gather from the 200000-row table. -/
def takeB (x : (⟨S200000x128, .f32⟩ : BufTy).Contents (Elt F)) (idx : (⟨S100000x10, .i32⟩ : BufTy).Contents (Elt F)) :
    (⟨S100000x10x128, .f32⟩ : BufTy).Contents (Elt F) :=
  have c : (⟨S_, .i32⟩ : BufTy).Contents (Elt F) := constantI S_ 32 0#32
  have v0 : (⟨S100000x10, .i32⟩ : BufTy).Contents (Elt F) := broadcastInDim S100000x10 ![] bcast_S_S100000x10 c
  have v1 : (⟨S100000x10, .i1⟩ : BufTy).Contents (Elt F) := cmpi .slt idx v0
  have c_0 : (⟨S_, .i32⟩ : BufTy).Contents (Elt F) := constantI S_ 32 200000#32
  have v2 : (⟨S100000x10, .i32⟩ : BufTy).Contents (Elt F) := broadcastInDim S100000x10 ![] bcast_S_S100000x10 c_0
  have v3 : (⟨S100000x10, .i32⟩ : BufTy).Contents (Elt F) := addi idx v2
  have v4 : (⟨S100000x10, .i32⟩ : BufTy).Contents (Elt F) := select v1 v3 idx
  have v5 : (⟨S100000x10x1, .i32⟩ : BufTy).Contents (Elt F) := broadcastInDim S100000x10x1 ![0, 1] bcast_S100000x10_S100000x10x1_0_1 v4
  have c_1 : (⟨S1, .i32⟩ : BufTy).Contents (Elt F) := constantI S1 32 199999#32
  have c_2 : (⟨S_, .i32⟩ : BufTy).Contents (Elt F) := constantI S_ 32 0#32
  have v6 : (⟨S100000x10x1, .i32⟩ : BufTy).Contents (Elt F) := broadcastInDim S100000x10x1 ![] bcast_S_S100000x10x1 c_2
  have v7 : (⟨S100000x10x1, .i1⟩ : BufTy).Contents (Elt F) := cmpi .sge v5 v6
  have v8 : (⟨S1x1x1, .i32⟩ : BufTy).Contents (Elt F) := broadcastInDim S1x1x1 ![2] bcast_S1_S1x1x1_2 c_1
  have v9 : (⟨S100000x10x1, .i32⟩ : BufTy).Contents (Elt F) := broadcastInDim S100000x10x1 ![0, 1, 2] bcast_S1x1x1_S100000x10x1_0_1_2 v8
  have v10 : (⟨S100000x10x1, .i1⟩ : BufTy).Contents (Elt F) := cmpi .sle v5 v9
  have v11 : (⟨S100000x10x1, .i1⟩ : BufTy).Contents (Elt F) := andi v7 v10
  have c_3 : (⟨S_, .i1⟩ : BufTy).Contents (Elt F) := constantI S_ 1 1#1
  have v12 : (⟨S100000x10, .i1⟩ : BufTy).Contents (Elt F) := Host.reduce IntOp.andi v11 c_3 reducesTo_S100000x10x1_S100000x10_d2 h_S_
  have v13 : (⟨S100000x10x128, .f32⟩ : BufTy).Contents (Elt F) := Host.gather gather_S200000x128_S100000x10x1_S100000x10x128_2_0_n_n_0_2_1128 x v5
  have v14 : (⟨S100000x10x128, .i1⟩ : BufTy).Contents (Elt F) := broadcastInDim S100000x10x128 ![0, 1] bcast_S100000x10_S100000x10x128_0_1 v12
  have cst : (⟨S_, .f32⟩ : BufTy).Contents (Elt F) := constant S_ .f32 0x7FC00000#32
  have v15 : (⟨S100000x10x128, .f32⟩ : BufTy).Contents (Elt F) := broadcastInDim S100000x10x128 ![] bcast_S_S100000x10x128 cst
  select v14 v13 v15

/-- The sum of an atom's 10 gathered neighbour rows. -/
def aggr (t : (⟨S100000x10x128, .f32⟩ : BufTy).Contents (Elt F)) : (⟨S100000x128, .f32⟩ : BufTy).Contents (Elt F) :=
  Host.reduceAdd t (constant S_ .f32 0x00000000#32) reducesTo_S100000x10x128_S100000x128_d1 h_S_

/-- The number of atoms of each molecule, at least one, as a column. -/
def cnt (mol : (⟨S100000, .i32⟩ : BufTy).Contents (Elt F)) : (⟨S1024x1, .f32⟩ : BufTy).Contents (Elt F) :=
  have v72 : (⟨S100000, .f32⟩ : BufTy).Contents (Elt F) := broadcastInDim S100000 ![] bcast_S_S100000 (constant S_ .f32 0x3F800000#32)
  have v73 : (⟨S1024, .f32⟩ : BufTy).Contents (Elt F) := broadcastInDim S1024 ![] bcast_S_S1024 (constant S_ .f32 0x00000000#32)
  have v74 : (⟨S100000x1, .i32⟩ : BufTy).Contents (Elt F) := broadcastInDim S100000x1 ![0] bcast_S100000_S100000x1_0 mol
  have v75 : (⟨S1024, .f32⟩ : BufTy).Contents (Elt F) := Host.scatterAdd scatter_S1024_S100000x1_S100000_n_0_0_1 v73 v74 v72
  have v76 : (⟨S1024, .f32⟩ : BufTy).Contents (Elt F) := broadcastInDim S1024 ![] bcast_S_S1024 (constant S_ .f32 0x3F800000#32)
  have v77 : (⟨S1024, .f32⟩ : BufTy).Contents (Elt F) := maximumf v75 v76
  broadcastInDim S1024x1 ![0] bcast_S1024_S1024x1_0 v77

/-- The per-molecule mean of atom rows: the rows of each molecule summed, divided by the molecule's count. -/
def segMean (mol : (⟨S100000, .i32⟩ : BufTy).Contents (Elt F)) (x : (⟨S100000x128, .f32⟩ : BufTy).Contents (Elt F)) :
    (⟨S1024x128, .f32⟩ : BufTy).Contents (Elt F) :=
  have v79 : (⟨S1024x128, .f32⟩ : BufTy).Contents (Elt F) := broadcastInDim S1024x128 ![] bcast_S_S1024x128 (constant S_ .f32 0x00000000#32)
  have v80 : (⟨S100000x1, .i32⟩ : BufTy).Contents (Elt F) := broadcastInDim S100000x1 ![0] bcast_S100000_S100000x1_0 mol
  have v81 : (⟨S1024x128, .f32⟩ : BufTy).Contents (Elt F) := Host.scatterAdd scatter_S1024x128_S100000x1_S100000x128_1_0_0_1 v79 v80 x
  have v82 : (⟨S1024x128, .f32⟩ : BufTy).Contents (Elt F) := broadcastInDim S1024x128 ![0, 1] bcast_S1024x1_S1024x128_0_1 (cnt mol)
  Host.divf v81 v82

end Cert.KFns

end
-- ==== Proof.KHost.lean ====
/-
  What each region of the kernel program finds in its input arrays and leaves in its output arrays, read
  off the fold of buffer contents along the program's chain. A host stretch rewrites exactly the buffers its
  operations write, so a buffer is followed backwards through the stretches that leave it alone to the one
  that computes it, and that stretch's operations compose to one of the named stages (the clamped gather,
  the neighbour sum, the per-molecule mean) or to a single slice or reshape of an argument; an argument no
  stretch writes and no region stores to is still as launched.
-/
import proofs.«100054_j87634512707836_1_alg».proof.Proof.Gen.KernelIdeal.Frame
import proofs.«100054_j87634512707836_1_alg».proof.Proof.KFns

set_option maxRecDepth 16384

noncomputable section

namespace Cert.KHost

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after after_cons after_nil)
open Cert.KernelIdeal Cert.KernelIdeal.Gen

variable {F : FTy → Type} [FloatOps F]

/-- Contents moved to a buffer's own type and back are unchanged. -/
theorem ofBuf_toBuf {Val : EltTy → Type} {T : BufTy} (x : StableHlo.TRef sig T) (v : T.Contents Val) :
    x.ofBuf (x.toBuf v) = v := by
  obtain ⟨r, h, h1, h2⟩ := x
  subst h
  rfl

/-- The same when the two transports carry different proofs of the buffer's facts. -/
theorem ofBuf_toBuf' {Val : EltTy → Type} {T : BufTy} (r : Ref sig .tc) (h h' : r.ty = T) (a a' : r.space ≠ .host)
    (b b' : r.isScoped = false) (v : T.Contents Val) :
    (StableHlo.TRef.of r h a b).ofBuf ((StableHlo.TRef.of r h' a' b').toBuf v) = v :=
  ofBuf_toBuf (StableHlo.TRef.of r h a b) v

/-- Contents moved to a buffer's own type, when that type is the stated one, are unchanged. -/
theorem toBuf_self {Val : EltTy → Type} (r : Ref sig .tc) (h : r.ty = r.ty) (a : r.space ≠ .host)
    (b : r.isScoped = false) (v : r.ty.Contents Val) :
    (StableHlo.TRef.of (T := r.ty) r h a b).toBuf v = v := rfl

/-- And back. -/
theorem ofBuf_self {Val : EltTy → Type} (r : Ref sig .tc) (h : r.ty = r.ty) (a : r.space ≠ .host)
    (b : r.isScoped = false) (v : r.ty.Contents Val) :
    (StableHlo.TRef.of (T := r.ty) r h a b).ofBuf v = v := rfl

/-! ## What each host stretch writes, and what it therefore leaves alone -/

/-- The buffers the first host stretch writes. -/
abbrev wr0 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
theorem writes0 : (hostOps0 : List (HloOp τ sig (Elt F))).Forall fun op => op.writes ⊆ (wr0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer the first host stretch does not write keeps its contents through it. -/
theorem keep0 (V : Valuation τ sig (Elt F)) (r : Ref sig .tc) (h : r ∉ wr0) :
    StableHlo.after hostOps0 V (Proc.devRef .tc r) = V (Proc.devRef .tc r) :=
  StableHlo.after_of_writes_sub hostOps0 V writes0 h

/-- The buffers the second host stretch writes. -/
abbrev wr1 : List (Ref sig .tc) := [main_cst, main_v1]
theorem writes1 : (hostOps0_1 : List (HloOp τ sig (Elt F))).Forall fun op => op.writes ⊆ (wr1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer the second host stretch does not write keeps its contents through it. -/
theorem keep1 (V : Valuation τ sig (Elt F)) (r : Ref sig .tc) (h : r ∉ wr1) :
    StableHlo.after hostOps0_1 V (Proc.devRef .tc r) = V (Proc.devRef .tc r) :=
  StableHlo.after_of_writes_sub hostOps0_1 V writes1 h

/-- The buffers the third host stretch writes. -/
abbrev wr2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v2]
theorem writes2 : (hostOps0_2 : List (HloOp τ sig (Elt F))).Forall fun op => op.writes ⊆ (wr2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer the third host stretch does not write keeps its contents through it. -/
theorem keep2 (V : Valuation τ sig (Elt F)) (r : Ref sig .tc) (h : r ∉ wr2) :
    StableHlo.after hostOps0_2 V (Proc.devRef .tc r) = V (Proc.devRef .tc r) :=
  StableHlo.after_of_writes_sub hostOps0_2 V writes2 h

/-- The buffers the fourth host stretch writes. -/
abbrev wr3 : List (Ref sig .tc) := [main_cst_0, main_v3, main_v4, main_v5, main_v6, main_v7, main_v8, main_v9, main_v10, main_v11, main_v12, main_v13, main_v14, main_v15]
theorem writes3 : (hostOps0_3 : List (HloOp τ sig (Elt F))).Forall fun op => op.writes ⊆ (wr3.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer the fourth host stretch does not write keeps its contents through it. -/
theorem keep3 (V : Valuation τ sig (Elt F)) (r : Ref sig .tc) (h : r ∉ wr3) :
    StableHlo.after hostOps0_3 V (Proc.devRef .tc r) = V (Proc.devRef .tc r) :=
  StableHlo.after_of_writes_sub hostOps0_3 V writes3 h

/-- The buffers the fifth host stretch writes. -/
abbrev wr4 : List (Ref sig .tc) := [main_cst_1, main_v17, main_cst_2, main_v18, main_v19, main_v20, main_cst_3, main_v21, main_v22, main_v23, main_cst_4, main_v24, main_v25, main_v26, main_v27, main_v28, main_cst_5, main_v29, main_v30, main_v31, main_v32, main_v33, main_v34, main_v35, main_v36, main_v37]
theorem writes4 : (hostOps1 : List (HloOp τ sig (Elt F))).Forall fun op => op.writes ⊆ (wr4.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer the fifth host stretch does not write keeps its contents through it. -/
theorem keep4 (V : Valuation τ sig (Elt F)) (r : Ref sig .tc) (h : r ∉ wr4) :
    StableHlo.after hostOps1 V (Proc.devRef .tc r) = V (Proc.devRef .tc r) :=
  StableHlo.after_of_writes_sub hostOps1 V writes4 h

/-! ## What each host stretch computes, from any contents `V` it starts at -/

/-- The first stretch leaves the clamped gather of the first table at the first index array. -/
theorem s0_main_v0 (V : Valuation τ sig (Elt F)) :
    StableHlo.after hostOps0 V (Proc.devRef .tc main_v0)
      = Cert.KFns.takeA (V (Proc.devRef .tc main_arg0)) (V (Proc.devRef .tc main_arg3)) := by
  after_results_simp
  simp only [ofBuf_toBuf']
  refine (toBuf_self main_v0 _ _ _ _).trans ?_
  rfl

/-- The second stretch sums the gathered rows of each atom. -/
theorem s1_main_v1 (V : Valuation τ sig (Elt F)) :
    StableHlo.after hostOps0_1 V (Proc.devRef .tc main_v1) = Cert.KFns.aggr (V (Proc.devRef .tc main_v0)) := by
  after_results
  rfl

/-- The third stretch leaves the clamped gather of the second table at the second index array. -/
theorem s2_main_v2 (V : Valuation τ sig (Elt F)) :
    StableHlo.after hostOps0_2 V (Proc.devRef .tc main_v2)
      = Cert.KFns.takeB (V (Proc.devRef .tc main_arg1)) (V (Proc.devRef .tc main_arg4)) := by
  after_results_simp
  simp only [ofBuf_toBuf']
  refine (toBuf_self main_v2 _ _ _ _).trans ?_
  rfl

/-- The fourth stretch sums the second gather's rows of each atom, -/
theorem s3_main_v3 (V : Valuation τ sig (Elt F)) :
    StableHlo.after hostOps0_3 V (Proc.devRef .tc main_v3) = Cert.KFns.aggr (V (Proc.devRef .tc main_v2)) := by
  after_results
  rfl
/-- and leaves the first 151 rows of the first branch's first weight matrix. -/
theorem s3_main_v4 (V : Valuation τ sig (Elt F)) :
    StableHlo.after hostOps0_3 V (Proc.devRef .tc main_v4)
      = (extractStridedSlice S151x512 ![0, 0] (V (Proc.devRef .tc main_arg6) : (⟨S279x512, .f32⟩ : BufTy).Contents (Elt F)) slices_S279x512_S151x512_0_0 : (⟨S151x512, .f32⟩ : BufTy).Contents (Elt F)) := by
  after_results
/-- and leaves the last 128 rows of the first branch's first weight matrix. -/
theorem s3_main_v5 (V : Valuation τ sig (Elt F)) :
    StableHlo.after hostOps0_3 V (Proc.devRef .tc main_v5)
      = (extractStridedSlice S128x512 ![151, 0] (V (Proc.devRef .tc main_arg6) : (⟨S279x512, .f32⟩ : BufTy).Contents (Elt F)) slices_S279x512_S128x512_151_0 : (⟨S128x512, .f32⟩ : BufTy).Contents (Elt F)) := by
  after_results
/-- and leaves the first 151 rows of the second branch's first weight matrix. -/
theorem s3_main_v6 (V : Valuation τ sig (Elt F)) :
    StableHlo.after hostOps0_3 V (Proc.devRef .tc main_v6)
      = (extractStridedSlice S151x512 ![0, 0] (V (Proc.devRef .tc main_arg12) : (⟨S279x512, .f32⟩ : BufTy).Contents (Elt F)) slices_S279x512_S151x512_0_0 : (⟨S151x512, .f32⟩ : BufTy).Contents (Elt F)) := by
  after_results
/-- and leaves the last 128 rows of the second branch's first weight matrix. -/
theorem s3_main_v7 (V : Valuation τ sig (Elt F)) :
    StableHlo.after hostOps0_3 V (Proc.devRef .tc main_v7)
      = (extractStridedSlice S128x512 ![151, 0] (V (Proc.devRef .tc main_arg12) : (⟨S279x512, .f32⟩ : BufTy).Contents (Elt F)) slices_S279x512_S128x512_151_0 : (⟨S128x512, .f32⟩ : BufTy).Contents (Elt F)) := by
  after_results
/-- and leaves the first branch's first bias as a row. -/
theorem s3_main_v8 (V : Valuation τ sig (Elt F)) :
    StableHlo.after hostOps0_3 V (Proc.devRef .tc main_v8)
      = (shapeCast S1x512 (V (Proc.devRef .tc main_arg7) : (⟨S512, .f32⟩ : BufTy).Contents (Elt F)) shapeCasts_S512_S1x512 : (⟨S1x512, .f32⟩ : BufTy).Contents (Elt F)) := by
  after_results
  rfl
/-- and leaves the first branch's second bias as a row. -/
theorem s3_main_v9 (V : Valuation τ sig (Elt F)) :
    StableHlo.after hostOps0_3 V (Proc.devRef .tc main_v9)
      = (shapeCast S1x128 (V (Proc.devRef .tc main_arg9) : (⟨S128, .f32⟩ : BufTy).Contents (Elt F)) shapeCasts_S128_S1x128 : (⟨S1x128, .f32⟩ : BufTy).Contents (Elt F)) := by
  after_results
  rfl
/-- and leaves the first branch's normalisation scale as a row. -/
theorem s3_main_v10 (V : Valuation τ sig (Elt F)) :
    StableHlo.after hostOps0_3 V (Proc.devRef .tc main_v10)
      = (shapeCast S1x128 (V (Proc.devRef .tc main_arg10) : (⟨S128, .f32⟩ : BufTy).Contents (Elt F)) shapeCasts_S128_S1x128 : (⟨S1x128, .f32⟩ : BufTy).Contents (Elt F)) := by
  after_results
  rfl
/-- and leaves the first branch's normalisation shift as a row. -/
theorem s3_main_v11 (V : Valuation τ sig (Elt F)) :
    StableHlo.after hostOps0_3 V (Proc.devRef .tc main_v11)
      = (shapeCast S1x128 (V (Proc.devRef .tc main_arg11) : (⟨S128, .f32⟩ : BufTy).Contents (Elt F)) shapeCasts_S128_S1x128 : (⟨S1x128, .f32⟩ : BufTy).Contents (Elt F)) := by
  after_results
  rfl
/-- and leaves the second branch's first bias as a row. -/
theorem s3_main_v12 (V : Valuation τ sig (Elt F)) :
    StableHlo.after hostOps0_3 V (Proc.devRef .tc main_v12)
      = (shapeCast S1x512 (V (Proc.devRef .tc main_arg13) : (⟨S512, .f32⟩ : BufTy).Contents (Elt F)) shapeCasts_S512_S1x512 : (⟨S1x512, .f32⟩ : BufTy).Contents (Elt F)) := by
  after_results
  rfl
/-- and leaves the second branch's second bias as a row. -/
theorem s3_main_v13 (V : Valuation τ sig (Elt F)) :
    StableHlo.after hostOps0_3 V (Proc.devRef .tc main_v13)
      = (shapeCast S1x128 (V (Proc.devRef .tc main_arg15) : (⟨S128, .f32⟩ : BufTy).Contents (Elt F)) shapeCasts_S128_S1x128 : (⟨S1x128, .f32⟩ : BufTy).Contents (Elt F)) := by
  after_results
  rfl
/-- and leaves the second branch's normalisation scale as a row. -/
theorem s3_main_v14 (V : Valuation τ sig (Elt F)) :
    StableHlo.after hostOps0_3 V (Proc.devRef .tc main_v14)
      = (shapeCast S1x128 (V (Proc.devRef .tc main_arg16) : (⟨S128, .f32⟩ : BufTy).Contents (Elt F)) shapeCasts_S128_S1x128 : (⟨S1x128, .f32⟩ : BufTy).Contents (Elt F)) := by
  after_results
  rfl
/-- and leaves the second branch's normalisation shift as a row. -/
theorem s3_main_v15 (V : Valuation τ sig (Elt F)) :
    StableHlo.after hostOps0_3 V (Proc.devRef .tc main_v15)
      = (shapeCast S1x128 (V (Proc.devRef .tc main_arg17) : (⟨S128, .f32⟩ : BufTy).Contents (Elt F)) shapeCasts_S128_S1x128 : (⟨S1x128, .f32⟩ : BufTy).Contents (Elt F)) := by
  after_results
  rfl

/-- The fifth stretch leaves the per-molecule mean of the first branch's atom rows, -/
theorem s4_main_v28 (V : Valuation τ sig (Elt F)) :
    StableHlo.after hostOps1 V (Proc.devRef .tc main_v28)
      = Cert.KFns.segMean (V (Proc.devRef .tc main_arg5)) (V (Proc.devRef .tc main_v16_0)) := by
  after_results_simp
  rfl
/-- of the second branch's, -/
theorem s4_main_v33 (V : Valuation τ sig (Elt F)) :
    StableHlo.after hostOps1 V (Proc.devRef .tc main_v33)
      = Cert.KFns.segMean (V (Proc.devRef .tc main_arg5)) (V (Proc.devRef .tc main_v16_1)) := by
  after_results_simp
  rfl
/-- and the first head's first bias as a row. -/
theorem s4_main_v34 (V : Valuation τ sig (Elt F)) :
    StableHlo.after hostOps1 V (Proc.devRef .tc main_v34)
      = (shapeCast S1x512 (V (Proc.devRef .tc main_arg19) : (⟨S512, .f32⟩ : BufTy).Contents (Elt F)) shapeCasts_S512_S1x512 : (⟨S1x512, .f32⟩ : BufTy).Contents (Elt F)) := by
  after_results_simp
  rfl
/-- and the first head's second bias as a row. -/
theorem s4_main_v35 (V : Valuation τ sig (Elt F)) :
    StableHlo.after hostOps1 V (Proc.devRef .tc main_v35)
      = (shapeCast S1x1 (V (Proc.devRef .tc main_arg21) : (⟨S1, .f32⟩ : BufTy).Contents (Elt F)) shapeCasts_S1_S1x1 : (⟨S1x1, .f32⟩ : BufTy).Contents (Elt F)) := by
  after_results_simp
  rfl
/-- and the second head's first bias as a row. -/
theorem s4_main_v36 (V : Valuation τ sig (Elt F)) :
    StableHlo.after hostOps1 V (Proc.devRef .tc main_v36)
      = (shapeCast S1x512 (V (Proc.devRef .tc main_arg23) : (⟨S512, .f32⟩ : BufTy).Contents (Elt F)) shapeCasts_S512_S1x512 : (⟨S1x512, .f32⟩ : BufTy).Contents (Elt F)) := by
  after_results_simp
  rfl
/-- and the second head's second bias as a row. -/
theorem s4_main_v37 (V : Valuation τ sig (Elt F)) :
    StableHlo.after hostOps1 V (Proc.devRef .tc main_v37)
      = (shapeCast S1x1 (V (Proc.devRef .tc main_arg25) : (⟨S1, .f32⟩ : BufTy).Contents (Elt F)) shapeCasts_S1_S1x1 : (⟨S1x1, .f32⟩ : BufTy).Contents (Elt F)) := by
  after_results_simp
  rfl

variable (m : (ℓ : Loc nD τ sig) → Buf (Elt F) ℓ) (ρ : Dev nD → PrngReg)

/-! ## Buffers that are still as launched at a boundary of the chain -/

/-- A buffer the first two stretches do not write holds its launch contents after them. -/
theorem W2_keep (c : Dev nD) (r : Ref sig .tc) (h0 : r ∉ wr0) (h1 : r ∉ wr1) :
    W2 m ρ c (Proc.devRef .tc r) = m ((c : Thread nD τ).loc r) :=
  (keep1 (W1 m ρ c) r h1).trans (keep0 (W0 m ρ c) r h0)
/-- The same after three stretches. -/
theorem W3_keep (c : Dev nD) (r : Ref sig .tc) (h0 : r ∉ wr0) (h1 : r ∉ wr1) (h2 : r ∉ wr2) :
    W3 m ρ c (Proc.devRef .tc r) = m ((c : Thread nD τ).loc r) :=
  (keep2 (W2 m ρ c) r h2).trans (W2_keep m ρ c r h0 h1)
/-- The same when region 0 is entered. -/
theorem W4_keep (c : Dev nD) (r : Ref sig .tc) (h0 : r ∉ wr0) (h1 : r ∉ wr1) (h2 : r ∉ wr2) (h3 : r ∉ wr3) :
    W4 m ρ c (Proc.devRef .tc r) = m ((c : Thread nD τ).loc r) :=
  (keep3 (W3 m ρ c) r h3).trans (W3_keep m ρ c r h0 h1 h2)
/-- The same when region 0 is left, for a buffer that is none of its arrays. -/
theorem W5_keep (c : Dev nD) (r : Ref sig .tc) (h0 : r ∉ wr0) (h1 : r ∉ wr1) (h2 : r ∉ wr2) (h3 : r ∉ wr3)
    (hw : ∀ w, Pipeline.arrRef spec0 w ≠ r) :
    W5 m ρ c (Proc.devRef .tc r) = m ((c : Thread nD τ).loc r) :=
  (W5_of_ne m ρ c r hw).trans (W4_keep m ρ c r h0 h1 h2 h3)
/-- The same when region 1 is entered. -/
theorem W6_keep (c : Dev nD) (r : Ref sig .tc) (h0 : r ∉ wr0) (h1 : r ∉ wr1) (h2 : r ∉ wr2) (h3 : r ∉ wr3)
    (hw : ∀ w, Pipeline.arrRef spec0 w ≠ r) (h4 : r ∉ wr4) :
    W6 m ρ c (Proc.devRef .tc r) = m ((c : Thread nD τ).loc r) :=
  (keep4 (W5 m ρ c) r h4).trans (W5_keep m ρ c r h0 h1 h2 h3 hw)

/-! ## What region 0 finds in each of its input arrays -/

/-- The atom features are as launched. -/
theorem V4_main_arg2 (c : Dev nD) : V4 m ρ c main_arg2 = m ((c : Thread nD τ).loc main_arg2) :=
  W4_keep m ρ c main_arg2 (by decide) (by decide) (by decide) (by decide)
/-- The first branch's aggregated message: the neighbour sum of the clamped gather of the first table. -/
theorem V4_main_v1 (c : Dev nD) :
    V4 m ρ c main_v1 = Cert.KFns.aggr (Cert.KFns.takeA (m ((c : Thread nD τ).loc main_arg0) : (⟨S100000x128, .f32⟩ : BufTy).Contents (Elt F)) (m ((c : Thread nD τ).loc main_arg3) : (⟨S100000x10, .i32⟩ : BufTy).Contents (Elt F))) :=
  (keep3 (W3 m ρ c) main_v1 (by decide)).trans <| (keep2 (W2 m ρ c) main_v1 (by decide)).trans <|
    (s1_main_v1 (W1 m ρ c)).trans <| congrArg Cert.KFns.aggr (s0_main_v0 (W0 m ρ c))
/-- The second branch's aggregated message: the neighbour sum of the clamped gather of the second table. -/
theorem V4_main_v3 (c : Dev nD) :
    V4 m ρ c main_v3 = Cert.KFns.aggr (Cert.KFns.takeB (m ((c : Thread nD τ).loc main_arg1) : (⟨S200000x128, .f32⟩ : BufTy).Contents (Elt F)) (m ((c : Thread nD τ).loc main_arg4) : (⟨S100000x10, .i32⟩ : BufTy).Contents (Elt F))) :=
  (s3_main_v3 (W3 m ρ c)).trans <| congrArg Cert.KFns.aggr <| (s2_main_v2 (W2 m ρ c)).trans <|
    congrArg₂ Cert.KFns.takeB (W2_keep m ρ c main_arg1 (by decide) (by decide)) (W2_keep m ρ c main_arg4 (by decide) (by decide))
/-- The first 151 rows of the first branch's first weight matrix, of the launch contents. -/
theorem V4_main_v4 (c : Dev nD) :
    V4 m ρ c main_v4 = (extractStridedSlice S151x512 ![0, 0] (m ((c : Thread nD τ).loc main_arg6) : (⟨S279x512, .f32⟩ : BufTy).Contents (Elt F)) slices_S279x512_S151x512_0_0 : (⟨S151x512, .f32⟩ : BufTy).Contents (Elt F)) :=
  (s3_main_v4 (W3 m ρ c)).trans <| congrArg (fun x : (⟨S279x512, .f32⟩ : BufTy).Contents (Elt F) => (extractStridedSlice S151x512 ![0, 0] x slices_S279x512_S151x512_0_0 : (⟨S151x512, .f32⟩ : BufTy).Contents (Elt F)))
    (W3_keep m ρ c main_arg6 (by decide) (by decide) (by decide))
/-- The last 128 rows of the first branch's first weight matrix, of the launch contents. -/
theorem V4_main_v5 (c : Dev nD) :
    V4 m ρ c main_v5 = (extractStridedSlice S128x512 ![151, 0] (m ((c : Thread nD τ).loc main_arg6) : (⟨S279x512, .f32⟩ : BufTy).Contents (Elt F)) slices_S279x512_S128x512_151_0 : (⟨S128x512, .f32⟩ : BufTy).Contents (Elt F)) :=
  (s3_main_v5 (W3 m ρ c)).trans <| congrArg (fun x : (⟨S279x512, .f32⟩ : BufTy).Contents (Elt F) => (extractStridedSlice S128x512 ![151, 0] x slices_S279x512_S128x512_151_0 : (⟨S128x512, .f32⟩ : BufTy).Contents (Elt F)))
    (W3_keep m ρ c main_arg6 (by decide) (by decide) (by decide))
/-- The first branch's first bias as a row, of the launch contents. -/
theorem V4_main_v8 (c : Dev nD) :
    V4 m ρ c main_v8 = (shapeCast S1x512 (m ((c : Thread nD τ).loc main_arg7) : (⟨S512, .f32⟩ : BufTy).Contents (Elt F)) shapeCasts_S512_S1x512 : (⟨S1x512, .f32⟩ : BufTy).Contents (Elt F)) :=
  (s3_main_v8 (W3 m ρ c)).trans <| congrArg (fun x : (⟨S512, .f32⟩ : BufTy).Contents (Elt F) => (shapeCast S1x512 x shapeCasts_S512_S1x512 : (⟨S1x512, .f32⟩ : BufTy).Contents (Elt F)))
    (W3_keep m ρ c main_arg7 (by decide) (by decide) (by decide))
/-- The first branch's second weight matrix is as launched. -/
theorem V4_main_arg8 (c : Dev nD) : V4 m ρ c main_arg8 = m ((c : Thread nD τ).loc main_arg8) :=
  W4_keep m ρ c main_arg8 (by decide) (by decide) (by decide) (by decide)
/-- The first branch's second bias as a row, of the launch contents. -/
theorem V4_main_v9 (c : Dev nD) :
    V4 m ρ c main_v9 = (shapeCast S1x128 (m ((c : Thread nD τ).loc main_arg9) : (⟨S128, .f32⟩ : BufTy).Contents (Elt F)) shapeCasts_S128_S1x128 : (⟨S1x128, .f32⟩ : BufTy).Contents (Elt F)) :=
  (s3_main_v9 (W3 m ρ c)).trans <| congrArg (fun x : (⟨S128, .f32⟩ : BufTy).Contents (Elt F) => (shapeCast S1x128 x shapeCasts_S128_S1x128 : (⟨S1x128, .f32⟩ : BufTy).Contents (Elt F)))
    (W3_keep m ρ c main_arg9 (by decide) (by decide) (by decide))
/-- The first branch's normalisation scale as a row, of the launch contents. -/
theorem V4_main_v10 (c : Dev nD) :
    V4 m ρ c main_v10 = (shapeCast S1x128 (m ((c : Thread nD τ).loc main_arg10) : (⟨S128, .f32⟩ : BufTy).Contents (Elt F)) shapeCasts_S128_S1x128 : (⟨S1x128, .f32⟩ : BufTy).Contents (Elt F)) :=
  (s3_main_v10 (W3 m ρ c)).trans <| congrArg (fun x : (⟨S128, .f32⟩ : BufTy).Contents (Elt F) => (shapeCast S1x128 x shapeCasts_S128_S1x128 : (⟨S1x128, .f32⟩ : BufTy).Contents (Elt F)))
    (W3_keep m ρ c main_arg10 (by decide) (by decide) (by decide))
/-- The first branch's normalisation shift as a row, of the launch contents. -/
theorem V4_main_v11 (c : Dev nD) :
    V4 m ρ c main_v11 = (shapeCast S1x128 (m ((c : Thread nD τ).loc main_arg11) : (⟨S128, .f32⟩ : BufTy).Contents (Elt F)) shapeCasts_S128_S1x128 : (⟨S1x128, .f32⟩ : BufTy).Contents (Elt F)) :=
  (s3_main_v11 (W3 m ρ c)).trans <| congrArg (fun x : (⟨S128, .f32⟩ : BufTy).Contents (Elt F) => (shapeCast S1x128 x shapeCasts_S128_S1x128 : (⟨S1x128, .f32⟩ : BufTy).Contents (Elt F)))
    (W3_keep m ρ c main_arg11 (by decide) (by decide) (by decide))
/-- The first 151 rows of the second branch's first weight matrix, of the launch contents. -/
theorem V4_main_v6 (c : Dev nD) :
    V4 m ρ c main_v6 = (extractStridedSlice S151x512 ![0, 0] (m ((c : Thread nD τ).loc main_arg12) : (⟨S279x512, .f32⟩ : BufTy).Contents (Elt F)) slices_S279x512_S151x512_0_0 : (⟨S151x512, .f32⟩ : BufTy).Contents (Elt F)) :=
  (s3_main_v6 (W3 m ρ c)).trans <| congrArg (fun x : (⟨S279x512, .f32⟩ : BufTy).Contents (Elt F) => (extractStridedSlice S151x512 ![0, 0] x slices_S279x512_S151x512_0_0 : (⟨S151x512, .f32⟩ : BufTy).Contents (Elt F)))
    (W3_keep m ρ c main_arg12 (by decide) (by decide) (by decide))
/-- The last 128 rows of the second branch's first weight matrix, of the launch contents. -/
theorem V4_main_v7 (c : Dev nD) :
    V4 m ρ c main_v7 = (extractStridedSlice S128x512 ![151, 0] (m ((c : Thread nD τ).loc main_arg12) : (⟨S279x512, .f32⟩ : BufTy).Contents (Elt F)) slices_S279x512_S128x512_151_0 : (⟨S128x512, .f32⟩ : BufTy).Contents (Elt F)) :=
  (s3_main_v7 (W3 m ρ c)).trans <| congrArg (fun x : (⟨S279x512, .f32⟩ : BufTy).Contents (Elt F) => (extractStridedSlice S128x512 ![151, 0] x slices_S279x512_S128x512_151_0 : (⟨S128x512, .f32⟩ : BufTy).Contents (Elt F)))
    (W3_keep m ρ c main_arg12 (by decide) (by decide) (by decide))
/-- The second branch's first bias as a row, of the launch contents. -/
theorem V4_main_v12 (c : Dev nD) :
    V4 m ρ c main_v12 = (shapeCast S1x512 (m ((c : Thread nD τ).loc main_arg13) : (⟨S512, .f32⟩ : BufTy).Contents (Elt F)) shapeCasts_S512_S1x512 : (⟨S1x512, .f32⟩ : BufTy).Contents (Elt F)) :=
  (s3_main_v12 (W3 m ρ c)).trans <| congrArg (fun x : (⟨S512, .f32⟩ : BufTy).Contents (Elt F) => (shapeCast S1x512 x shapeCasts_S512_S1x512 : (⟨S1x512, .f32⟩ : BufTy).Contents (Elt F)))
    (W3_keep m ρ c main_arg13 (by decide) (by decide) (by decide))
/-- The second branch's second weight matrix is as launched. -/
theorem V4_main_arg14 (c : Dev nD) : V4 m ρ c main_arg14 = m ((c : Thread nD τ).loc main_arg14) :=
  W4_keep m ρ c main_arg14 (by decide) (by decide) (by decide) (by decide)
/-- The second branch's second bias as a row, of the launch contents. -/
theorem V4_main_v13 (c : Dev nD) :
    V4 m ρ c main_v13 = (shapeCast S1x128 (m ((c : Thread nD τ).loc main_arg15) : (⟨S128, .f32⟩ : BufTy).Contents (Elt F)) shapeCasts_S128_S1x128 : (⟨S1x128, .f32⟩ : BufTy).Contents (Elt F)) :=
  (s3_main_v13 (W3 m ρ c)).trans <| congrArg (fun x : (⟨S128, .f32⟩ : BufTy).Contents (Elt F) => (shapeCast S1x128 x shapeCasts_S128_S1x128 : (⟨S1x128, .f32⟩ : BufTy).Contents (Elt F)))
    (W3_keep m ρ c main_arg15 (by decide) (by decide) (by decide))
/-- The second branch's normalisation scale as a row, of the launch contents. -/
theorem V4_main_v14 (c : Dev nD) :
    V4 m ρ c main_v14 = (shapeCast S1x128 (m ((c : Thread nD τ).loc main_arg16) : (⟨S128, .f32⟩ : BufTy).Contents (Elt F)) shapeCasts_S128_S1x128 : (⟨S1x128, .f32⟩ : BufTy).Contents (Elt F)) :=
  (s3_main_v14 (W3 m ρ c)).trans <| congrArg (fun x : (⟨S128, .f32⟩ : BufTy).Contents (Elt F) => (shapeCast S1x128 x shapeCasts_S128_S1x128 : (⟨S1x128, .f32⟩ : BufTy).Contents (Elt F)))
    (W3_keep m ρ c main_arg16 (by decide) (by decide) (by decide))
/-- The second branch's normalisation shift as a row, of the launch contents. -/
theorem V4_main_v15 (c : Dev nD) :
    V4 m ρ c main_v15 = (shapeCast S1x128 (m ((c : Thread nD τ).loc main_arg17) : (⟨S128, .f32⟩ : BufTy).Contents (Elt F)) shapeCasts_S128_S1x128 : (⟨S1x128, .f32⟩ : BufTy).Contents (Elt F)) :=
  (s3_main_v15 (W3 m ρ c)).trans <| congrArg (fun x : (⟨S128, .f32⟩ : BufTy).Contents (Elt F) => (shapeCast S1x128 x shapeCasts_S128_S1x128 : (⟨S1x128, .f32⟩ : BufTy).Contents (Elt F)))
    (W3_keep m ρ c main_arg17 (by decide) (by decide) (by decide))

/-! ## What region 0 leaves in its two output arrays -/

/-- The first branch's atom rows: what region 0's write-backs of its first output leave. -/
theorem W5_main_v16_0 (c : Dev nD) :
    W5 m ρ c (Proc.devRef .tc main_v16_0) = (dat0 (V4 m ρ) c).arrAt (17 : Fin 19) cfg0.N :=
  W5_arr m ρ c (17 : Fin 19)
/-- The second branch's atom rows. -/
theorem W5_main_v16_1 (c : Dev nD) :
    W5 m ρ c (Proc.devRef .tc main_v16_1) = (dat0 (V4 m ρ) c).arrAt (18 : Fin 19) cfg0.N :=
  W5_arr m ρ c (18 : Fin 19)

/-! ## What region 1 finds in each of its input arrays -/

/-- The first branch's per-molecule mean of region 0's first output. -/
theorem V6_main_v28 (c : Dev nD) :
    V6 m ρ c main_v28 = Cert.KFns.segMean (m ((c : Thread nD τ).loc main_arg5) : (⟨S100000, .i32⟩ : BufTy).Contents (Elt F)) (W5 m ρ c (Proc.devRef .tc main_v16_0)) :=
  (s4_main_v28 (W5 m ρ c)).trans <| congrArg (fun x : (⟨S100000, .i32⟩ : BufTy).Contents (Elt F) => Cert.KFns.segMean x (W5 m ρ c (Proc.devRef .tc main_v16_0)))
    (W5_keep m ρ c main_arg5 (by decide) (by decide) (by decide) (by decide) (by decide))
/-- The second branch's per-molecule mean of region 0's second output. -/
theorem V6_main_v33 (c : Dev nD) :
    V6 m ρ c main_v33 = Cert.KFns.segMean (m ((c : Thread nD τ).loc main_arg5) : (⟨S100000, .i32⟩ : BufTy).Contents (Elt F)) (W5 m ρ c (Proc.devRef .tc main_v16_1)) :=
  (s4_main_v33 (W5 m ρ c)).trans <| congrArg (fun x : (⟨S100000, .i32⟩ : BufTy).Contents (Elt F) => Cert.KFns.segMean x (W5 m ρ c (Proc.devRef .tc main_v16_1)))
    (W5_keep m ρ c main_arg5 (by decide) (by decide) (by decide) (by decide) (by decide))
/-- The first head's first weight matrix is as launched. -/
theorem V6_main_arg18 (c : Dev nD) : V6 m ρ c main_arg18 = m ((c : Thread nD τ).loc main_arg18) :=
  W6_keep m ρ c main_arg18 (by decide) (by decide) (by decide) (by decide) (by decide) (by decide)
/-- The first head's first bias as a row, of the launch contents. -/
theorem V6_main_v34 (c : Dev nD) :
    V6 m ρ c main_v34 = (shapeCast S1x512 (m ((c : Thread nD τ).loc main_arg19) : (⟨S512, .f32⟩ : BufTy).Contents (Elt F)) shapeCasts_S512_S1x512 : (⟨S1x512, .f32⟩ : BufTy).Contents (Elt F)) :=
  (s4_main_v34 (W5 m ρ c)).trans <| congrArg (fun x : (⟨S512, .f32⟩ : BufTy).Contents (Elt F) => (shapeCast S1x512 x shapeCasts_S512_S1x512 : (⟨S1x512, .f32⟩ : BufTy).Contents (Elt F)))
    (W5_keep m ρ c main_arg19 (by decide) (by decide) (by decide) (by decide) (by decide))
/-- The first head's second weight matrix is as launched. -/
theorem V6_main_arg20 (c : Dev nD) : V6 m ρ c main_arg20 = m ((c : Thread nD τ).loc main_arg20) :=
  W6_keep m ρ c main_arg20 (by decide) (by decide) (by decide) (by decide) (by decide) (by decide)
/-- The first head's second bias as a row, of the launch contents. -/
theorem V6_main_v35 (c : Dev nD) :
    V6 m ρ c main_v35 = (shapeCast S1x1 (m ((c : Thread nD τ).loc main_arg21) : (⟨S1, .f32⟩ : BufTy).Contents (Elt F)) shapeCasts_S1_S1x1 : (⟨S1x1, .f32⟩ : BufTy).Contents (Elt F)) :=
  (s4_main_v35 (W5 m ρ c)).trans <| congrArg (fun x : (⟨S1, .f32⟩ : BufTy).Contents (Elt F) => (shapeCast S1x1 x shapeCasts_S1_S1x1 : (⟨S1x1, .f32⟩ : BufTy).Contents (Elt F)))
    (W5_keep m ρ c main_arg21 (by decide) (by decide) (by decide) (by decide) (by decide))
/-- The second head's first weight matrix is as launched. -/
theorem V6_main_arg22 (c : Dev nD) : V6 m ρ c main_arg22 = m ((c : Thread nD τ).loc main_arg22) :=
  W6_keep m ρ c main_arg22 (by decide) (by decide) (by decide) (by decide) (by decide) (by decide)
/-- The second head's first bias as a row, of the launch contents. -/
theorem V6_main_v36 (c : Dev nD) :
    V6 m ρ c main_v36 = (shapeCast S1x512 (m ((c : Thread nD τ).loc main_arg23) : (⟨S512, .f32⟩ : BufTy).Contents (Elt F)) shapeCasts_S512_S1x512 : (⟨S1x512, .f32⟩ : BufTy).Contents (Elt F)) :=
  (s4_main_v36 (W5 m ρ c)).trans <| congrArg (fun x : (⟨S512, .f32⟩ : BufTy).Contents (Elt F) => (shapeCast S1x512 x shapeCasts_S512_S1x512 : (⟨S1x512, .f32⟩ : BufTy).Contents (Elt F)))
    (W5_keep m ρ c main_arg23 (by decide) (by decide) (by decide) (by decide) (by decide))
/-- The second head's second weight matrix is as launched. -/
theorem V6_main_arg24 (c : Dev nD) : V6 m ρ c main_arg24 = m ((c : Thread nD τ).loc main_arg24) :=
  W6_keep m ρ c main_arg24 (by decide) (by decide) (by decide) (by decide) (by decide) (by decide)
/-- The second head's second bias as a row, of the launch contents. -/
theorem V6_main_v37 (c : Dev nD) :
    V6 m ρ c main_v37 = (shapeCast S1x1 (m ((c : Thread nD τ).loc main_arg25) : (⟨S1, .f32⟩ : BufTy).Contents (Elt F)) shapeCasts_S1_S1x1 : (⟨S1x1, .f32⟩ : BufTy).Contents (Elt F)) :=
  (s4_main_v37 (W5 m ρ c)).trans <| congrArg (fun x : (⟨S1, .f32⟩ : BufTy).Contents (Elt F) => (shapeCast S1x1 x shapeCasts_S1_S1x1 : (⟨S1x1, .f32⟩ : BufTy).Contents (Elt F)))
    (W5_keep m ρ c main_arg25 (by decide) (by decide) (by decide) (by decide) (by decide))

/-! ## The result -/

/-- The result buffer at the end of the chain holds what region 1's write-backs of its output leave. -/
theorem W7_main_v38 (c : Dev nD) :
    W7 m ρ c (Proc.devRef .tc main_v38) = (dat1 (V6 m ρ) c).arrAt (10 : Fin 11) cfg1.N :=
  W7_arr m ρ c (10 : Fin 11)

/-! ## The same facts stated at the regions' windows -/
theorem arrRef0_0 : Pipeline.arrRef spec0 (0 : Fin 19) = main_arg2 := rfl
theorem arrRef0_1 : Pipeline.arrRef spec0 (1 : Fin 19) = main_v1 := rfl
theorem arrRef0_2 : Pipeline.arrRef spec0 (2 : Fin 19) = main_v3 := rfl
theorem arrRef0_3 : Pipeline.arrRef spec0 (3 : Fin 19) = main_v4 := rfl
theorem arrRef0_4 : Pipeline.arrRef spec0 (4 : Fin 19) = main_v5 := rfl
theorem arrRef0_5 : Pipeline.arrRef spec0 (5 : Fin 19) = main_v8 := rfl
theorem arrRef0_6 : Pipeline.arrRef spec0 (6 : Fin 19) = main_arg8 := rfl
theorem arrRef0_7 : Pipeline.arrRef spec0 (7 : Fin 19) = main_v9 := rfl
theorem arrRef0_8 : Pipeline.arrRef spec0 (8 : Fin 19) = main_v10 := rfl
theorem arrRef0_9 : Pipeline.arrRef spec0 (9 : Fin 19) = main_v11 := rfl
theorem arrRef0_10 : Pipeline.arrRef spec0 (10 : Fin 19) = main_v6 := rfl
theorem arrRef0_11 : Pipeline.arrRef spec0 (11 : Fin 19) = main_v7 := rfl
theorem arrRef0_12 : Pipeline.arrRef spec0 (12 : Fin 19) = main_v12 := rfl
theorem arrRef0_13 : Pipeline.arrRef spec0 (13 : Fin 19) = main_arg14 := rfl
theorem arrRef0_14 : Pipeline.arrRef spec0 (14 : Fin 19) = main_v13 := rfl
theorem arrRef0_15 : Pipeline.arrRef spec0 (15 : Fin 19) = main_v14 := rfl
theorem arrRef0_16 : Pipeline.arrRef spec0 (16 : Fin 19) = main_v15 := rfl
theorem arrRef0_17 : Pipeline.arrRef spec0 (17 : Fin 19) = main_v16_0 := rfl
theorem arrRef0_18 : Pipeline.arrRef spec0 (18 : Fin 19) = main_v16_1 := rfl
theorem arrRef1_0 : Pipeline.arrRef spec1 (0 : Fin 11) = main_v28 := rfl
theorem arrRef1_1 : Pipeline.arrRef spec1 (1 : Fin 11) = main_v33 := rfl
theorem arrRef1_2 : Pipeline.arrRef spec1 (2 : Fin 11) = main_arg18 := rfl
theorem arrRef1_3 : Pipeline.arrRef spec1 (3 : Fin 11) = main_v34 := rfl
theorem arrRef1_4 : Pipeline.arrRef spec1 (4 : Fin 11) = main_arg20 := rfl
theorem arrRef1_5 : Pipeline.arrRef spec1 (5 : Fin 11) = main_v35 := rfl
theorem arrRef1_6 : Pipeline.arrRef spec1 (6 : Fin 11) = main_arg22 := rfl
theorem arrRef1_7 : Pipeline.arrRef spec1 (7 : Fin 11) = main_v36 := rfl
theorem arrRef1_8 : Pipeline.arrRef spec1 (8 : Fin 11) = main_arg24 := rfl
theorem arrRef1_9 : Pipeline.arrRef spec1 (9 : Fin 11) = main_v37 := rfl
theorem arrRef1_10 : Pipeline.arrRef spec1 (10 : Fin 11) = main_v38 := rfl

/-- Region 0's input window 0. -/
theorem in0_0 (c : Dev nD) : V4 m ρ c (Pipeline.arrRef spec0 (0 : Fin 19)) = m ((c : Thread nD τ).loc main_arg2) :=
  V4_main_arg2 m ρ c
/-- Region 0's input window 1. -/
theorem in0_1 (c : Dev nD) : V4 m ρ c (Pipeline.arrRef spec0 (1 : Fin 19)) = Cert.KFns.aggr (Cert.KFns.takeA (m ((c : Thread nD τ).loc main_arg0) : (⟨S100000x128, .f32⟩ : BufTy).Contents (Elt F)) (m ((c : Thread nD τ).loc main_arg3) : (⟨S100000x10, .i32⟩ : BufTy).Contents (Elt F))) :=
  V4_main_v1 m ρ c
/-- Region 0's input window 2. -/
theorem in0_2 (c : Dev nD) : V4 m ρ c (Pipeline.arrRef spec0 (2 : Fin 19)) = Cert.KFns.aggr (Cert.KFns.takeB (m ((c : Thread nD τ).loc main_arg1) : (⟨S200000x128, .f32⟩ : BufTy).Contents (Elt F)) (m ((c : Thread nD τ).loc main_arg4) : (⟨S100000x10, .i32⟩ : BufTy).Contents (Elt F))) :=
  V4_main_v3 m ρ c
/-- Region 0's input window 3. -/
theorem in0_3 (c : Dev nD) : V4 m ρ c (Pipeline.arrRef spec0 (3 : Fin 19)) = (extractStridedSlice S151x512 ![0, 0] (m ((c : Thread nD τ).loc main_arg6) : (⟨S279x512, .f32⟩ : BufTy).Contents (Elt F)) slices_S279x512_S151x512_0_0 : (⟨S151x512, .f32⟩ : BufTy).Contents (Elt F)) :=
  V4_main_v4 m ρ c
/-- Region 0's input window 4. -/
theorem in0_4 (c : Dev nD) : V4 m ρ c (Pipeline.arrRef spec0 (4 : Fin 19)) = (extractStridedSlice S128x512 ![151, 0] (m ((c : Thread nD τ).loc main_arg6) : (⟨S279x512, .f32⟩ : BufTy).Contents (Elt F)) slices_S279x512_S128x512_151_0 : (⟨S128x512, .f32⟩ : BufTy).Contents (Elt F)) :=
  V4_main_v5 m ρ c
/-- Region 0's input window 5. -/
theorem in0_5 (c : Dev nD) : V4 m ρ c (Pipeline.arrRef spec0 (5 : Fin 19)) = (shapeCast S1x512 (m ((c : Thread nD τ).loc main_arg7) : (⟨S512, .f32⟩ : BufTy).Contents (Elt F)) shapeCasts_S512_S1x512 : (⟨S1x512, .f32⟩ : BufTy).Contents (Elt F)) :=
  V4_main_v8 m ρ c
/-- Region 0's input window 6. -/
theorem in0_6 (c : Dev nD) : V4 m ρ c (Pipeline.arrRef spec0 (6 : Fin 19)) = m ((c : Thread nD τ).loc main_arg8) :=
  V4_main_arg8 m ρ c
/-- Region 0's input window 7. -/
theorem in0_7 (c : Dev nD) : V4 m ρ c (Pipeline.arrRef spec0 (7 : Fin 19)) = (shapeCast S1x128 (m ((c : Thread nD τ).loc main_arg9) : (⟨S128, .f32⟩ : BufTy).Contents (Elt F)) shapeCasts_S128_S1x128 : (⟨S1x128, .f32⟩ : BufTy).Contents (Elt F)) :=
  V4_main_v9 m ρ c
/-- Region 0's input window 8. -/
theorem in0_8 (c : Dev nD) : V4 m ρ c (Pipeline.arrRef spec0 (8 : Fin 19)) = (shapeCast S1x128 (m ((c : Thread nD τ).loc main_arg10) : (⟨S128, .f32⟩ : BufTy).Contents (Elt F)) shapeCasts_S128_S1x128 : (⟨S1x128, .f32⟩ : BufTy).Contents (Elt F)) :=
  V4_main_v10 m ρ c
/-- Region 0's input window 9. -/
theorem in0_9 (c : Dev nD) : V4 m ρ c (Pipeline.arrRef spec0 (9 : Fin 19)) = (shapeCast S1x128 (m ((c : Thread nD τ).loc main_arg11) : (⟨S128, .f32⟩ : BufTy).Contents (Elt F)) shapeCasts_S128_S1x128 : (⟨S1x128, .f32⟩ : BufTy).Contents (Elt F)) :=
  V4_main_v11 m ρ c
/-- Region 0's input window 10. -/
theorem in0_10 (c : Dev nD) : V4 m ρ c (Pipeline.arrRef spec0 (10 : Fin 19)) = (extractStridedSlice S151x512 ![0, 0] (m ((c : Thread nD τ).loc main_arg12) : (⟨S279x512, .f32⟩ : BufTy).Contents (Elt F)) slices_S279x512_S151x512_0_0 : (⟨S151x512, .f32⟩ : BufTy).Contents (Elt F)) :=
  V4_main_v6 m ρ c
/-- Region 0's input window 11. -/
theorem in0_11 (c : Dev nD) : V4 m ρ c (Pipeline.arrRef spec0 (11 : Fin 19)) = (extractStridedSlice S128x512 ![151, 0] (m ((c : Thread nD τ).loc main_arg12) : (⟨S279x512, .f32⟩ : BufTy).Contents (Elt F)) slices_S279x512_S128x512_151_0 : (⟨S128x512, .f32⟩ : BufTy).Contents (Elt F)) :=
  V4_main_v7 m ρ c
/-- Region 0's input window 12. -/
theorem in0_12 (c : Dev nD) : V4 m ρ c (Pipeline.arrRef spec0 (12 : Fin 19)) = (shapeCast S1x512 (m ((c : Thread nD τ).loc main_arg13) : (⟨S512, .f32⟩ : BufTy).Contents (Elt F)) shapeCasts_S512_S1x512 : (⟨S1x512, .f32⟩ : BufTy).Contents (Elt F)) :=
  V4_main_v12 m ρ c
/-- Region 0's input window 13. -/
theorem in0_13 (c : Dev nD) : V4 m ρ c (Pipeline.arrRef spec0 (13 : Fin 19)) = m ((c : Thread nD τ).loc main_arg14) :=
  V4_main_arg14 m ρ c
/-- Region 0's input window 14. -/
theorem in0_14 (c : Dev nD) : V4 m ρ c (Pipeline.arrRef spec0 (14 : Fin 19)) = (shapeCast S1x128 (m ((c : Thread nD τ).loc main_arg15) : (⟨S128, .f32⟩ : BufTy).Contents (Elt F)) shapeCasts_S128_S1x128 : (⟨S1x128, .f32⟩ : BufTy).Contents (Elt F)) :=
  V4_main_v13 m ρ c
/-- Region 0's input window 15. -/
theorem in0_15 (c : Dev nD) : V4 m ρ c (Pipeline.arrRef spec0 (15 : Fin 19)) = (shapeCast S1x128 (m ((c : Thread nD τ).loc main_arg16) : (⟨S128, .f32⟩ : BufTy).Contents (Elt F)) shapeCasts_S128_S1x128 : (⟨S1x128, .f32⟩ : BufTy).Contents (Elt F)) :=
  V4_main_v14 m ρ c
/-- Region 0's input window 16. -/
theorem in0_16 (c : Dev nD) : V4 m ρ c (Pipeline.arrRef spec0 (16 : Fin 19)) = (shapeCast S1x128 (m ((c : Thread nD τ).loc main_arg17) : (⟨S128, .f32⟩ : BufTy).Contents (Elt F)) shapeCasts_S128_S1x128 : (⟨S1x128, .f32⟩ : BufTy).Contents (Elt F)) :=
  V4_main_v15 m ρ c
/-- Region 1's input window 0. -/
theorem in1_0 (c : Dev nD) : V6 m ρ c (Pipeline.arrRef spec1 (0 : Fin 11)) = Cert.KFns.segMean (m ((c : Thread nD τ).loc main_arg5) : (⟨S100000, .i32⟩ : BufTy).Contents (Elt F)) (W5 m ρ c (Proc.devRef .tc main_v16_0)) :=
  V6_main_v28 m ρ c
/-- Region 1's input window 1. -/
theorem in1_1 (c : Dev nD) : V6 m ρ c (Pipeline.arrRef spec1 (1 : Fin 11)) = Cert.KFns.segMean (m ((c : Thread nD τ).loc main_arg5) : (⟨S100000, .i32⟩ : BufTy).Contents (Elt F)) (W5 m ρ c (Proc.devRef .tc main_v16_1)) :=
  V6_main_v33 m ρ c
/-- Region 1's input window 2. -/
theorem in1_2 (c : Dev nD) : V6 m ρ c (Pipeline.arrRef spec1 (2 : Fin 11)) = m ((c : Thread nD τ).loc main_arg18) :=
  V6_main_arg18 m ρ c
/-- Region 1's input window 3. -/
theorem in1_3 (c : Dev nD) : V6 m ρ c (Pipeline.arrRef spec1 (3 : Fin 11)) = (shapeCast S1x512 (m ((c : Thread nD τ).loc main_arg19) : (⟨S512, .f32⟩ : BufTy).Contents (Elt F)) shapeCasts_S512_S1x512 : (⟨S1x512, .f32⟩ : BufTy).Contents (Elt F)) :=
  V6_main_v34 m ρ c
/-- Region 1's input window 4. -/
theorem in1_4 (c : Dev nD) : V6 m ρ c (Pipeline.arrRef spec1 (4 : Fin 11)) = m ((c : Thread nD τ).loc main_arg20) :=
  V6_main_arg20 m ρ c
/-- Region 1's input window 5. -/
theorem in1_5 (c : Dev nD) : V6 m ρ c (Pipeline.arrRef spec1 (5 : Fin 11)) = (shapeCast S1x1 (m ((c : Thread nD τ).loc main_arg21) : (⟨S1, .f32⟩ : BufTy).Contents (Elt F)) shapeCasts_S1_S1x1 : (⟨S1x1, .f32⟩ : BufTy).Contents (Elt F)) :=
  V6_main_v35 m ρ c
/-- Region 1's input window 6. -/
theorem in1_6 (c : Dev nD) : V6 m ρ c (Pipeline.arrRef spec1 (6 : Fin 11)) = m ((c : Thread nD τ).loc main_arg22) :=
  V6_main_arg22 m ρ c
/-- Region 1's input window 7. -/
theorem in1_7 (c : Dev nD) : V6 m ρ c (Pipeline.arrRef spec1 (7 : Fin 11)) = (shapeCast S1x512 (m ((c : Thread nD τ).loc main_arg23) : (⟨S512, .f32⟩ : BufTy).Contents (Elt F)) shapeCasts_S512_S1x512 : (⟨S1x512, .f32⟩ : BufTy).Contents (Elt F)) :=
  V6_main_v36 m ρ c
/-- Region 1's input window 8. -/
theorem in1_8 (c : Dev nD) : V6 m ρ c (Pipeline.arrRef spec1 (8 : Fin 11)) = m ((c : Thread nD τ).loc main_arg24) :=
  V6_main_arg24 m ρ c
/-- Region 1's input window 9. -/
theorem in1_9 (c : Dev nD) : V6 m ρ c (Pipeline.arrRef spec1 (9 : Fin 11)) = (shapeCast S1x1 (m ((c : Thread nD τ).loc main_arg25) : (⟨S1, .f32⟩ : BufTy).Contents (Elt F)) shapeCasts_S1_S1x1 : (⟨S1x1, .f32⟩ : BufTy).Contents (Elt F)) :=
  V6_main_v37 m ρ c

end Cert.KHost

end
-- ==== Proof.Spec.lean ====
/-
  The mathematics both programs compute, stated once over plain finite index types on the extended reals.

  For one atom (one row): the hidden layer is the rectified sum of two matrix products — the atom's own
  features against the top 151 rows of W1 and its aggregated neighbour message against the bottom 128 rows —
  plus the bias; the second layer is a matrix product plus bias; the result is normalised along its 128
  features (mean and variance as sums divided by the literal 128, the literal epsilon added under the
  reciprocal square root), scaled and shifted. For one molecule: each head is a rectified affine map followed
  by an affine map to one number, and the two heads are added and halved.

  The float literals stay as their words: the same word stands on both sides and is never evaluated.
-/
import Idealize.ShloMosaic.PureOps.Ideal
import Idealize.ShloMosaic.Lib.ValueIdx

noncomputable section

namespace Cert.Spec

open Idealize.ShloMosaic Idealize.ShloMosaic.ValueIdx
open scoped BigOperators

variable {n1 n2 h o : ℕ}

/-- The rectified hidden layer of one row: (x·Wtop + a·Wbot + b1) clipped below at the literal zero. -/
def hid (x : Fin n1 → EReal) (a : Fin n2 → EReal) (wt : Fin n1 → Fin h → EReal) (wb : Fin n2 → Fin h → EReal)
    (b1 : Fin h → EReal) (k : Fin h) : EReal :=
  max (((∑ j, x j * wt j k) + ∑ j, a j * wb j k) + b1 k) (Ideal.ofBits .f32 0x00000000#32)

/-- An affine map of one row: x·W + b. -/
def lin (x : Fin h → EReal) (w : Fin h → Fin o → EReal) (b : Fin o → EReal) (c : Fin o) : EReal :=
  (∑ k, x k * w k c) + b c

/-- Layer normalisation of one row, as both programs spell it: the mean is the row's sum divided by the literal
    128, the variance the sum of squared deviations divided by the same literal, and the result
    ((y − mean) · rsqrt(var + ε)) · g + β. -/
def lnRow (y g be : Fin o → EReal) (c : Fin o) : EReal :=
  (y c - Ideal.div (∑ c', y c') (Ideal.ofBits .f32 0x43000000#32))
      * Ideal.rsqrt (Ideal.div (∑ c', (y c' - Ideal.div (∑ c'', y c'') (Ideal.ofBits .f32 0x43000000#32))
            * (y c' - Ideal.div (∑ c'', y c'') (Ideal.ofBits .f32 0x43000000#32))) (Ideal.ofBits .f32 0x43000000#32)
          + Ideal.ofBits .f32 0x3727C5AC#32)
      * g c
    + be c

/-- One atom's feed-forward sublayer with layer normalisation. -/
def atomRow (x : Fin n1 → EReal) (a : Fin n2 → EReal) (wt : Fin n1 → Fin h → EReal) (wb : Fin n2 → Fin h → EReal)
    (b1 : Fin h → EReal) (w2 : Fin h → Fin o → EReal) (b2 g be : Fin o → EReal) : Fin o → EReal :=
  lnRow (lin (hid x a wt wb b1) w2 b2) g be

/-- One molecule head: relu(x·W3 + b3)·w4 + b4, one number. -/
def headRow (x : Fin n1 → EReal) (w3 : Fin n1 → Fin h → EReal) (b3 : Fin h → EReal) (w4 : Fin h → EReal) (b4 : EReal) : EReal :=
  (∑ k, max ((∑ j, x j * w3 j k) + b3 k) (Ideal.ofBits .f32 0x00000000#32) * w4 k) + b4

/-- The two heads added and multiplied by the literal one half. -/
def molRow (xa xb : Fin n1 → EReal) (w3a : Fin n1 → Fin h → EReal) (b3a : Fin h → EReal) (w4a : Fin h → EReal) (b4a : EReal)
    (w3b : Fin n1 → Fin h → EReal) (b3b : Fin h → EReal) (w4b : Fin h → EReal) (b4b : EReal) : EReal :=
  (headRow xa w3a b3a w4a b4a + headRow xb w3b b3b w4b b4b) * Ideal.ofBits .f32 0x3F000000#32

/-! ## The same over two-axis arrays -/

/-- Row `r` of a two-axis array. -/
def row2 {n0 n : ℕ} (x : (⟨2, ![n0, n]⟩ : Shape).Idx → EReal) (r : Fin n0) : Fin n → EReal := fun j => x (ix2 r j)

/-- A two-axis array as a function of its two coordinates. -/
def mat2 {n0 n : ℕ} (x : (⟨2, ![n0, n]⟩ : Shape).Idx → EReal) : Fin n0 → Fin n → EReal := fun j k => x (ix2 j k)

/-- The sublayer over all rows of an array of atoms: entry (r, c) depends on row r of the atom features and of
    the messages only. -/
def atomArr {A : ℕ} (ofa : (⟨2, ![A, 151]⟩ : Shape).Idx → EReal) (ag : (⟨2, ![A, 128]⟩ : Shape).Idx → EReal)
    (wt : (⟨2, ![151, 512]⟩ : Shape).Idx → EReal) (wb : (⟨2, ![128, 512]⟩ : Shape).Idx → EReal)
    (b1 : (⟨2, ![1, 512]⟩ : Shape).Idx → EReal) (w2 : (⟨2, ![512, 128]⟩ : Shape).Idx → EReal)
    (b2 g be : (⟨2, ![1, 128]⟩ : Shape).Idx → EReal) : (⟨2, ![A, 128]⟩ : Shape).Idx → EReal :=
  fun i => atomRow (row2 ofa (i 0)) (row2 ag (i 0)) (mat2 wt) (mat2 wb) (row2 b1 0) (mat2 w2) (row2 b2 0) (row2 g 0) (row2 be 0) (i 1)

/-- The molecule head over all molecules. -/
def molArr {M : ℕ} (xa xb : (⟨2, ![M, 128]⟩ : Shape).Idx → EReal)
    (w3a : (⟨2, ![128, 512]⟩ : Shape).Idx → EReal) (b3a : (⟨2, ![1, 512]⟩ : Shape).Idx → EReal)
    (w4a : (⟨2, ![512, 1]⟩ : Shape).Idx → EReal) (b4a : (⟨2, ![1, 1]⟩ : Shape).Idx → EReal)
    (w3b : (⟨2, ![128, 512]⟩ : Shape).Idx → EReal) (b3b : (⟨2, ![1, 512]⟩ : Shape).Idx → EReal)
    (w4b : (⟨2, ![512, 1]⟩ : Shape).Idx → EReal) (b4b : (⟨2, ![1, 1]⟩ : Shape).Idx → EReal) :
    (⟨2, ![M, 1]⟩ : Shape).Idx → EReal :=
  fun i => molRow (row2 xa (i 0)) (row2 xb (i 0)) (mat2 w3a) (row2 b3a 0) (fun k => w4a (ix2 k 0)) (b4a (ix2 0 0))
    (mat2 w3b) (row2 b3b 0) (fun k => w4b (ix2 k 0)) (b4b (ix2 0 0))

end Cert.Spec

end
-- ==== Proof.KReg0Blocks.lean ====
/-
  From blocks to whole arrays, for the atom sublayer (the first region).

  The region walks over the 100000 atoms in 100 steps of 1000 rows. At step t it sees rows 1000·t … 1000·t+999 of the
  atom features and of the two aggregated messages, and the whole of every weight, bias, scale and shift array; it
  writes rows 1000·t … 1000·t+999 of the two result arrays. Entry (r, q) of the sublayer's value depends only on row r
  of the features and of the message, and on the whole weights. So the block written at step t is exactly the
  restriction to those rows of the sublayer's value on the whole arrays, the 100 blocks tile the result, and the
  result array ends holding the sublayer's value on the whole arrays.

  A block's coordinate in its array is always (block index) × (block size) + 1 × (coordinate inside the block).
-/
import proofs.«100054_j87634512707836_1_alg».proof.Proof.Spec
import proofs.«100054_j87634512707836_1_alg».proof.Proof.Gen.KernelIdeal.Frame
import Idealize.ShloMosaic.Lib.Pipeline.Value

set_option maxRecDepth 16384

noncomputable section

namespace Cert.KReg

open Idealize.ShloMosaic Idealize.ShloMosaic.TcCoe Idealize.ShloMosaic.ValueIdx Idealize.SL.Sem
open Idealize.ShloMosaic.Pipeline (Dat)
open Cert.KernelIdeal Cert.KernelIdeal.Gen
open Cert.Spec

variable (V : (c : Dev nD) → (b : Ref sig .tc) → Buf (Elt Ideal) ((c : Thread nD τ).loc b))

/-! ## Where each step's blocks sit -/

/-- The row-blocked arrays (features, the two messages, the two results): step t's block is block (t, 0). -/
theorem rows_index : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_17.index t (0 : Fin 2) = t.val ∧ win0_17.index t (1 : Fin 2) = 0
    ∧ win0_18.index t (0 : Fin 2) = t.val ∧ win0_18.index t (1 : Fin 2) = 0 :=
  (by decide +kernel : ∀ t : Fin grid0.N, _)

/-- The first branch's weights, biases, scale and shift: every step sees block (0, 0), the whole array. -/
theorem weightsA_index : ∀ t : Fin cfg0.N,
      (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- The second branch's weights, biases, scale and shift: likewise the whole array at every step. -/
theorem weightsB_index : ∀ t : Fin cfg0.N,
      (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0) :=
  (by decide +kernel : ∀ t : Fin grid0.N, _)

/-! ## Reading the blocks -/

/-- Row r of step t's block of the atom features is row 1000·t + r of the array. -/
theorem feat_rows (c : Dev nD) (t : Fin cfg0.N) (r : Fin 1000) (R : Fin 100000) (hR : R.val = 1000 * t.val + r.val) :
    row2 (iblk0 V c 0 t : S1000x151.Idx → EReal) r = row2 (V c (Pipeline.arrRef spec0 0) : S100000x151.Idx → EReal) R := by
  obtain ⟨e0, e1, -⟩ := rows_index t
  funext j
  show V c (Pipeline.arrRef spec0 0) (((cfg0.win 0).blk t).view.emb (ix2 r j)) = V c (Pipeline.arrRef spec0 0) (ix2 R j)
  refine congrArg _ ?_
  funext a; apply Fin.ext
  match a with
  | ⟨0, _⟩ => show win0_0.index t (0 : Fin 2) * 1000 + 1 * r.val = R.val; omega
  | ⟨1, _⟩ => show win0_0.index t (1 : Fin 2) * 151 + 1 * j.val = j.val; omega

/-- Row r of step t's block of the first aggregated message is row 1000·t + r of the array. -/
theorem msgA_rows (c : Dev nD) (t : Fin cfg0.N) (r : Fin 1000) (R : Fin 100000) (hR : R.val = 1000 * t.val + r.val) :
    row2 (iblk0 V c 1 t : S1000x128.Idx → EReal) r = row2 (V c (Pipeline.arrRef spec0 1) : S100000x128.Idx → EReal) R := by
  obtain ⟨-, -, e0, e1, -⟩ := rows_index t
  funext j
  show V c (Pipeline.arrRef spec0 1) (((cfg0.win 1).blk t).view.emb (ix2 r j)) = V c (Pipeline.arrRef spec0 1) (ix2 R j)
  refine congrArg _ ?_
  funext a; apply Fin.ext
  match a with
  | ⟨0, _⟩ => show win0_1.index t (0 : Fin 2) * 1000 + 1 * r.val = R.val; omega
  | ⟨1, _⟩ => show win0_1.index t (1 : Fin 2) * 128 + 1 * j.val = j.val; omega

/-- Row r of step t's block of the second aggregated message is row 1000·t + r of the array. -/
theorem msgB_rows (c : Dev nD) (t : Fin cfg0.N) (r : Fin 1000) (R : Fin 100000) (hR : R.val = 1000 * t.val + r.val) :
    row2 (iblk0 V c 2 t : S1000x128.Idx → EReal) r = row2 (V c (Pipeline.arrRef spec0 2) : S100000x128.Idx → EReal) R := by
  obtain ⟨-, -, -, -, e0, e1, -⟩ := rows_index t
  funext j
  show V c (Pipeline.arrRef spec0 2) (((cfg0.win 2).blk t).view.emb (ix2 r j)) = V c (Pipeline.arrRef spec0 2) (ix2 R j)
  refine congrArg _ ?_
  funext a; apply Fin.ext
  match a with
  | ⟨0, _⟩ => show win0_2.index t (0 : Fin 2) * 1000 + 1 * r.val = R.val; omega
  | ⟨1, _⟩ => show win0_2.index t (1 : Fin 2) * 128 + 1 * j.val = j.val; omega

/-- Every step's block of the first branch's first-layer weights' top 151 rows (the atom features' part) is the whole array. -/
theorem w1topA_block (c : Dev nD) (t : Fin cfg0.N) :
    (iblk0 V c 3 t : S151x512.Idx → EReal) = (V c (Pipeline.arrRef spec0 3) : S151x512.Idx → EReal) := by
  obtain ⟨e0, e1⟩ := (weightsA_index t).1
  funext y
  show V c (Pipeline.arrRef spec0 3) (((cfg0.win 3).blk t).view.emb y) = V c (Pipeline.arrRef spec0 3) y
  refine congrArg _ ?_
  funext a; apply Fin.ext
  match a with
  | ⟨0, _⟩ => show win0_3.index t (0 : Fin 2) * 151 + 1 * (y 0).val = (y 0).val; omega
  | ⟨1, _⟩ => show win0_3.index t (1 : Fin 2) * 512 + 1 * (y 1).val = (y 1).val; omega

/-- Every step's block of the first branch's first-layer weights' bottom 128 rows (the message's part) is the whole array. -/
theorem w1botA_block (c : Dev nD) (t : Fin cfg0.N) :
    (iblk0 V c 4 t : S128x512.Idx → EReal) = (V c (Pipeline.arrRef spec0 4) : S128x512.Idx → EReal) := by
  obtain ⟨e0, e1⟩ := (weightsA_index t).2.1
  funext y
  show V c (Pipeline.arrRef spec0 4) (((cfg0.win 4).blk t).view.emb y) = V c (Pipeline.arrRef spec0 4) y
  refine congrArg _ ?_
  funext a; apply Fin.ext
  match a with
  | ⟨0, _⟩ => show win0_4.index t (0 : Fin 2) * 128 + 1 * (y 0).val = (y 0).val; omega
  | ⟨1, _⟩ => show win0_4.index t (1 : Fin 2) * 512 + 1 * (y 1).val = (y 1).val; omega

/-- Every step's block of the first branch's first-layer bias is the whole array. -/
theorem b1A_block (c : Dev nD) (t : Fin cfg0.N) :
    (iblk0 V c 5 t : S1x512.Idx → EReal) = (V c (Pipeline.arrRef spec0 5) : S1x512.Idx → EReal) := by
  obtain ⟨e0, e1⟩ := (weightsA_index t).2.2.1
  funext y
  show V c (Pipeline.arrRef spec0 5) (((cfg0.win 5).blk t).view.emb y) = V c (Pipeline.arrRef spec0 5) y
  refine congrArg _ ?_
  funext a; apply Fin.ext
  match a with
  | ⟨0, _⟩ => show win0_5.index t (0 : Fin 2) * 1 + 1 * (y 0).val = (y 0).val; omega
  | ⟨1, _⟩ => show win0_5.index t (1 : Fin 2) * 512 + 1 * (y 1).val = (y 1).val; omega

/-- Every step's block of the first branch's second-layer weights is the whole array. -/
theorem w2A_block (c : Dev nD) (t : Fin cfg0.N) :
    (iblk0 V c 6 t : S512x128.Idx → EReal) = (V c (Pipeline.arrRef spec0 6) : S512x128.Idx → EReal) := by
  obtain ⟨e0, e1⟩ := (weightsA_index t).2.2.2.1
  funext y
  show V c (Pipeline.arrRef spec0 6) (((cfg0.win 6).blk t).view.emb y) = V c (Pipeline.arrRef spec0 6) y
  refine congrArg _ ?_
  funext a; apply Fin.ext
  match a with
  | ⟨0, _⟩ => show win0_6.index t (0 : Fin 2) * 512 + 1 * (y 0).val = (y 0).val; omega
  | ⟨1, _⟩ => show win0_6.index t (1 : Fin 2) * 128 + 1 * (y 1).val = (y 1).val; omega

/-- Every step's block of the first branch's second-layer bias is the whole array. -/
theorem b2A_block (c : Dev nD) (t : Fin cfg0.N) :
    (iblk0 V c 7 t : S1x128.Idx → EReal) = (V c (Pipeline.arrRef spec0 7) : S1x128.Idx → EReal) := by
  obtain ⟨e0, e1⟩ := (weightsA_index t).2.2.2.2.1
  funext y
  show V c (Pipeline.arrRef spec0 7) (((cfg0.win 7).blk t).view.emb y) = V c (Pipeline.arrRef spec0 7) y
  refine congrArg _ ?_
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Every step's block of the first branch's normalisation scale is the whole array. -/
theorem gammaA_block (c : Dev nD) (t : Fin cfg0.N) :
    (iblk0 V c 8 t : S1x128.Idx → EReal) = (V c (Pipeline.arrRef spec0 8) : S1x128.Idx → EReal) := by
  obtain ⟨e0, e1⟩ := (weightsA_index t).2.2.2.2.2.1
  funext y
  show V c (Pipeline.arrRef spec0 8) (((cfg0.win 8).blk t).view.emb y) = V c (Pipeline.arrRef spec0 8) y
  refine congrArg _ ?_
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Every step's block of the first branch's normalisation shift is the whole array. -/
theorem betaA_block (c : Dev nD) (t : Fin cfg0.N) :
    (iblk0 V c 9 t : S1x128.Idx → EReal) = (V c (Pipeline.arrRef spec0 9) : S1x128.Idx → EReal) := by
  obtain ⟨e0, e1⟩ := (weightsA_index t).2.2.2.2.2.2
  funext y
  show V c (Pipeline.arrRef spec0 9) (((cfg0.win 9).blk t).view.emb y) = V c (Pipeline.arrRef spec0 9) y
  refine congrArg _ ?_
  funext a; apply Fin.ext
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- Every step's block of the second branch's first-layer weights' top 151 rows (the atom features' part) is the whole array. -/
theorem w1topB_block (c : Dev nD) (t : Fin cfg0.N) :
    (iblk0 V c 10 t : S151x512.Idx → EReal) = (V c (Pipeline.arrRef spec0 10) : S151x512.Idx → EReal) := by
  obtain ⟨e0, e1⟩ := (weightsB_index t).1
  funext y
  show V c (Pipeline.arrRef spec0 10) (((cfg0.win 10).blk t).view.emb y) = V c (Pipeline.arrRef spec0 10) y
  refine congrArg _ ?_
  funext a; apply Fin.ext
  match a with
  | ⟨0, _⟩ => show win0_10.index t (0 : Fin 2) * 151 + 1 * (y 0).val = (y 0).val; omega
  | ⟨1, _⟩ => show win0_10.index t (1 : Fin 2) * 512 + 1 * (y 1).val = (y 1).val; omega

/-- Every step's block of the second branch's first-layer weights' bottom 128 rows (the message's part) is the whole array. -/
theorem w1botB_block (c : Dev nD) (t : Fin cfg0.N) :
    (iblk0 V c 11 t : S128x512.Idx → EReal) = (V c (Pipeline.arrRef spec0 11) : S128x512.Idx → EReal) := by
  obtain ⟨e0, e1⟩ := (weightsB_index t).2.1
  funext y
  show V c (Pipeline.arrRef spec0 11) (((cfg0.win 11).blk t).view.emb y) = V c (Pipeline.arrRef spec0 11) y
  refine congrArg _ ?_
  funext a; apply Fin.ext
  match a with
  | ⟨0, _⟩ => show win0_11.index t (0 : Fin 2) * 128 + 1 * (y 0).val = (y 0).val; omega
  | ⟨1, _⟩ => show win0_11.index t (1 : Fin 2) * 512 + 1 * (y 1).val = (y 1).val; omega

/-- Every step's block of the second branch's first-layer bias is the whole array. -/
theorem b1B_block (c : Dev nD) (t : Fin cfg0.N) :
    (iblk0 V c 12 t : S1x512.Idx → EReal) = (V c (Pipeline.arrRef spec0 12) : S1x512.Idx → EReal) := by
  obtain ⟨e0, e1⟩ := (weightsB_index t).2.2.1
  funext y
  show V c (Pipeline.arrRef spec0 12) (((cfg0.win 12).blk t).view.emb y) = V c (Pipeline.arrRef spec0 12) y
  refine congrArg _ ?_
  funext a; apply Fin.ext
  match a with
  | ⟨0, _⟩ => show win0_12.index t (0 : Fin 2) * 1 + 1 * (y 0).val = (y 0).val; omega
  | ⟨1, _⟩ => show win0_12.index t (1 : Fin 2) * 512 + 1 * (y 1).val = (y 1).val; omega

/-- Every step's block of the second branch's second-layer weights is the whole array. -/
theorem w2B_block (c : Dev nD) (t : Fin cfg0.N) :
    (iblk0 V c 13 t : S512x128.Idx → EReal) = (V c (Pipeline.arrRef spec0 13) : S512x128.Idx → EReal) := by
  obtain ⟨e0, e1⟩ := (weightsB_index t).2.2.2.1
  funext y
  show V c (Pipeline.arrRef spec0 13) (((cfg0.win 13).blk t).view.emb y) = V c (Pipeline.arrRef spec0 13) y
  refine congrArg _ ?_
  funext a; apply Fin.ext
  match a with
  | ⟨0, _⟩ => show win0_13.index t (0 : Fin 2) * 512 + 1 * (y 0).val = (y 0).val; omega
  | ⟨1, _⟩ => show win0_13.index t (1 : Fin 2) * 128 + 1 * (y 1).val = (y 1).val; omega

/-- Every step's block of the second branch's second-layer bias is the whole array. -/
theorem b2B_block (c : Dev nD) (t : Fin cfg0.N) :
    (iblk0 V c 14 t : S1x128.Idx → EReal) = (V c (Pipeline.arrRef spec0 14) : S1x128.Idx → EReal) := by
  obtain ⟨e0, e1⟩ := (weightsB_index t).2.2.2.2.1
  funext y
  show V c (Pipeline.arrRef spec0 14) (((cfg0.win 14).blk t).view.emb y) = V c (Pipeline.arrRef spec0 14) y
  refine congrArg _ ?_
  funext a; apply Fin.ext
  match a with
  | ⟨0, _⟩ => show win0_14.index t (0 : Fin 2) * 1 + 1 * (y 0).val = (y 0).val; omega
  | ⟨1, _⟩ => show win0_14.index t (1 : Fin 2) * 128 + 1 * (y 1).val = (y 1).val; omega

/-- Every step's block of the second branch's normalisation scale is the whole array. -/
theorem gammaB_block (c : Dev nD) (t : Fin cfg0.N) :
    (iblk0 V c 15 t : S1x128.Idx → EReal) = (V c (Pipeline.arrRef spec0 15) : S1x128.Idx → EReal) := by
  obtain ⟨e0, e1⟩ := (weightsB_index t).2.2.2.2.2.1
  funext y
  show V c (Pipeline.arrRef spec0 15) (((cfg0.win 15).blk t).view.emb y) = V c (Pipeline.arrRef spec0 15) y
  refine congrArg _ ?_
  funext a; apply Fin.ext
  match a with
  | ⟨0, _⟩ => show win0_15.index t (0 : Fin 2) * 1 + 1 * (y 0).val = (y 0).val; omega
  | ⟨1, _⟩ => show win0_15.index t (1 : Fin 2) * 128 + 1 * (y 1).val = (y 1).val; omega

/-- Every step's block of the second branch's normalisation shift is the whole array. -/
theorem betaB_block (c : Dev nD) (t : Fin cfg0.N) :
    (iblk0 V c 16 t : S1x128.Idx → EReal) = (V c (Pipeline.arrRef spec0 16) : S1x128.Idx → EReal) := by
  obtain ⟨e0, e1⟩ := (weightsB_index t).2.2.2.2.2.2
  funext y
  show V c (Pipeline.arrRef spec0 16) (((cfg0.win 16).blk t).view.emb y) = V c (Pipeline.arrRef spec0 16) y
  refine congrArg _ ?_
  funext a; apply Fin.ext
  match a with
  | ⟨0, _⟩ => show win0_16.index t (0 : Fin 2) * 1 + 1 * (y 0).val = (y 0).val; omega
  | ⟨1, _⟩ => show win0_16.index t (1 : Fin 2) * 128 + 1 * (y 1).val = (y 1).val; omega

end Cert.KReg

end
-- ==== Proof.KReg0.lean ====
/-
  The two result arrays of the atom sublayer (the first region), from the blocks each step writes back.

  Step t writes rows 1000·t … 1000·t+999 of each result; what it writes is the sublayer's value on the step's blocks,
  which is the sublayer's value on the whole arrays restricted to those rows, since an entry depends only on its own
  row of the features and of the message. The 100 blocks tile each result (row r is written at step r / 1000).
-/
import proofs.«100054_j87634512707836_1_alg».proof.Proof.KReg0Blocks

set_option maxRecDepth 16384

noncomputable section

namespace Cert.KReg

open Idealize.ShloMosaic Idealize.ShloMosaic.TcCoe Idealize.ShloMosaic.ValueIdx Idealize.SL.Sem
open Idealize.ShloMosaic.Pipeline (Dat)
open Cert.KernelIdeal Cert.KernelIdeal.Gen
open Cert.Spec

variable (V : (c : Dev nD) → (b : Ref sig .tc) → Buf (Elt Ideal) ((c : Thread nD τ).loc b))

/-! ## The sublayer's value on a block is its value on the arrays, restricted to the block's rows -/

/-- An entry of the sublayer's value depends only on the entry's row of the features and of the message (and on
    the weights): two arrays of atoms that agree on those two rows, under equal weights, give the same entry. -/
theorem atomArr_of_rows {A B : ℕ}
    (x : (⟨2, ![B, 151]⟩ : Shape).Idx → EReal) (X : (⟨2, ![A, 151]⟩ : Shape).Idx → EReal)
    (ag : (⟨2, ![B, 128]⟩ : Shape).Idx → EReal) (AG : (⟨2, ![A, 128]⟩ : Shape).Idx → EReal)
    (wt wt' : (⟨2, ![151, 512]⟩ : Shape).Idx → EReal) (wb wb' : (⟨2, ![128, 512]⟩ : Shape).Idx → EReal)
    (b1 b1' : (⟨2, ![1, 512]⟩ : Shape).Idx → EReal) (w2 w2' : (⟨2, ![512, 128]⟩ : Shape).Idx → EReal)
    (b2 b2' g g' be be' : (⟨2, ![1, 128]⟩ : Shape).Idx → EReal)
    (y : (⟨2, ![B, 128]⟩ : Shape).Idx) (i : (⟨2, ![A, 128]⟩ : Shape).Idx)
    (hx : row2 x (y 0) = row2 X (i 0)) (hag : row2 ag (y 0) = row2 AG (i 0))
    (hwt : wt = wt') (hwb : wb = wb') (hb1 : b1 = b1') (hw2 : w2 = w2') (hb2 : b2 = b2') (hg : g = g') (hbe : be = be')
    (hq : (y 1).val = (i 1).val) :
    atomArr x ag wt wb b1 w2 b2 g be y = atomArr X AG wt' wb' b1' w2' b2' g' be' i := by
  subst hwt hwb hb1 hw2 hb2 hg hbe
  have hq' : (y 1 : Fin 128) = (i 1 : Fin 128) := Fin.ext hq
  show atomRow (row2 x (y 0)) (row2 ag (y 0)) (mat2 wt) (mat2 wb) (row2 b1 0) (mat2 w2) (row2 b2 0) (row2 g 0) (row2 be 0) (y 1)
     = atomRow (row2 X (i 0)) (row2 AG (i 0)) (mat2 wt) (mat2 wb) (row2 b1 0) (mat2 w2) (row2 b2 0) (row2 g 0) (row2 be 0) (i 1)
  rw [hx, hag, hq']

/-! ## The first result array -/

set_option maxHeartbeats 2000000 in
/-- WHAT STEP t WRITES BACK to the first result: rows 1000·t … 1000·t+999 of the sublayer's value on the whole arrays. -/
theorem outA_flushed (c : Dev nD)
    (hpay : ∀ x0 x1 x2 x3 x4 x5 x6 x7 x8 x9 x10 x11 x12 x13 x14 x15 x16, out0_17 (F := Ideal) x0 x1 x2 x3 x4 x5 x6 x7 x8 x9 x10 x11 x12 x13 x14 x15 x16 = atomArr (A := 1000) x0 x1 x3 x4 x5 x6 x7 x8 x9)
    (t : Fin cfg0.N) :
    (dat0 V c).flushed 17 t = ((cfg0.win 17).blk t).view.read (Elt Ideal)
      (atomArr (A := 100000) (V c (Pipeline.arrRef spec0 0)) (V c (Pipeline.arrRef spec0 1)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9))) := by
  show (cfg0.win 17).cut (grid0.coords t) ((dat0 V c).after 17 t) = _
  rw [after0_17, hpay]
  obtain ⟨-, -, -, -, -, -, e0, e1, -⟩ := rows_index t
  refine funext fun (y : S1000x128.Idx) => ?_
  show atomArr (A := 1000) (iblk0 V c 0 t) (iblk0 V c 1 t) (iblk0 V c 3 t) (iblk0 V c 4 t) (iblk0 V c 5 t) (iblk0 V c 6 t) (iblk0 V c 7 t) (iblk0 V c 8 t) (iblk0 V c 9 t) y
     = atomArr (A := 100000) (V c (Pipeline.arrRef spec0 0)) (V c (Pipeline.arrRef spec0 1)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (((cfg0.win 17).blk t).view.emb y)
  have hrow : ((((cfg0.win 17).blk t).view.emb y) 0).val = 1000 * t.val + (y 0).val := by
    show win0_17.index t (0 : Fin 2) * 1000 + 1 * (y 0).val = _; omega
  have hcol : (y 1).val = ((((cfg0.win 17).blk t).view.emb y) 1).val := by
    show _ = win0_17.index t (1 : Fin 2) * 128 + 1 * (y 1).val; omega
  exact atomArr_of_rows (iblk0 V c 0 t) (V c (Pipeline.arrRef spec0 0)) (iblk0 V c 1 t) (V c (Pipeline.arrRef spec0 1))
    (iblk0 V c 3 t) (V c (Pipeline.arrRef spec0 3)) (iblk0 V c 4 t) (V c (Pipeline.arrRef spec0 4))
    (iblk0 V c 5 t) (V c (Pipeline.arrRef spec0 5)) (iblk0 V c 6 t) (V c (Pipeline.arrRef spec0 6))
    (iblk0 V c 7 t) (V c (Pipeline.arrRef spec0 7)) (iblk0 V c 8 t) (V c (Pipeline.arrRef spec0 8))
    (iblk0 V c 9 t) (V c (Pipeline.arrRef spec0 9))
    y (((cfg0.win 17).blk t).view.emb y)
    (feat_rows V c t (y 0) _ hrow) (msgA_rows V c t (y 0) _ hrow)
    (w1topA_block V c t) (w1botA_block V c t) (b1A_block V c t) (w2A_block V c t) (b2A_block V c t) (gammaA_block V c t) (betaA_block V c t)
    hcol

/-- An index of the first result is in step t's block iff each coordinate is in the block's range on its axis. -/
theorem outA_mem_block (t : Fin cfg0.N) (i : S100000x128.Idx) :
    i ∈ ((cfg0.win 17).blk t).view.set ↔ ∀ a : Fin 2, win0_17.index t a * S1000x128.size a ≤ (i a).val ∧ (i a).val < win0_17.index t a * S1000x128.size a + S1000x128.size a := by
  show i ∈ ((View.whole main_v16_0).slice (win0_17.rect t)).set ↔ _
  rw [View.set_slice_whole, Rect.mem_set_unit]
  exact Iff.rfl

/-- Row r of the first result is written at step r / 1000: the 100 blocks tile the array. -/
theorem outA_cover (i : S100000x128.Idx) :
    ∃ t : Fin cfg0.N, (cfg0.win 17).flush t = true ∧ i ∈ ((cfg0.win 17).blk t).view.set := by
  have hi0 : (i 0).val < 100000 := (i 0).isLt
  have hi1 : (i 1).val < 128 := (i 1).isLt
  have hN : cfg0.N = 100 := N_0
  have ht : (i 0).val / 1000 < cfg0.N := by rw [hN]; omega
  obtain ⟨-, -, -, -, -, -, e0, e1, -⟩ := rows_index ⟨(i 0).val / 1000, ht⟩
  refine ⟨⟨(i 0).val / 1000, ht⟩, flush0_17 _, ?_⟩
  rw [outA_mem_block]
  intro a
  match a with
  | ⟨0, _⟩ =>
    show win0_17.index ⟨(i 0).val / 1000, ht⟩ (0 : Fin 2) * 1000 ≤ (i 0).val ∧ (i 0).val < win0_17.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_17.index ⟨(i 0).val / 1000, ht⟩ (1 : Fin 2) * 128 ≤ (i 1).val ∧ (i 1).val < win0_17.index ⟨(i 0).val / 1000, ht⟩ (1 : Fin 2) * 128 + 128
    rw [e1]; omega

set_option maxHeartbeats 2000000 in
/-- THE FIRST RESULT ARRAY after the region: the sublayer's value on the whole feature, message and weight arrays as
    the region found them. -/
theorem arr17 (c : Dev nD)
    (hpay : ∀ x0 x1 x2 x3 x4 x5 x6 x7 x8 x9 x10 x11 x12 x13 x14 x15 x16, out0_17 (F := Ideal) x0 x1 x2 x3 x4 x5 x6 x7 x8 x9 x10 x11 x12 x13 x14 x15 x16 = atomArr (A := 1000) x0 x1 x3 x4 x5 x6 x7 x8 x9) :
    (dat0 (F := Ideal) V c).arrAt 17 cfg0.N = atomArr (A := 100000) (V c (Pipeline.arrRef spec0 0)) (V c (Pipeline.arrRef spec0 1)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) :=
  (dat0 V c).arrAt_eq_of_cover 17 _ (fun t _ => outA_flushed V c hpay t) outA_cover

/-! ## The second result array -/

set_option maxHeartbeats 2000000 in
/-- WHAT STEP t WRITES BACK to the second result: rows 1000·t … 1000·t+999 of the sublayer's value on the whole arrays. -/
theorem outB_flushed (c : Dev nD)
    (hpay : ∀ x0 x1 x2 x3 x4 x5 x6 x7 x8 x9 x10 x11 x12 x13 x14 x15 x16, out0_18 (F := Ideal) x0 x1 x2 x3 x4 x5 x6 x7 x8 x9 x10 x11 x12 x13 x14 x15 x16 = atomArr (A := 1000) x0 x2 x10 x11 x12 x13 x14 x15 x16)
    (t : Fin cfg0.N) :
    (dat0 V c).flushed 18 t = ((cfg0.win 18).blk t).view.read (Elt Ideal)
      (atomArr (A := 100000) (V c (Pipeline.arrRef spec0 0)) (V c (Pipeline.arrRef spec0 2)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) (V c (Pipeline.arrRef spec0 16))) := by
  show (cfg0.win 18).cut (grid0.coords t) ((dat0 V c).after 18 t) = _
  rw [after0_18, hpay]
  obtain ⟨-, -, -, -, -, -, -, -, e0, e1⟩ := rows_index t
  refine funext fun (y : S1000x128.Idx) => ?_
  show atomArr (A := 1000) (iblk0 V c 0 t) (iblk0 V c 2 t) (iblk0 V c 10 t) (iblk0 V c 11 t) (iblk0 V c 12 t) (iblk0 V c 13 t) (iblk0 V c 14 t) (iblk0 V c 15 t) (iblk0 V c 16 t) y
     = atomArr (A := 100000) (V c (Pipeline.arrRef spec0 0)) (V c (Pipeline.arrRef spec0 2)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) (V c (Pipeline.arrRef spec0 16)) (((cfg0.win 18).blk t).view.emb y)
  have hrow : ((((cfg0.win 18).blk t).view.emb y) 0).val = 1000 * t.val + (y 0).val := by
    show win0_18.index t (0 : Fin 2) * 1000 + 1 * (y 0).val = _; omega
  have hcol : (y 1).val = ((((cfg0.win 18).blk t).view.emb y) 1).val := by
    show _ = win0_18.index t (1 : Fin 2) * 128 + 1 * (y 1).val; omega
  exact atomArr_of_rows (iblk0 V c 0 t) (V c (Pipeline.arrRef spec0 0)) (iblk0 V c 2 t) (V c (Pipeline.arrRef spec0 2))
    (iblk0 V c 10 t) (V c (Pipeline.arrRef spec0 10)) (iblk0 V c 11 t) (V c (Pipeline.arrRef spec0 11))
    (iblk0 V c 12 t) (V c (Pipeline.arrRef spec0 12)) (iblk0 V c 13 t) (V c (Pipeline.arrRef spec0 13))
    (iblk0 V c 14 t) (V c (Pipeline.arrRef spec0 14)) (iblk0 V c 15 t) (V c (Pipeline.arrRef spec0 15))
    (iblk0 V c 16 t) (V c (Pipeline.arrRef spec0 16))
    y (((cfg0.win 18).blk t).view.emb y)
    (feat_rows V c t (y 0) _ hrow) (msgB_rows V c t (y 0) _ hrow)
    (w1topB_block V c t) (w1botB_block V c t) (b1B_block V c t) (w2B_block V c t) (b2B_block V c t) (gammaB_block V c t) (betaB_block V c t)
    hcol

/-- An index of the second result is in step t's block iff each coordinate is in the block's range on its axis. -/
theorem outB_mem_block (t : Fin cfg0.N) (i : S100000x128.Idx) :
    i ∈ ((cfg0.win 18).blk t).view.set ↔ ∀ a : Fin 2, win0_18.index t a * S1000x128.size a ≤ (i a).val ∧ (i a).val < win0_18.index t a * S1000x128.size a + S1000x128.size a := by
  show i ∈ ((View.whole main_v16_1).slice (win0_18.rect t)).set ↔ _
  rw [View.set_slice_whole, Rect.mem_set_unit]
  exact Iff.rfl

/-- Row r of the second result is written at step r / 1000: the 100 blocks tile the array. -/
theorem outB_cover (i : S100000x128.Idx) :
    ∃ t : Fin cfg0.N, (cfg0.win 18).flush t = true ∧ i ∈ ((cfg0.win 18).blk t).view.set := by
  have hi0 : (i 0).val < 100000 := (i 0).isLt
  have hi1 : (i 1).val < 128 := (i 1).isLt
  have hN : cfg0.N = 100 := N_0
  have ht : (i 0).val / 1000 < cfg0.N := by rw [hN]; omega
  obtain ⟨-, -, -, -, -, -, -, -, e0, e1⟩ := rows_index ⟨(i 0).val / 1000, ht⟩
  refine ⟨⟨(i 0).val / 1000, ht⟩, flush0_18 _, ?_⟩
  rw [outB_mem_block]
  intro a
  match a with
  | ⟨0, _⟩ =>
    show win0_18.index ⟨(i 0).val / 1000, ht⟩ (0 : Fin 2) * 1000 ≤ (i 0).val ∧ (i 0).val < win0_18.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_18.index ⟨(i 0).val / 1000, ht⟩ (1 : Fin 2) * 128 ≤ (i 1).val ∧ (i 1).val < win0_18.index ⟨(i 0).val / 1000, ht⟩ (1 : Fin 2) * 128 + 128
    rw [e1]; omega

set_option maxHeartbeats 2000000 in
/-- THE SECOND RESULT ARRAY after the region: the sublayer's value on the whole feature, message and weight arrays as
    the region found them. -/
theorem arr18 (c : Dev nD)
    (hpay : ∀ x0 x1 x2 x3 x4 x5 x6 x7 x8 x9 x10 x11 x12 x13 x14 x15 x16, out0_18 (F := Ideal) x0 x1 x2 x3 x4 x5 x6 x7 x8 x9 x10 x11 x12 x13 x14 x15 x16 = atomArr (A := 1000) x0 x2 x10 x11 x12 x13 x14 x15 x16) :
    (dat0 (F := Ideal) V c).arrAt 18 cfg0.N = atomArr (A := 100000) (V c (Pipeline.arrRef spec0 0)) (V c (Pipeline.arrRef spec0 2)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) (V c (Pipeline.arrRef spec0 16)) :=
  (dat0 V c).arrAt_eq_of_cover 18 _ (fun t _ => outB_flushed V c hpay t) outB_cover

end Cert.KReg

end
-- ==== Proof.KReg1.lean ====
/-
  From blocks to the whole array, for the molecule heads (the second region).

  The region has a single step, and at that step every window's block is block (0, 0) of the size of its whole array:
  the two per-molecule mean arrays, the two heads' weights and biases, and the result. So what the step writes back
  is the heads' value on the whole arrays, and its one block covers the result array.
-/
import proofs.«100054_j87634512707836_1_alg».proof.Proof.Spec
import proofs.«100054_j87634512707836_1_alg».proof.Proof.Gen.KernelIdeal.Frame
import Idealize.ShloMosaic.Lib.Pipeline.Value

set_option maxRecDepth 16384

noncomputable section

namespace Cert.KReg

open Idealize.ShloMosaic Idealize.ShloMosaic.TcCoe Idealize.ShloMosaic.ValueIdx Idealize.SL.Sem
open Idealize.ShloMosaic.Pipeline (Dat)
open Cert.KernelIdeal Cert.KernelIdeal.Gen
open Cert.Spec

variable (V : (c : Dev nD) → (b : Ref sig .tc) → Buf (Elt Ideal) ((c : Thread nD τ).loc b))

/-! ## Where the step's blocks sit -/

/-- Every window's block at the region's step is block (0, 0). -/
theorem mol_index : ∀ t : Fin cfg1.N,
      (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0) :=
  (by decide +kernel : ∀ t : Fin grid1.N, _)

/-! ## Reading the blocks: each is its whole array -/

/-- The step's block of the first per-molecule mean is the whole array. -/
theorem meanA_block (c : Dev nD) (t : Fin cfg1.N) :
    (iblk1 V c 0 t : S1024x128.Idx → EReal) = (V c (Pipeline.arrRef spec1 0) : S1024x128.Idx → EReal) := by
  obtain ⟨e0, e1⟩ := (mol_index t).1
  funext y
  show V c (Pipeline.arrRef spec1 0) (((cfg1.win 0).blk t).view.emb y) = V c (Pipeline.arrRef spec1 0) y
  refine congrArg _ ?_
  funext a; apply Fin.ext
  match a with
  | ⟨0, _⟩ => show win1_0.index t (0 : Fin 2) * 1024 + 1 * (y 0).val = (y 0).val; omega
  | ⟨1, _⟩ => show win1_0.index t (1 : Fin 2) * 128 + 1 * (y 1).val = (y 1).val; omega

/-- The step's block of the second per-molecule mean is the whole array. -/
theorem meanB_block (c : Dev nD) (t : Fin cfg1.N) :
    (iblk1 V c 1 t : S1024x128.Idx → EReal) = (V c (Pipeline.arrRef spec1 1) : S1024x128.Idx → EReal) := by
  obtain ⟨e0, e1⟩ := (mol_index t).2.1
  funext y
  show V c (Pipeline.arrRef spec1 1) (((cfg1.win 1).blk t).view.emb y) = V c (Pipeline.arrRef spec1 1) y
  refine congrArg _ ?_
  funext a; apply Fin.ext
  match a with
  | ⟨0, _⟩ => show win1_1.index t (0 : Fin 2) * 1024 + 1 * (y 0).val = (y 0).val; omega
  | ⟨1, _⟩ => show win1_1.index t (1 : Fin 2) * 128 + 1 * (y 1).val = (y 1).val; omega

/-- The step's block of the first head's hidden weights is the whole array. -/
theorem w3A_block (c : Dev nD) (t : Fin cfg1.N) :
    (iblk1 V c 2 t : S128x512.Idx → EReal) = (V c (Pipeline.arrRef spec1 2) : S128x512.Idx → EReal) := by
  obtain ⟨e0, e1⟩ := (mol_index t).2.2.1
  funext y
  show V c (Pipeline.arrRef spec1 2) (((cfg1.win 2).blk t).view.emb y) = V c (Pipeline.arrRef spec1 2) y
  refine congrArg _ ?_
  funext a; apply Fin.ext
  match a with
  | ⟨0, _⟩ => show win1_2.index t (0 : Fin 2) * 128 + 1 * (y 0).val = (y 0).val; omega
  | ⟨1, _⟩ => show win1_2.index t (1 : Fin 2) * 512 + 1 * (y 1).val = (y 1).val; omega

/-- The step's block of the first head's hidden bias is the whole array. -/
theorem b3A_block (c : Dev nD) (t : Fin cfg1.N) :
    (iblk1 V c 3 t : S1x512.Idx → EReal) = (V c (Pipeline.arrRef spec1 3) : S1x512.Idx → EReal) := by
  obtain ⟨e0, e1⟩ := (mol_index t).2.2.2.1
  funext y
  show V c (Pipeline.arrRef spec1 3) (((cfg1.win 3).blk t).view.emb y) = V c (Pipeline.arrRef spec1 3) y
  refine congrArg _ ?_
  funext a; apply Fin.ext
  match a with
  | ⟨0, _⟩ => show win1_3.index t (0 : Fin 2) * 1 + 1 * (y 0).val = (y 0).val; omega
  | ⟨1, _⟩ => show win1_3.index t (1 : Fin 2) * 512 + 1 * (y 1).val = (y 1).val; omega

/-- The step's block of the first head's output weights is the whole array. -/
theorem w4A_block (c : Dev nD) (t : Fin cfg1.N) :
    (iblk1 V c 4 t : S512x1.Idx → EReal) = (V c (Pipeline.arrRef spec1 4) : S512x1.Idx → EReal) := by
  obtain ⟨e0, e1⟩ := (mol_index t).2.2.2.2.1
  funext y
  show V c (Pipeline.arrRef spec1 4) (((cfg1.win 4).blk t).view.emb y) = V c (Pipeline.arrRef spec1 4) y
  refine congrArg _ ?_
  funext a; apply Fin.ext
  match a with
  | ⟨0, _⟩ => show win1_4.index t (0 : Fin 2) * 512 + 1 * (y 0).val = (y 0).val; omega
  | ⟨1, _⟩ => show win1_4.index t (1 : Fin 2) * 1 + 1 * (y 1).val = (y 1).val; omega

/-- The step's block of the first head's output bias is the whole array. -/
theorem b4A_block (c : Dev nD) (t : Fin cfg1.N) :
    (iblk1 V c 5 t : S1x1.Idx → EReal) = (V c (Pipeline.arrRef spec1 5) : S1x1.Idx → EReal) := by
  obtain ⟨e0, e1⟩ := (mol_index t).2.2.2.2.2.1
  funext y
  show V c (Pipeline.arrRef spec1 5) (((cfg1.win 5).blk t).view.emb y) = V c (Pipeline.arrRef spec1 5) y
  refine congrArg _ ?_
  funext a; apply Fin.ext
  match a with
  | ⟨0, _⟩ => show win1_5.index t (0 : Fin 2) * 1 + 1 * (y 0).val = (y 0).val; omega
  | ⟨1, _⟩ => show win1_5.index t (1 : Fin 2) * 1 + 1 * (y 1).val = (y 1).val; omega

/-- The step's block of the second head's hidden weights is the whole array. -/
theorem w3B_block (c : Dev nD) (t : Fin cfg1.N) :
    (iblk1 V c 6 t : S128x512.Idx → EReal) = (V c (Pipeline.arrRef spec1 6) : S128x512.Idx → EReal) := by
  obtain ⟨e0, e1⟩ := (mol_index t).2.2.2.2.2.2.1
  funext y
  show V c (Pipeline.arrRef spec1 6) (((cfg1.win 6).blk t).view.emb y) = V c (Pipeline.arrRef spec1 6) y
  refine congrArg _ ?_
  funext a; apply Fin.ext
  match a with
  | ⟨0, _⟩ => show win1_6.index t (0 : Fin 2) * 128 + 1 * (y 0).val = (y 0).val; omega
  | ⟨1, _⟩ => show win1_6.index t (1 : Fin 2) * 512 + 1 * (y 1).val = (y 1).val; omega

/-- The step's block of the second head's hidden bias is the whole array. -/
theorem b3B_block (c : Dev nD) (t : Fin cfg1.N) :
    (iblk1 V c 7 t : S1x512.Idx → EReal) = (V c (Pipeline.arrRef spec1 7) : S1x512.Idx → EReal) := by
  obtain ⟨e0, e1⟩ := (mol_index t).2.2.2.2.2.2.2.1
  funext y
  show V c (Pipeline.arrRef spec1 7) (((cfg1.win 7).blk t).view.emb y) = V c (Pipeline.arrRef spec1 7) y
  refine congrArg _ ?_
  funext a; apply Fin.ext
  match a with
  | ⟨0, _⟩ => show win1_7.index t (0 : Fin 2) * 1 + 1 * (y 0).val = (y 0).val; omega
  | ⟨1, _⟩ => show win1_7.index t (1 : Fin 2) * 512 + 1 * (y 1).val = (y 1).val; omega

/-- The step's block of the second head's output weights is the whole array. -/
theorem w4B_block (c : Dev nD) (t : Fin cfg1.N) :
    (iblk1 V c 8 t : S512x1.Idx → EReal) = (V c (Pipeline.arrRef spec1 8) : S512x1.Idx → EReal) := by
  obtain ⟨e0, e1⟩ := (mol_index t).2.2.2.2.2.2.2.2.1
  funext y
  show V c (Pipeline.arrRef spec1 8) (((cfg1.win 8).blk t).view.emb y) = V c (Pipeline.arrRef spec1 8) y
  refine congrArg _ ?_
  funext a; apply Fin.ext
  match a with
  | ⟨0, _⟩ => show win1_8.index t (0 : Fin 2) * 512 + 1 * (y 0).val = (y 0).val; omega
  | ⟨1, _⟩ => show win1_8.index t (1 : Fin 2) * 1 + 1 * (y 1).val = (y 1).val; omega

/-- The step's block of the second head's output bias is the whole array. -/
theorem b4B_block (c : Dev nD) (t : Fin cfg1.N) :
    (iblk1 V c 9 t : S1x1.Idx → EReal) = (V c (Pipeline.arrRef spec1 9) : S1x1.Idx → EReal) := by
  obtain ⟨e0, e1⟩ := (mol_index t).2.2.2.2.2.2.2.2.2.1
  funext y
  show V c (Pipeline.arrRef spec1 9) (((cfg1.win 9).blk t).view.emb y) = V c (Pipeline.arrRef spec1 9) y
  refine congrArg _ ?_
  funext a; apply Fin.ext
  match a with
  | ⟨0, _⟩ => show win1_9.index t (0 : Fin 2) * 1 + 1 * (y 0).val = (y 0).val; omega
  | ⟨1, _⟩ => show win1_9.index t (1 : Fin 2) * 1 + 1 * (y 1).val = (y 1).val; omega

/-! ## The result array -/

/-- The heads' value is a function of its ten arrays and the index. -/
theorem molArr_of_eq {M : ℕ} (xa xa' xb xb' : (⟨2, ![M, 128]⟩ : Shape).Idx → EReal)
    (w3a w3a' : (⟨2, ![128, 512]⟩ : Shape).Idx → EReal) (b3a b3a' : (⟨2, ![1, 512]⟩ : Shape).Idx → EReal)
    (w4a w4a' : (⟨2, ![512, 1]⟩ : Shape).Idx → EReal) (b4a b4a' : (⟨2, ![1, 1]⟩ : Shape).Idx → EReal)
    (w3b w3b' : (⟨2, ![128, 512]⟩ : Shape).Idx → EReal) (b3b b3b' : (⟨2, ![1, 512]⟩ : Shape).Idx → EReal)
    (w4b w4b' : (⟨2, ![512, 1]⟩ : Shape).Idx → EReal) (b4b b4b' : (⟨2, ![1, 1]⟩ : Shape).Idx → EReal)
    (y i : (⟨2, ![M, 1]⟩ : Shape).Idx)
    (h0 : xa = xa') (h1 : xb = xb') (h2 : w3a = w3a') (h3 : b3a = b3a') (h4 : w4a = w4a') (h5 : b4a = b4a')
    (h6 : w3b = w3b') (h7 : b3b = b3b') (h8 : w4b = w4b') (h9 : b4b = b4b') (hy : y = i) :
    molArr xa xb w3a b3a w4a b4a w3b b3b w4b b4b y = molArr xa' xb' w3a' b3a' w4a' b4a' w3b' b3b' w4b' b4b' i := by
  subst h0 h1 h2 h3 h4 h5 h6 h7 h8 h9 hy; rfl

set_option maxHeartbeats 2000000 in
/-- WHAT THE STEP WRITES BACK: the heads' value on the whole arrays. -/
theorem mol_flushed (c : Dev nD)
    (hpay : ∀ x0 x1 x2 x3 x4 x5 x6 x7 x8 x9, out1_10 (F := Ideal) x0 x1 x2 x3 x4 x5 x6 x7 x8 x9 = molArr (M := 1024) x0 x1 x2 x3 x4 x5 x6 x7 x8 x9)
    (t : Fin cfg1.N) :
    (dat1 V c).flushed 10 t = ((cfg1.win 10).blk t).view.read (Elt Ideal)
      (molArr (M := 1024) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9))) := by
  show (cfg1.win 10).cut (grid1.coords t) ((dat1 V c).after 10 t) = _
  rw [after1_10, hpay]
  obtain ⟨e0, e1⟩ := (mol_index t).2.2.2.2.2.2.2.2.2.2
  refine funext fun (y : S1024x1.Idx) => ?_
  show molArr (M := 1024) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) y
     = molArr (M := 1024) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (((cfg1.win 10).blk t).view.emb y)
  have hy : y = (((cfg1.win 10).blk t).view.emb y : S1024x1.Idx) := by
    funext a; apply Fin.ext
    match a with
    | ⟨0, _⟩ => show (y 0).val = win1_10.index t (0 : Fin 2) * 1024 + 1 * (y 0).val; omega
    | ⟨1, _⟩ => show (y 1).val = win1_10.index t (1 : Fin 2) * 1 + 1 * (y 1).val; omega
  exact molArr_of_eq (iblk1 V c 0 t) (V c (Pipeline.arrRef spec1 0)) (iblk1 V c 1 t) (V c (Pipeline.arrRef spec1 1))
    (iblk1 V c 2 t) (V c (Pipeline.arrRef spec1 2)) (iblk1 V c 3 t) (V c (Pipeline.arrRef spec1 3))
    (iblk1 V c 4 t) (V c (Pipeline.arrRef spec1 4)) (iblk1 V c 5 t) (V c (Pipeline.arrRef spec1 5))
    (iblk1 V c 6 t) (V c (Pipeline.arrRef spec1 6)) (iblk1 V c 7 t) (V c (Pipeline.arrRef spec1 7))
    (iblk1 V c 8 t) (V c (Pipeline.arrRef spec1 8)) (iblk1 V c 9 t) (V c (Pipeline.arrRef spec1 9))
    y (((cfg1.win 10).blk t).view.emb y)
    (meanA_block V c t) (meanB_block V c t) (w3A_block V c t) (b3A_block V c t) (w4A_block V c t) (b4A_block V c t)
    (w3B_block V c t) (b3B_block V c t) (w4B_block V c t) (b4B_block V c t) hy

/-- An index of the result is in the step's block iff each coordinate is in the block's range on its axis. -/
theorem mol_mem_block (t : Fin cfg1.N) (i : S1024x1.Idx) :
    i ∈ ((cfg1.win 10).blk t).view.set ↔ ∀ a : Fin 2, win1_10.index t a * S1024x1.size a ≤ (i a).val ∧ (i a).val < win1_10.index t a * S1024x1.size a + S1024x1.size a := by
  show i ∈ ((View.whole main_v38).slice (win1_10.rect t)).set ↔ _
  rw [View.set_slice_whole, Rect.mem_set_unit]
  exact Iff.rfl

/-- The one step's block covers the result array. -/
theorem mol_cover (i : S1024x1.Idx) :
    ∃ t : Fin cfg1.N, (cfg1.win 10).flush t = true ∧ i ∈ ((cfg1.win 10).blk t).view.set := by
  have hi0 : (i 0).val < 1024 := (i 0).isLt
  have hi1 : (i 1).val < 1 := (i 1).isLt
  obtain ⟨e0, e1⟩ := (mol_index t1_0).2.2.2.2.2.2.2.2.2.2
  refine ⟨t1_0, flush1_10 _, ?_⟩
  rw [mol_mem_block]
  intro a
  match a with
  | ⟨0, _⟩ =>
    show win1_10.index t1_0 (0 : Fin 2) * 1024 ≤ (i 0).val ∧ (i 0).val < win1_10.index t1_0 (0 : Fin 2) * 1024 + 1024
    omega
  | ⟨1, _⟩ =>
    show win1_10.index t1_0 (1 : Fin 2) * 1 ≤ (i 1).val ∧ (i 1).val < win1_10.index t1_0 (1 : Fin 2) * 1 + 1
    omega

set_option maxHeartbeats 2000000 in
/-- THE RESULT ARRAY after the region: the heads' value on the whole mean, weight and bias arrays as the region
    found them. -/
theorem arr10 (c : Dev nD)
    (hpay : ∀ x0 x1 x2 x3 x4 x5 x6 x7 x8 x9, out1_10 (F := Ideal) x0 x1 x2 x3 x4 x5 x6 x7 x8 x9 = molArr (M := 1024) x0 x1 x2 x3 x4 x5 x6 x7 x8 x9) :
    (dat1 (F := Ideal) V c).arrAt 10 cfg1.N = molArr (M := 1024) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) :=
  (dat1 V c).arrAt_eq_of_cover 10 _ (fun t _ => mol_flushed V c hpay t) mol_cover

end Cert.KReg

end
-- ==== Proof.LibDot.lean ====
/-
  A matrix product of an M×K by a K×N matrix, contracted over the shared axis, read at an entry as a sum over
  Fin K — for any dimension record with the plain product's dimension numbers — together with the lane sum and
  the few keepdims layout moves the kernel bodies and the host code use, each read at explicit coordinates.
-/
import Idealize.ShloMosaic.PureOps.Ideal.Laws
import Idealize.ShloMosaic.Lib.ValueIdx
import Idealize.ShloMosaic.Lib.Pipeline.Value

namespace Cert.LibDot

open Idealize.ShloMosaic Idealize.ShloMosaic.ValueIdx
open scoped BigOperators

variable {M K N : ℕ}

/-- For the plain dimension numbers (contract the left's axis 1 with the right's axis 0, no batch axes) the
    contraction's sum is the sum over the shared extent of left(p, k) · right(k, q). -/
theorem sum_contr_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  set d : DotDims ⟨2, ![M, K]⟩ ⟨2, ![K, N]⟩ ⟨2, ![M, N]⟩ := ⟨[1], [0], [0], [1], [], [], wf⟩ with hd
  have hrk : d.contr.rank = 1 := by rw [d.rank_contr]; rfl
  have hsz : d.contr.size ⟨0, by omega⟩ = K := by
    rw [d.size_contr 0 Nat.one_pos]; rfl
  rw [← Equiv.sum_comp (contrEquiv1 d K hrk hsz).symm]
  refine Finset.sum_congr rfl fun k _ => ?_
  have e1 : d.lhsIdx (ix2 p q) ((contrEquiv1 d K hrk hsz).symm k) = ix2 p k := by
    funext a
    match a with
    | ⟨0, _⟩ =>
      apply Fin.ext
      unfold DotDims.lhsIdx
      rfl
    | ⟨1, _⟩ =>
      apply Fin.ext
      exact (d.lhsIdx_val_of_single (cl := 1) rfl _ _).trans (contrEquiv1_symm_val d K hrk hsz k)
  have e2 : d.rhsIdx (ix2 p q) ((contrEquiv1 d K hrk hsz).symm k) = ix2 k q := by
    funext a
    match a with
    | ⟨0, _⟩ =>
      apply Fin.ext
      exact (d.rhsIdx_val_of_single (cr := 0) rfl _ _).trans (contrEquiv1_symm_val d K hrk hsz k)
    | ⟨1, _⟩ =>
      apply Fin.ext
      unfold DotDims.rhsIdx
      rfl
  rw [e1, e2]

/-- A kernel's matrix product into a zero accumulator, with the plain dimension numbers, at entry (p, q). -/
theorem matmul_plain {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr_plain d hlc hrc hln hrn hlb hrb l r p q)

/-- The host's matrix product with the plain dimension numbers at entry (p, q). -/
theorem dotGeneral_plain {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) :=
  (Ideal.dotGeneral_apply d prec _ l r (ix2 p q)).trans (sum_contr_plain d hlc hrc hln hrn hlb hrb l r p q)

end Cert.LibDot
-- ==== Proof.KPayAtomOps.lean ====
/-
  Layout and reduction operations on two-axis arrays, read at one index.

  A sum along the second axis of an [m,n] array is, at row p, the sum of
  that row. A column [m] recast as [m,1] keeps its entries; a column [m,1] repeated along n lanes reads its one
  entry in every lane.
-/
import Idealize.ShloMosaic.PureOps.Ideal.Laws
import Idealize.ShloMosaic.Lib.ValueIdx
import Idealize.ShloMosaic.Lib.ValueLayout

noncomputable section

namespace Cert.KPay

open Idealize.ShloMosaic Idealize.ShloMosaic.ValueIdx
open scoped BigOperators

/-- The sum along the second axis of an m×n array, at row p: ∑ c, v (p, c). -/
theorem laneSum2_apply {m n : Nat} {φ : FTy} (v : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction (F := Ideal) .add [1] ⟨1, ![m]⟩ v acc h hφ hacc (ix1 p) = ∑ c : Fin n, v (ix2 p c) := by
  refine (Ideal.multiReduction_add_single v acc h hφ hacc (ix1 p)).trans ?_
  show ∑ c : Fin n, v (h.lift (ix1 p) c) = _
  refine Finset.sum_congr rfl fun c _ => congrArg v ?_
  funext ax; apply Fin.ext
  match ax with
  | ⟨0, _⟩ => rfl
  | ⟨1, _⟩ => rfl

/-- A column [m] recast as [m,1] reads, at (p, u), the column's entry p. -/
theorem shapeCast_a_a1_apply {α : Type} {m : Nat} (x : (⟨1, ![m]⟩ : Shape).Idx → α)
    (h : (⟨1, ![m]⟩ : Shape).ShapeCasts ⟨2, ![m, 1]⟩) (p : Fin m) (u : Fin 1) :
    shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [m,1] repeated along n lanes reads, at (p, c), the column's entry (p, 0). -/
theorem broadcastTo_a1_ab_apply {α : Type} {m n : Nat} (v : (⟨2, ![m, 1]⟩ : Shape).Idx → α)
    (h : (⟨2, ![m, 1]⟩ : Shape).Broadcasts ⟨2, ![m, n]⟩) (p : Fin m) (c : Fin n) :
    broadcastTo ⟨2, ![m, n]⟩ v h (ix2 p c) = v (ix2 p (0 : Fin 1)) := by
  refine broadcastTo_apply v h (ix2 p c) (ix2 p (0 : Fin 1)) fun ax => ?_
  match ax with
  | ⟨0, _⟩ =>
    show p.val = if m = 1 then 0 else p.val
    split
    · have := p.isLt; omega
    · rfl
  | ⟨1, _⟩ => rfl

end Cert.KPay

end
-- ==== Proof.KPayAtomHid.lean ====
/-
  The two feed-forward layers of the atom kernel's body, read at one entry.

  The hidden array of a block of 1000 atoms is the rectified sum of two matrix products and a bias row; at
  (p, k) it is the hidden layer of atom p's own feature row and message row. The second layer is a matrix
  product with that array plus a bias row; at (p, q) it is the affine map of atom p's hidden row. The row sums
  of the second layer's result, kept as a column, are at (p, 0) the sum over the 128 features of that row.
-/
import proofs.«100054_j87634512707836_1_alg».proof.Proof.Gen.KernelIdeal.Skeleton
import proofs.«100054_j87634512707836_1_alg».proof.Proof.Spec
import proofs.«100054_j87634512707836_1_alg».proof.Proof.LibDot
import proofs.«100054_j87634512707836_1_alg».proof.Proof.KPayAtomOps

noncomputable section

namespace Cert.KPay

open Cert.KernelIdeal Cert.KernelIdeal.Gen Idealize.ShloMosaic Idealize.ShloMosaic.ValueIdx
open scoped BigOperators

/-- The rectified hidden array of a block: max (x·Wtop + a·Wbot + b1, 0), the operands passed through the
    format changes and same-shape recasts the body applies (all identities on the extended reals). -/
def hidArr (v0 : Vec Ideal S1000x151 .f32) (v1 : Vec Ideal S1000x128 .f32) (v4 : Vec Ideal S151x512 .f32)
    (v9 : Vec Ideal S128x512 .f32) (v14 : Vec Ideal S1x512 .f32) : FVec Ideal S1000x512 .f32 :=
  maximumf
    (addf
      (addf
        (matmul dot_S1000x151_S151x512_S1000x512_1_0_0_1_n_n none (truncf .bf16 v0 bitsLt_bf16_f32)
          (truncf .bf16 (shapeCast S151x512 v4 shapeCasts_S151x512_S151x512) bitsLt_bf16_f32)
          (constant (F := Ideal) S1000x512 .f32 0x00000000#32))
        (matmul dot_S1000x128_S128x512_S1000x512_1_0_0_1_n_n none
          (truncf .bf16 (shapeCast S1000x128 v1 shapeCasts_S1000x128_S1000x128) bitsLt_bf16_f32)
          (truncf .bf16 (shapeCast S128x512 v9 shapeCasts_S128x512_S128x512) bitsLt_bf16_f32)
          (constant (F := Ideal) S1000x512 .f32 0x00000000#32)))
      (broadcastTo S1000x512 (shapeCast S1x512 v14 shapeCasts_S1x512_S1x512) broadcasts_S1x512_S1000x512))
    (broadcast S1000x512 (Scalar.ofBits (F := Ideal) .f32 0x00000000#32))

/-- An affine layer over a block: h·W + b, the bias row repeated down the block. -/
def linArr (h : FVec Ideal S1000x512 .bf16) (w2 : Vec Ideal S512x128 .f32) (b2 : Vec Ideal S1x128 .f32) :
    FVec Ideal S1000x128 .f32 :=
  addf
    (matmul dot_S1000x512_S512x128_S1000x128_1_0_0_1_n_n none h (truncf .bf16 w2 bitsLt_bf16_f32)
      (constant (F := Ideal) S1000x128 .f32 0x00000000#32))
    (broadcastTo S1000x128 (shapeCast S1x128 b2 shapeCasts_S1x128_S1x128) broadcasts_S1x128_S1000x128)

/-- The second branch's first payload is the hidden array (its narrowing is the identity). -/
theorem k0_pay8_eq (v0 : Vec Ideal S1000x151 .f32) (v55 : Vec Ideal S1000x128 .f32) (v58 : Vec Ideal S151x512 .f32)
    (v63 : Vec Ideal S128x512 .f32) (v68 : Vec Ideal S1x512 .f32) :
    k0_pay8 (F := Ideal) v0 v55 v58 v63 v68 = truncf .bf16 (hidArr v0 v55 v58 v63 v68) bitsLt_bf16_f32 := rfl

/-- The first branch's second-layer payload is the affine layer of the hidden array. -/
theorem k0_pay2_eq (v0 : Vec Ideal S1000x151 .f32) (v1 : Vec Ideal S1000x128 .f32) (v4 : Vec Ideal S151x512 .f32)
    (v9 : Vec Ideal S128x512 .f32) (v14 : Vec Ideal S1x512 .f32) (v21 : Vec Ideal S512x128 .f32) (v24 : Vec Ideal S1x128 .f32) :
    k0_pay2 (F := Ideal) v0 v1 v4 v9 v14 v21 v24
      = linArr (truncf .bf16 (hidArr v0 v1 v4 v9 v14) bitsLt_bf16_f32) v21 v24 := rfl

/-- The hidden array at (p, k) is the hidden layer of row p. -/
theorem hidArr_apply (v0 : Vec Ideal S1000x151 .f32) (v1 : Vec Ideal S1000x128 .f32) (v4 : Vec Ideal S151x512 .f32)
    (v9 : Vec Ideal S128x512 .f32) (v14 : Vec Ideal S1x512 .f32) (p : Fin 1000) (k : Fin 512) :
    hidArr v0 v1 v4 v9 v14 (ix2 p k)
      = Spec.hid (Spec.row2 v0 p) (Spec.row2 v1 p) (Spec.mat2 v4) (Spec.mat2 v9) (Spec.row2 v14 0) k := by
  unfold hidArr Spec.hid
  rw [maximumf_apply, addf_apply, addf_apply, broadcast_apply,
    Cert.LibDot.matmul_plain _ rfl rfl rfl rfl rfl rfl, Cert.LibDot.matmul_plain _ rfl rfl rfl rfl rfl rfl,
    broadcastTo_1b_ab_apply, shapeCast_self, shapeCast_self, shapeCast_self, shapeCast_self]
  rfl

/-- The affine layer at (p, q) is the affine map of row p. -/
theorem linArr_apply (h : FVec Ideal S1000x512 .bf16) (w2 : Vec Ideal S512x128 .f32) (b2 : Vec Ideal S1x128 .f32)
    (p : Fin 1000) (q : Fin 128) :
    linArr h w2 b2 (ix2 p q) = Spec.lin (fun k => h (ix2 p k)) (Spec.mat2 w2) (Spec.row2 b2 0) q := by
  unfold linArr Spec.lin
  rw [addf_apply, Cert.LibDot.matmul_plain _ rfl rfl rfl rfl rfl rfl, broadcastTo_1b_ab_apply, shapeCast_self]
  rfl

/-- The affine layer of the hidden array at (p, q) is the affine map of row p's hidden layer. -/
theorem linArr_hidArr_apply (v0 : Vec Ideal S1000x151 .f32) (v1 : Vec Ideal S1000x128 .f32) (v4 : Vec Ideal S151x512 .f32)
    (v9 : Vec Ideal S128x512 .f32) (v14 : Vec Ideal S1x512 .f32) (v21 : Vec Ideal S512x128 .f32) (v24 : Vec Ideal S1x128 .f32)
    (p : Fin 1000) (q : Fin 128) :
    linArr (truncf .bf16 (hidArr v0 v1 v4 v9 v14) bitsLt_bf16_f32) v21 v24 (ix2 p q)
      = Spec.lin (Spec.hid (Spec.row2 v0 p) (Spec.row2 v1 p) (Spec.mat2 v4) (Spec.mat2 v9) (Spec.row2 v14 0))
          (Spec.mat2 v21) (Spec.row2 v24 0) q :=
  (linArr_apply _ v21 v24 p q).trans
    (congrArg (fun x => Spec.lin x (Spec.mat2 v21) (Spec.row2 v24 0) q) (funext fun k => hidArr_apply v0 v1 v4 v9 v14 p k))

/-- The second layer's result at (p, q) is the affine map of row p's hidden layer. -/
theorem k0_pay2_apply (v0 : Vec Ideal S1000x151 .f32) (v1 : Vec Ideal S1000x128 .f32) (v4 : Vec Ideal S151x512 .f32)
    (v9 : Vec Ideal S128x512 .f32) (v14 : Vec Ideal S1x512 .f32) (v21 : Vec Ideal S512x128 .f32) (v24 : Vec Ideal S1x128 .f32)
    (p : Fin 1000) (q : Fin 128) :
    k0_pay2 (F := Ideal) v0 v1 v4 v9 v14 v21 v24 (ix2 p q)
      = Spec.lin (Spec.hid (Spec.row2 v0 p) (Spec.row2 v1 p) (Spec.mat2 v4) (Spec.mat2 v9) (Spec.row2 v14 0))
          (Spec.mat2 v21) (Spec.row2 v24 0) q := by
  rw [k0_pay2_eq]
  exact linArr_hidArr_apply v0 v1 v4 v9 v14 v21 v24 p q

end Cert.KPay

end
-- ==== Proof.KPayAtomNorm.lean ====
/-
  The layer normalisation of the atom kernel's body, read at one entry.

  Given the second layer's result y for a block of atoms, the column of its row sums and the column of the
  literal 128, the body subtracts from each entry its row's mean (sum / 128), sums the squared deviations along
  the row, divides by the literal 128, adds the literal epsilon, takes the reciprocal square root, and scales and
  shifts by the two parameter rows. At (p, q) this is the normalisation of row p at feature q.
-/
import proofs.«100054_j87634512707836_1_alg».proof.Proof.Gen.KernelIdeal.Skeleton
import proofs.«100054_j87634512707836_1_alg».proof.Proof.Spec
import proofs.«100054_j87634512707836_1_alg».proof.Proof.KPayAtomOps

noncomputable section

namespace Cert.KPay

open Cert.KernelIdeal Cert.KernelIdeal.Gen Idealize.ShloMosaic Idealize.ShloMosaic.ValueIdx
open scoped BigOperators

/-- The body's row sum of a block, at row p: the sum of that row's 128 entries. -/
theorem rowSum_apply (v : FVec Ideal S1000x128 .f32) (p : Fin 1000) :
    multiReduction (F := Ideal) .add [1] S1000 v 0x00000000#32 reduces_S1000x128_S1000 (.inl rfl) rfl (ix1 p)
      = ∑ c : Fin 128, v (ix2 p c) :=
  laneSum2_apply v _ _ _ _ p

/-- The normalising tail of the first branch at (p, q): with μ the quotient of the two columns at row p,
    ((y − μ) · rsqrt (∑ (y − μ)² / 128 + ε)) · g + β. -/
theorem k0_pay7_apply (v27 : FVec Ideal S1000x128 .f32) (v29 v31 : FVec Ideal S1x128 .f32)
    (v33 v34 : FVec Ideal S1000x1 .f32) (p : Fin 1000) (q : Fin 128) :
    k0_pay7 (F := Ideal) v27 v29 v31 v33 v34 (ix2 p q)
      = (v27 (ix2 p q) - Ideal.div (v33 (ix2 p 0)) (v34 (ix2 p 0)))
          * Ideal.rsqrt (Ideal.div (∑ c : Fin 128, (v27 (ix2 p c) - Ideal.div (v33 (ix2 p 0)) (v34 (ix2 p 0)))
                * (v27 (ix2 p c) - Ideal.div (v33 (ix2 p 0)) (v34 (ix2 p 0)))) (Ideal.ofBits .f32 0x43000000#32)
              + Ideal.ofBits .f32 0x3727C5AC#32)
          * v29 (ix2 0 q)
        + v31 (ix2 0 q) := by
  unfold k0_pay7
  simp only [addf_apply, mulf_apply, subf_apply, divf_apply, broadcast_apply, broadcastTo_1b_ab_apply,
    broadcastTo_a1_ab_apply, shapeCast_a_a1_apply, rsqrt, Ideal.rsqrt_def]
  rw [rowSum_apply]
  simp only [mulf_apply, subf_apply, divf_apply, broadcastTo_a1_ab_apply]
  rfl

/-- Fed the column of y's own row sums and the column of the literal 128, and the two parameter rows as the
    body recasts them, the normalising tail at (p, q) is the layer normalisation of row p of y at feature q. -/
theorem lnTail_apply (y : FVec Ideal S1000x128 .f32) (g be : Vec Ideal S1x128 .f32) (p : Fin 1000) (q : Fin 128) :
    k0_pay7 (F := Ideal) y (shapeCast S1x128 g shapeCasts_S1x128_S1x128) (shapeCast S1x128 be shapeCasts_S1x128_S1x128)
        (shapeCast S1000x1
          (multiReduction (F := Ideal) .add [1] S1000 y 0x00000000#32 reduces_S1000x128_S1000 (.inl rfl) rfl)
          shapeCasts_S1000_S1000x1)
        (broadcast S1000x1 (Scalar.ofBits (F := Ideal) .f32 0x43000000#32)) (ix2 p q)
      = Spec.lnRow (Spec.row2 y p) (Spec.row2 g 0) (Spec.row2 be 0) q := by
  rw [k0_pay7_apply, shapeCast_self, shapeCast_self, shapeCast_a_a1_apply, rowSum_apply, broadcast_apply]
  rfl

end Cert.KPay

end
-- ==== Proof.KPayAtom.lean ====
/-
  What the atom kernel's body leaves in its two output blocks, as one function of its input blocks.

  Each output block is written by one store covering the whole block, so it holds the stored value. For the
  first branch the stored value is the normalising tail applied to the second layer's result, to that result's
  own row sums and to the literal 128; for the second branch it is the same tail applied to the affine layer of
  the second hidden array. Entry (p, q) of either is therefore the atom sublayer of row p at feature q.
-/
import proofs.«100054_j87634512707836_1_alg».proof.Proof.Gen.KernelIdeal.Frame
import proofs.«100054_j87634512707836_1_alg».proof.Proof.Spec
import proofs.«100054_j87634512707836_1_alg».proof.Proof.KPayAtomHid
import proofs.«100054_j87634512707836_1_alg».proof.Proof.KPayAtomNorm
import Idealize.ShloMosaic.Lib.Pipeline.Value

noncomputable section

namespace Cert.KPay

open Cert.KernelIdeal Cert.KernelIdeal.Gen Idealize.ShloMosaic Idealize.ShloMosaic.ValueIdx
open scoped BigOperators

/-- Every access of the body starts at the origin of its buffer. -/
theorem origin2 : (![0, 0] : Fin 2 → Nat) = fun _ => 0 := funext fun a => by fin_cases a <;> rfl

/-- The first branch's stored value: the normalising tail of the second layer's result y, fed y's row sums. -/
theorem stored17_eq (v0 : Vec Ideal S1000x151 .f32) (v1 : Vec Ideal S1000x128 .f32) (v4 : Vec Ideal S151x512 .f32)
    (v9 : Vec Ideal S128x512 .f32) (v14 : Vec Ideal S1x512 .f32) (v21 : Vec Ideal S512x128 .f32)
    (v24 v28 v30 : Vec Ideal S1x128 .f32) :
    k0_pay7 (F := Ideal) (k0_pay2 v0 v1 v4 v9 v14 v21 v24) (k0_pay3 v28) (k0_pay4 v30) (k0_pay5 v0 v1 v4 v9 v14 v21 v24)
        (k0_pay6 (F := Ideal))
      = k0_pay7 (F := Ideal) (linArr (truncf .bf16 (hidArr v0 v1 v4 v9 v14) bitsLt_bf16_f32) v21 v24)
          (shapeCast S1x128 v28 shapeCasts_S1x128_S1x128) (shapeCast S1x128 v30 shapeCasts_S1x128_S1x128)
          (shapeCast S1000x1
            (multiReduction (F := Ideal) .add [1] S1000 (linArr (truncf .bf16 (hidArr v0 v1 v4 v9 v14) bitsLt_bf16_f32) v21 v24)
              0x00000000#32 reduces_S1000x128_S1000 (.inl rfl) rfl)
            shapeCasts_S1000_S1000x1)
          (broadcast S1000x1 (Scalar.ofBits (F := Ideal) .f32 0x43000000#32)) := rfl

/-- The second branch's stored value: the same tail of the affine layer of the second hidden array. -/
theorem stored18_eq (v74 : FVec Ideal S1000x512 .bf16) (v75 : Vec Ideal S512x128 .f32) (v78 v82 v84 : Vec Ideal S1x128 .f32) :
    k0_pay1 (F := Ideal) v74 v75 v78 v82 v84
      = k0_pay7 (F := Ideal) (linArr v74 v75 v78)
          (shapeCast S1x128 v82 shapeCasts_S1x128_S1x128) (shapeCast S1x128 v84 shapeCasts_S1x128_S1x128)
          (shapeCast S1000x1
            (multiReduction (F := Ideal) .add [1] S1000 (linArr v74 v75 v78) 0x00000000#32 reduces_S1000x128_S1000 (.inl rfl) rfl)
            shapeCasts_S1000_S1000x1)
          (broadcast S1000x1 (Scalar.ofBits (F := Ideal) .f32 0x43000000#32)) := rfl

/-- The first output block after the body is the atom sublayer of the input blocks, first branch. -/
theorem out0_17_eq (x0 : Vec Ideal S1000x151 .f32) (x1 x2 : Vec Ideal S1000x128 .f32) (x3 : Vec Ideal S151x512 .f32)
    (x4 : Vec Ideal S128x512 .f32) (x5 : Vec Ideal S1x512 .f32) (x6 : Vec Ideal S512x128 .f32) (x7 x8 x9 : Vec Ideal S1x128 .f32)
    (x10 : Vec Ideal S151x512 .f32) (x11 : Vec Ideal S128x512 .f32) (x12 : Vec Ideal S1x512 .f32) (x13 : Vec Ideal S512x128 .f32)
    (x14 x15 x16 : Vec Ideal S1x128 .f32) :
    out0_17 (F := Ideal) x0 x1 x2 x3 x4 x5 x6 x7 x8 x9 x10 x11 x12 x13 x14 x15 x16
      = Cert.Spec.atomArr (A := 1000) x0 x1 x3 x4 x5 x6 x7 x8 x9 := by
  funext i
  obtain ⟨p, q, rfl⟩ : ∃ (p : Fin 1000) (q : Fin 128), i = ix2 p q := ⟨i 0, i 1, eq_ix2 i⟩
  unfold out0_17
  rw [View.canon_unit_zero origin2]
  simp only [View.ld_unit_zero (S := S1000x151) origin2, View.ld_unit_zero (S := S1000x128) origin2,
    View.ld_unit_zero (S := S151x512) origin2, View.ld_unit_zero (S := S128x512) origin2,
    View.ld_unit_zero (S := S1x512) origin2, View.ld_unit_zero (S := S512x128) origin2,
    View.ld_unit_zero (S := S1x128) origin2]
  rw [stored17_eq]
  refine (lnTail_apply _ x8 x9 p q).trans ?_
  exact congrArg (fun y => Spec.lnRow y (Spec.row2 x8 0) (Spec.row2 x9 0) q)
    (funext fun c => linArr_hidArr_apply x0 x1 x3 x4 x5 x6 x7 p c)

/-- The second output block after the body is the atom sublayer of the input blocks, second branch. -/
theorem out0_18_eq (x0 : Vec Ideal S1000x151 .f32) (x1 x2 : Vec Ideal S1000x128 .f32) (x3 : Vec Ideal S151x512 .f32)
    (x4 : Vec Ideal S128x512 .f32) (x5 : Vec Ideal S1x512 .f32) (x6 : Vec Ideal S512x128 .f32) (x7 x8 x9 : Vec Ideal S1x128 .f32)
    (x10 : Vec Ideal S151x512 .f32) (x11 : Vec Ideal S128x512 .f32) (x12 : Vec Ideal S1x512 .f32) (x13 : Vec Ideal S512x128 .f32)
    (x14 x15 x16 : Vec Ideal S1x128 .f32) :
    out0_18 (F := Ideal) x0 x1 x2 x3 x4 x5 x6 x7 x8 x9 x10 x11 x12 x13 x14 x15 x16
      = Cert.Spec.atomArr (A := 1000) x0 x2 x10 x11 x12 x13 x14 x15 x16 := by
  funext i
  obtain ⟨p, q, rfl⟩ : ∃ (p : Fin 1000) (q : Fin 128), i = ix2 p q := ⟨i 0, i 1, eq_ix2 i⟩
  unfold out0_18
  rw [View.canon_unit_zero origin2]
  simp only [View.ld_unit_zero (S := S1000x151) origin2, View.ld_unit_zero (S := S1000x128) origin2,
    View.ld_unit_zero (S := S151x512) origin2, View.ld_unit_zero (S := S128x512) origin2,
    View.ld_unit_zero (S := S1x512) origin2, View.ld_unit_zero (S := S512x128) origin2,
    View.ld_unit_zero (S := S1x128) origin2]
  rw [stored18_eq, k0_pay8_eq]
  refine (lnTail_apply _ x15 x16 p q).trans ?_
  exact congrArg (fun y => Spec.lnRow y (Spec.row2 x15 0) (Spec.row2 x16 0) q)
    (funext fun c => linArr_hidArr_apply x0 x2 x10 x11 x12 x13 x14 p c)

end Cert.KPay

end
-- ==== Proof.KPayMol.lean ====
/-
  The molecule head's body at an entry: for molecule p the kernel's stored value is
  ((relu(xa_p·W3a + b3a)·w4a + b4a) + (relu(xb_p·W3b + b3b)·w4b + b4b)) · ½ — each matrix product into a zero
  accumulator a plain sum, the change of float format the identity on extended reals, a [1,n] bias broadcast
  down the rows read at its one row.
-/
import proofs.«100054_j87634512707836_1_alg».proof.Proof.Gen.KernelIdeal.Frame
import proofs.«100054_j87634512707836_1_alg».proof.Proof.Spec
import proofs.«100054_j87634512707836_1_alg».proof.Proof.LibDot
import Idealize.ShloMosaic.Lib.ValueLayout

noncomputable section

namespace Cert.KPay

open Cert.KernelIdeal Cert.KernelIdeal.Gen Idealize.ShloMosaic Idealize.ShloMosaic.ValueIdx Cert.Spec Cert.LibDot
open scoped BigOperators

/-- A one-row matrix broadcast down m rows, read at (p, k), is the row's entry k. -/
theorem broadcastTo_oneRow_apply {α : Type} {m n : ℕ} (v : (⟨2, ![1, n]⟩ : Shape).Idx → α)
    (h : (⟨2, ![1, n]⟩ : Shape).Broadcasts ⟨2, ![m, n]⟩) (p : Fin m) (k : Fin n) :
    broadcastTo ⟨2, ![m, n]⟩ v h (ix2 p k) = v (ix2 (0 : Fin 1) k) := by
  refine broadcastTo_apply v h (ix2 p k) (ix2 (0 : Fin 1) k) ?_
  intro a
  match a with
  | ⟨0, _⟩ => rfl
  | ⟨1, _⟩ =>
    show k.val = if n = 1 then 0 else k.val
    split
    · have := k.isLt; omega
    · rfl

theorem k1_pay2_apply (v0 : Vec Ideal S1024x128 .f32) (v3 : Vec Ideal S128x512 .f32) (v6 : Vec Ideal S1x512 .f32)
    (v13 : Vec Ideal S512x1 .f32) (v16 : Vec Ideal S1x1 .f32) (p : Fin 1024) :
    k1_pay2 (F := Ideal) v0 v3 v6 v13 v16 (ix2 p (0 : Fin 1))
      = headRow (row2 v0 p) (mat2 v3) (row2 v6 0) (fun k => v13 (ix2 k (0 : Fin 1))) (v16 (ix2 (0 : Fin 1) (0 : Fin 1))) := by
  unfold k1_pay2 headRow
  simp only [shapeCast_self]
  show matmul (F := Ideal) _ none _ _ (constant S1024x1 .f32 0#32) (ix2 p (0 : Fin 1)) + broadcastTo S1024x1 v16 _ (ix2 p (0 : Fin 1)) = _
  rw [matmul_plain _ rfl rfl rfl rfl rfl rfl, broadcastTo_oneRow_apply]
  congr 1
  refine Finset.sum_congr rfl fun k _ => ?_
  show max (matmul (F := Ideal) _ none _ _ (constant S1024x512 .f32 0#32) (ix2 p k) + broadcastTo S1024x512 v6 _ (ix2 p k)) _ * v13 (ix2 k (0 : Fin 1)) = _
  rw [matmul_plain _ rfl rfl rfl rfl rfl rfl, broadcastTo_oneRow_apply]
  rfl

theorem k1_pay3_apply (v20 : Vec Ideal S1024x128 .f32) (v23 : Vec Ideal S128x512 .f32) (v26 : Vec Ideal S1x512 .f32)
    (p : Fin 1024) (k : Fin 512) :
    k1_pay3 (F := Ideal) v20 v23 v26 (ix2 p k)
      = max ((∑ j, row2 v20 p j * mat2 v23 j k) + row2 v26 0 k) (Ideal.ofBits .f32 0x00000000#32) := by
  unfold k1_pay3
  simp only [shapeCast_self]
  show max (matmul (F := Ideal) _ none _ _ (constant S1024x512 .f32 0#32) (ix2 p k) + broadcastTo S1024x512 v26 _ (ix2 p k)) _ = _
  rw [matmul_plain _ rfl rfl rfl rfl rfl rfl, broadcastTo_oneRow_apply]
  rfl

/-- The offset of a whole-buffer rectangle of a two-axis buffer is zero on both axes. -/
theorem off2_zero : (![0, 0] : Fin 2 → ℕ) = fun _ => 0 := by
  funext a; fin_cases a <;> rfl

/-- What the body leaves in the output window's buffer is the head over all molecules. -/
theorem out1_10_eq (x0 x1 : Vec Ideal S1024x128 .f32) (x2 : Vec Ideal S128x512 .f32) (x3 : Vec Ideal S1x512 .f32)
    (x4 : Vec Ideal S512x1 .f32) (x5 : Vec Ideal S1x1 .f32) (x6 : Vec Ideal S128x512 .f32) (x7 : Vec Ideal S1x512 .f32)
    (x8 : Vec Ideal S512x1 .f32) (x9 : Vec Ideal S1x1 .f32) :
    out1_10 (F := Ideal) x0 x1 x2 x3 x4 x5 x6 x7 x8 x9 = molArr (M := 1024) x0 x1 x2 x3 x4 x5 x6 x7 x8 x9 := by
  funext i
  obtain ⟨p, q, rfl⟩ : ∃ (p : Fin 1024) (q : Fin 1), i = ix2 p q := ⟨i 0, i 1, eq_ix2 i⟩
  obtain rfl : q = 0 := Subsingleton.elim _ _
  unfold out1_10
  rw [View.canon_unit_zero off2_zero]
  simp only [View.ld_unit_zero (S := S1024x128) off2_zero, View.ld_unit_zero (S := S128x512) off2_zero, View.ld_unit_zero (S := S1x512) off2_zero,
    View.ld_unit_zero (S := S512x1) off2_zero, View.ld_unit_zero (S := S1x1) off2_zero]
  unfold k1_pay1 k1_pay4 molArr molRow
  simp only [shapeCast_self]
  show (k1_pay2 (F := Ideal) x0 x2 x3 x4 x5 (ix2 p (0 : Fin 1))
      + (matmul (F := Ideal) _ none (k1_pay3 (F := Ideal) x1 x6 x7) _ (constant S1024x1 .f32 0#32) (ix2 p (0 : Fin 1))
          + broadcastTo S1024x1 x9 _ (ix2 p (0 : Fin 1)))) * _ = _
  rw [k1_pay2_apply, matmul_plain _ rfl rfl rfl rfl rfl rfl, broadcastTo_oneRow_apply]
  simp only [k1_pay3_apply]
  rfl

end Cert.KPay

end
-- ==== Proof.RefFns.lean ====
/-
  The reference program's host stages as named functions of whole arrays: each is the composition of the
  reference's own operations, in order, for one mathematical step — the clamped row gather (jnp.take with the
  out-of-range fill), the neighbour sum, the feed-forward sublayer with layer normalisation over all atoms,
  the per-molecule mean, and the molecule head. The run of the reference is stated over these names; the
  index-by-index meaning of the two float stages is proved separately.
-/
import proofs.«100054_j87634512707836_1_alg».proof.ReferenceIdeal
import proofs.«100054_j87634512707836_1_alg».proof.Proof.Gen.ReferenceIdeal

noncomputable section

namespace Cert.RefFns

open Idealize.ShloMosaic Cert.ReferenceIdeal Cert.ReferenceIdeal.Gen

variable {F : FTy → Type} [FloatOps F]

/-- Rows of a 100000-row table gathered at 10 indices per atom: a negative index wraps once, an index still
    outside the table yields the fill value. -/
def takeA (x : (⟨S100000x128, .f32⟩ : BufTy).Contents (Elt F)) (idx : (⟨S100000x10, .i32⟩ : BufTy).Contents (Elt F)) :
    (⟨S100000x10x128, .f32⟩ : BufTy).Contents (Elt F) :=
  have c : (⟨S_, .i32⟩ : BufTy).Contents (Elt F) := constantI S_ 32 0#32
  have v0 : (⟨S100000x10, .i32⟩ : BufTy).Contents (Elt F) := broadcastInDim S100000x10 ![] bcast_S_S100000x10 c
  have v1 : (⟨S100000x10, .i1⟩ : BufTy).Contents (Elt F) := cmpi .slt idx v0
  have c_0 : (⟨S_, .i32⟩ : BufTy).Contents (Elt F) := constantI S_ 32 100000#32
  have v2 : (⟨S100000x10, .i32⟩ : BufTy).Contents (Elt F) := broadcastInDim S100000x10 ![] bcast_S_S100000x10 c_0
  have v3 : (⟨S100000x10, .i32⟩ : BufTy).Contents (Elt F) := addi idx v2
  have v4 : (⟨S100000x10, .i32⟩ : BufTy).Contents (Elt F) := select v1 v3 idx
  have v5 : (⟨S100000x10x1, .i32⟩ : BufTy).Contents (Elt F) := broadcastInDim S100000x10x1 ![0, 1] bcast_S100000x10_S100000x10x1_0_1 v4
  have c_1 : (⟨S1, .i32⟩ : BufTy).Contents (Elt F) := constantI S1 32 99999#32
  have c_2 : (⟨S_, .i32⟩ : BufTy).Contents (Elt F) := constantI S_ 32 0#32
  have v6 : (⟨S100000x10x1, .i32⟩ : BufTy).Contents (Elt F) := broadcastInDim S100000x10x1 ![] bcast_S_S100000x10x1 c_2
  have v7 : (⟨S100000x10x1, .i1⟩ : BufTy).Contents (Elt F) := cmpi .sge v5 v6
  have v8 : (⟨S1x1x1, .i32⟩ : BufTy).Contents (Elt F) := broadcastInDim S1x1x1 ![2] bcast_S1_S1x1x1_2 c_1
  have v9 : (⟨S100000x10x1, .i32⟩ : BufTy).Contents (Elt F) := broadcastInDim S100000x10x1 ![0, 1, 2] bcast_S1x1x1_S100000x10x1_0_1_2 v8
  have v10 : (⟨S100000x10x1, .i1⟩ : BufTy).Contents (Elt F) := cmpi .sle v5 v9
  have v11 : (⟨S100000x10x1, .i1⟩ : BufTy).Contents (Elt F) := andi v7 v10
  have c_3 : (⟨S_, .i1⟩ : BufTy).Contents (Elt F) := constantI S_ 1 1#1
  have v12 : (⟨S100000x10, .i1⟩ : BufTy).Contents (Elt F) := Host.reduce IntOp.andi v11 c_3 reducesTo_S100000x10x1_S100000x10_d2 h_S_
  have v13 : (⟨S100000x10x128, .f32⟩ : BufTy).Contents (Elt F) := Host.gather gather_S100000x128_S100000x10x1_S100000x10x128_2_0_n_n_0_2_1128 x v5
  have v14 : (⟨S100000x10x128, .i1⟩ : BufTy).Contents (Elt F) := broadcastInDim S100000x10x128 ![0, 1] bcast_S100000x10_S100000x10x128_0_1 v12
  have cst : (⟨S_, .f32⟩ : BufTy).Contents (Elt F) := constant S_ .f32 0x7FC00000#32
  have v15 : (⟨S100000x10x128, .f32⟩ : BufTy).Contents (Elt F) := broadcastInDim S100000x10x128 ![] bcast_S_S100000x10x128 cst
  select v14 v13 v15

/-- The same gather from the 200000-row table. -/
def takeB (x : (⟨S200000x128, .f32⟩ : BufTy).Contents (Elt F)) (idx : (⟨S100000x10, .i32⟩ : BufTy).Contents (Elt F)) :
    (⟨S100000x10x128, .f32⟩ : BufTy).Contents (Elt F) :=
  have c : (⟨S_, .i32⟩ : BufTy).Contents (Elt F) := constantI S_ 32 0#32
  have v0 : (⟨S100000x10, .i32⟩ : BufTy).Contents (Elt F) := broadcastInDim S100000x10 ![] bcast_S_S100000x10 c
  have v1 : (⟨S100000x10, .i1⟩ : BufTy).Contents (Elt F) := cmpi .slt idx v0
  have c_0 : (⟨S_, .i32⟩ : BufTy).Contents (Elt F) := constantI S_ 32 200000#32
  have v2 : (⟨S100000x10, .i32⟩ : BufTy).Contents (Elt F) := broadcastInDim S100000x10 ![] bcast_S_S100000x10 c_0
  have v3 : (⟨S100000x10, .i32⟩ : BufTy).Contents (Elt F) := addi idx v2
  have v4 : (⟨S100000x10, .i32⟩ : BufTy).Contents (Elt F) := select v1 v3 idx
  have v5 : (⟨S100000x10x1, .i32⟩ : BufTy).Contents (Elt F) := broadcastInDim S100000x10x1 ![0, 1] bcast_S100000x10_S100000x10x1_0_1 v4
  have c_1 : (⟨S1, .i32⟩ : BufTy).Contents (Elt F) := constantI S1 32 199999#32
  have c_2 : (⟨S_, .i32⟩ : BufTy).Contents (Elt F) := constantI S_ 32 0#32
  have v6 : (⟨S100000x10x1, .i32⟩ : BufTy).Contents (Elt F) := broadcastInDim S100000x10x1 ![] bcast_S_S100000x10x1 c_2
  have v7 : (⟨S100000x10x1, .i1⟩ : BufTy).Contents (Elt F) := cmpi .sge v5 v6
  have v8 : (⟨S1x1x1, .i32⟩ : BufTy).Contents (Elt F) := broadcastInDim S1x1x1 ![2] bcast_S1_S1x1x1_2 c_1
  have v9 : (⟨S100000x10x1, .i32⟩ : BufTy).Contents (Elt F) := broadcastInDim S100000x10x1 ![0, 1, 2] bcast_S1x1x1_S100000x10x1_0_1_2 v8
  have v10 : (⟨S100000x10x1, .i1⟩ : BufTy).Contents (Elt F) := cmpi .sle v5 v9
  have v11 : (⟨S100000x10x1, .i1⟩ : BufTy).Contents (Elt F) := andi v7 v10
  have c_3 : (⟨S_, .i1⟩ : BufTy).Contents (Elt F) := constantI S_ 1 1#1
  have v12 : (⟨S100000x10, .i1⟩ : BufTy).Contents (Elt F) := Host.reduce IntOp.andi v11 c_3 reducesTo_S100000x10x1_S100000x10_d2 h_S_
  have v13 : (⟨S100000x10x128, .f32⟩ : BufTy).Contents (Elt F) := Host.gather gather_S200000x128_S100000x10x1_S100000x10x128_2_0_n_n_0_2_1128 x v5
  have v14 : (⟨S100000x10x128, .i1⟩ : BufTy).Contents (Elt F) := broadcastInDim S100000x10x128 ![0, 1] bcast_S100000x10_S100000x10x128_0_1 v12
  have cst : (⟨S_, .f32⟩ : BufTy).Contents (Elt F) := constant S_ .f32 0x7FC00000#32
  have v15 : (⟨S100000x10x128, .f32⟩ : BufTy).Contents (Elt F) := broadcastInDim S100000x10x128 ![] bcast_S_S100000x10x128 cst
  select v14 v13 v15

/-- The sum of an atom's 10 gathered neighbour rows. -/
def aggr (t : (⟨S100000x10x128, .f32⟩ : BufTy).Contents (Elt F)) : (⟨S100000x128, .f32⟩ : BufTy).Contents (Elt F) :=
  Host.reduceAdd t (constant S_ .f32 0x00000000#32) reducesTo_S100000x10x128_S100000x128_d1 h_S_

/-- The reference's feed-forward sublayer over all atoms: the atom features and the aggregated message side by
    side, times W1, plus b1, rectified, times W2, plus b2, then normalised along the 128 features (mean and
    variance by division by 128, the small constant added under the reciprocal square root), scaled and shifted. -/
def atomRef (ofa : (⟨S100000x151, .f32⟩ : BufTy).Contents (Elt F)) (ag : (⟨S100000x128, .f32⟩ : BufTy).Contents (Elt F))
    (w1 : (⟨S279x512, .f32⟩ : BufTy).Contents (Elt F)) (b1 : (⟨S512, .f32⟩ : BufTy).Contents (Elt F))
    (w2 : (⟨S512x128, .f32⟩ : BufTy).Contents (Elt F)) (b2 g be : (⟨S128, .f32⟩ : BufTy).Contents (Elt F)) :
    (⟨S100000x128, .f32⟩ : BufTy).Contents (Elt F) :=
  have v2 : (⟨S100000x279, .f32⟩ : BufTy).Contents (Elt F) := concatenate S100000x279 1 [⟨S100000x151, ofa⟩, ⟨S100000x128, ag⟩] concatenates_S100000x151_S100000x128_S100000x279_d1
  have v3 : (⟨S100000x512, .f32⟩ : BufTy).Contents (Elt F) := Host.dotGeneral dot_S100000x279_S279x512_S100000x512_1_0_0_1_n_n none v2 w1
  have v4 : (⟨S1x512, .f32⟩ : BufTy).Contents (Elt F) := broadcastInDim S1x512 ![1] bcast_S512_S1x512_1 b1
  have v5 : (⟨S100000x512, .f32⟩ : BufTy).Contents (Elt F) := broadcastInDim S100000x512 ![0, 1] bcast_S1x512_S100000x512_0_1 v4
  have v6 : (⟨S100000x512, .f32⟩ : BufTy).Contents (Elt F) := addf v3 v5
  have r0 : (⟨S100000x512, .f32⟩ : BufTy).Contents (Elt F) := broadcastInDim S100000x512 ![] bcast_S_S100000x512 (constant S_ .f32 0x00000000#32)
  have v7 : (⟨S100000x512, .f32⟩ : BufTy).Contents (Elt F) := maximumf v6 r0
  have v8 : (⟨S100000x128, .f32⟩ : BufTy).Contents (Elt F) := Host.dotGeneral dot_S100000x512_S512x128_S100000x128_1_0_0_1_n_n none v7 w2
  have v9 : (⟨S1x128, .f32⟩ : BufTy).Contents (Elt F) := broadcastInDim S1x128 ![1] bcast_S128_S1x128_1 b2
  have v10 : (⟨S100000x128, .f32⟩ : BufTy).Contents (Elt F) := broadcastInDim S100000x128 ![0, 1] bcast_S1x128_S100000x128_0_1 v9
  have v11 : (⟨S100000x128, .f32⟩ : BufTy).Contents (Elt F) := addf v8 v10
  have v12 : (⟨S100000, .f32⟩ : BufTy).Contents (Elt F) := Host.reduceAdd v11 (constant S_ .f32 0x00000000#32) reducesTo_S100000x128_S100000_d1 h_S_
  have v13 : (⟨S100000x1, .f32⟩ : BufTy).Contents (Elt F) := broadcastInDim S100000x1 ![0] bcast_S100000_S100000x1_0 v12
  have v14 : (⟨S100000x1, .f32⟩ : BufTy).Contents (Elt F) := broadcastInDim S100000x1 ![] bcast_S_S100000x1 (constant S_ .f32 0x43000000#32)
  have v15 : (⟨S100000x1, .f32⟩ : BufTy).Contents (Elt F) := Host.divf v13 v14
  have v16 : (⟨S100000x128, .f32⟩ : BufTy).Contents (Elt F) := broadcastInDim S100000x128 ![0, 1] bcast_S100000x1_S100000x128_0_1 v15
  have v17 : (⟨S100000x128, .f32⟩ : BufTy).Contents (Elt F) := subf v11 v16
  have v18 : (⟨S100000x128, .f32⟩ : BufTy).Contents (Elt F) := mulf v17 v17
  have v19 : (⟨S100000, .f32⟩ : BufTy).Contents (Elt F) := Host.reduceAdd v18 (constant S_ .f32 0x00000000#32) reducesTo_S100000x128_S100000_d1 h_S_
  have v20 : (⟨S100000x1, .f32⟩ : BufTy).Contents (Elt F) := broadcastInDim S100000x1 ![0] bcast_S100000_S100000x1_0 v19
  have v21 : (⟨S100000x1, .f32⟩ : BufTy).Contents (Elt F) := broadcastInDim S100000x1 ![] bcast_S_S100000x1 (constant S_ .f32 0x43000000#32)
  have v22 : (⟨S100000x1, .f32⟩ : BufTy).Contents (Elt F) := Host.divf v20 v21
  have v23 : (⟨S100000x128, .f32⟩ : BufTy).Contents (Elt F) := broadcastInDim S100000x128 ![0, 1] bcast_S100000x1_S100000x128_0_1 v15
  have v24 : (⟨S100000x128, .f32⟩ : BufTy).Contents (Elt F) := subf v11 v23
  have v25 : (⟨S100000x1, .f32⟩ : BufTy).Contents (Elt F) := broadcastInDim S100000x1 ![] bcast_S_S100000x1 (constant S_ .f32 0x3727C5AC#32)
  have v26 : (⟨S100000x1, .f32⟩ : BufTy).Contents (Elt F) := addf v22 v25
  have v27 : (⟨S100000x1, .f32⟩ : BufTy).Contents (Elt F) := Host.rsqrt v26
  have v28 : (⟨S100000x128, .f32⟩ : BufTy).Contents (Elt F) := broadcastInDim S100000x128 ![0, 1] bcast_S100000x1_S100000x128_0_1 v27
  have v29 : (⟨S100000x128, .f32⟩ : BufTy).Contents (Elt F) := mulf v24 v28
  have v30 : (⟨S1x128, .f32⟩ : BufTy).Contents (Elt F) := broadcastInDim S1x128 ![1] bcast_S128_S1x128_1 g
  have v31 : (⟨S100000x128, .f32⟩ : BufTy).Contents (Elt F) := broadcastInDim S100000x128 ![0, 1] bcast_S1x128_S100000x128_0_1 v30
  have v32 : (⟨S100000x128, .f32⟩ : BufTy).Contents (Elt F) := mulf v29 v31
  have v33 : (⟨S1x128, .f32⟩ : BufTy).Contents (Elt F) := broadcastInDim S1x128 ![1] bcast_S128_S1x128_1 be
  have v34 : (⟨S100000x128, .f32⟩ : BufTy).Contents (Elt F) := broadcastInDim S100000x128 ![0, 1] bcast_S1x128_S100000x128_0_1 v33
  addf v32 v34

/-- The number of atoms of each molecule, at least one, as a column. -/
def cnt (mol : (⟨S100000, .i32⟩ : BufTy).Contents (Elt F)) : (⟨S1024x1, .f32⟩ : BufTy).Contents (Elt F) :=
  have v72 : (⟨S100000, .f32⟩ : BufTy).Contents (Elt F) := broadcastInDim S100000 ![] bcast_S_S100000 (constant S_ .f32 0x3F800000#32)
  have v73 : (⟨S1024, .f32⟩ : BufTy).Contents (Elt F) := broadcastInDim S1024 ![] bcast_S_S1024 (constant S_ .f32 0x00000000#32)
  have v74 : (⟨S100000x1, .i32⟩ : BufTy).Contents (Elt F) := broadcastInDim S100000x1 ![0] bcast_S100000_S100000x1_0 mol
  have v75 : (⟨S1024, .f32⟩ : BufTy).Contents (Elt F) := Host.scatterAdd scatter_S1024_S100000x1_S100000_n_0_0_1 v73 v74 v72
  have v76 : (⟨S1024, .f32⟩ : BufTy).Contents (Elt F) := broadcastInDim S1024 ![] bcast_S_S1024 (constant S_ .f32 0x3F800000#32)
  have v77 : (⟨S1024, .f32⟩ : BufTy).Contents (Elt F) := maximumf v75 v76
  broadcastInDim S1024x1 ![0] bcast_S1024_S1024x1_0 v77

/-- The per-molecule mean of atom rows: the rows of each molecule summed, divided by the molecule's count. -/
def segMean (mol : (⟨S100000, .i32⟩ : BufTy).Contents (Elt F)) (x : (⟨S100000x128, .f32⟩ : BufTy).Contents (Elt F)) :
    (⟨S1024x128, .f32⟩ : BufTy).Contents (Elt F) :=
  have v79 : (⟨S1024x128, .f32⟩ : BufTy).Contents (Elt F) := broadcastInDim S1024x128 ![] bcast_S_S1024x128 (constant S_ .f32 0x00000000#32)
  have v80 : (⟨S100000x1, .i32⟩ : BufTy).Contents (Elt F) := broadcastInDim S100000x1 ![0] bcast_S100000_S100000x1_0 mol
  have v81 : (⟨S1024x128, .f32⟩ : BufTy).Contents (Elt F) := Host.scatterAdd scatter_S1024x128_S100000x1_S100000x128_1_0_0_1 v79 v80 x
  have v82 : (⟨S1024x128, .f32⟩ : BufTy).Contents (Elt F) := broadcastInDim S1024x128 ![0, 1] bcast_S1024x1_S1024x128_0_1 (cnt mol)
  Host.divf v81 v82

/-- One molecule head: the mean row times W3, plus b3, rectified, times W4, plus b4. -/
def headRef (x : (⟨S1024x128, .f32⟩ : BufTy).Contents (Elt F)) (w3 : (⟨S128x512, .f32⟩ : BufTy).Contents (Elt F))
    (b3 : (⟨S512, .f32⟩ : BufTy).Contents (Elt F)) (w4 : (⟨S512x1, .f32⟩ : BufTy).Contents (Elt F))
    (b4 : (⟨S1, .f32⟩ : BufTy).Contents (Elt F)) : (⟨S1024x1, .f32⟩ : BufTy).Contents (Elt F) :=
  have v89 : (⟨S1024x512, .f32⟩ : BufTy).Contents (Elt F) := Host.dotGeneral dot_S1024x128_S128x512_S1024x512_1_0_0_1_n_n none x w3
  have v90 : (⟨S1x512, .f32⟩ : BufTy).Contents (Elt F) := broadcastInDim S1x512 ![1] bcast_S512_S1x512_1 b3
  have v91 : (⟨S1024x512, .f32⟩ : BufTy).Contents (Elt F) := broadcastInDim S1024x512 ![0, 1] bcast_S1x512_S1024x512_0_1 v90
  have v92 : (⟨S1024x512, .f32⟩ : BufTy).Contents (Elt F) := addf v89 v91
  have r0 : (⟨S1024x512, .f32⟩ : BufTy).Contents (Elt F) := broadcastInDim S1024x512 ![] bcast_S_S1024x512 (constant S_ .f32 0x00000000#32)
  have v93 : (⟨S1024x512, .f32⟩ : BufTy).Contents (Elt F) := maximumf v92 r0
  have v94 : (⟨S1024x1, .f32⟩ : BufTy).Contents (Elt F) := Host.dotGeneral dot_S1024x512_S512x1_S1024x1_1_0_0_1_n_n none v93 w4
  have v95 : (⟨S1x1, .f32⟩ : BufTy).Contents (Elt F) := broadcastInDim S1x1 ![1] bcast_S1_S1x1_1 b4
  have v96 : (⟨S1024x1, .f32⟩ : BufTy).Contents (Elt F) := broadcastInDim S1024x1 ![0, 1] bcast_S1x1_S1024x1_0_1 v95
  addf v94 v96

/-- The two heads averaged. -/
def molRef (xa xb : (⟨S1024x128, .f32⟩ : BufTy).Contents (Elt F))
    (w3a : (⟨S128x512, .f32⟩ : BufTy).Contents (Elt F)) (b3a : (⟨S512, .f32⟩ : BufTy).Contents (Elt F))
    (w4a : (⟨S512x1, .f32⟩ : BufTy).Contents (Elt F)) (b4a : (⟨S1, .f32⟩ : BufTy).Contents (Elt F))
    (w3b : (⟨S128x512, .f32⟩ : BufTy).Contents (Elt F)) (b3b : (⟨S512, .f32⟩ : BufTy).Contents (Elt F))
    (w4b : (⟨S512x1, .f32⟩ : BufTy).Contents (Elt F)) (b4b : (⟨S1, .f32⟩ : BufTy).Contents (Elt F)) :
    (⟨S1024x1, .f32⟩ : BufTy).Contents (Elt F) :=
  mulf (addf (headRef xa w3a b3a w4a b4a) (headRef xb w3b b3b w4b b4b))
    (broadcastInDim S1024x1 ![] bcast_S_S1024x1 (constant S_ .f32 0x3F000000#32))

/-- The reference's result as one function of its 26 arguments. -/
def refOut (ao : (⟨S100000x128, .f32⟩ : BufTy).Contents (Elt F)) (bo : (⟨S200000x128, .f32⟩ : BufTy).Contents (Elt F))
    (ofa : (⟨S100000x151, .f32⟩ : BufTy).Contents (Elt F)) (a2a a2b : (⟨S100000x10, .i32⟩ : BufTy).Contents (Elt F))
    (mol : (⟨S100000, .i32⟩ : BufTy).Contents (Elt F))
    (w1aa : (⟨S279x512, .f32⟩ : BufTy).Contents (Elt F)) (b1aa : (⟨S512, .f32⟩ : BufTy).Contents (Elt F))
    (w2aa : (⟨S512x128, .f32⟩ : BufTy).Contents (Elt F)) (b2aa gaa beaa : (⟨S128, .f32⟩ : BufTy).Contents (Elt F))
    (w1ab : (⟨S279x512, .f32⟩ : BufTy).Contents (Elt F)) (b1ab : (⟨S512, .f32⟩ : BufTy).Contents (Elt F))
    (w2ab : (⟨S512x128, .f32⟩ : BufTy).Contents (Elt F)) (b2ab gab beab : (⟨S128, .f32⟩ : BufTy).Contents (Elt F))
    (w3a : (⟨S128x512, .f32⟩ : BufTy).Contents (Elt F)) (b3a : (⟨S512, .f32⟩ : BufTy).Contents (Elt F))
    (w4a : (⟨S512x1, .f32⟩ : BufTy).Contents (Elt F)) (b4a : (⟨S1, .f32⟩ : BufTy).Contents (Elt F))
    (w3b : (⟨S128x512, .f32⟩ : BufTy).Contents (Elt F)) (b3b : (⟨S512, .f32⟩ : BufTy).Contents (Elt F))
    (w4b : (⟨S512x1, .f32⟩ : BufTy).Contents (Elt F)) (b4b : (⟨S1, .f32⟩ : BufTy).Contents (Elt F)) :
    (⟨S1024x1, .f32⟩ : BufTy).Contents (Elt F) :=
  molRef (segMean mol (atomRef ofa (aggr (takeA ao a2a)) w1aa b1aa w2aa b2aa gaa beaa))
    (segMean mol (atomRef ofa (aggr (takeB bo a2b)) w1ab b1ab w2ab b2ab gab beab))
    w3a b3a w4a b4a w3b b3b w4b b4b

end Cert.RefFns

end
-- ==== Proof.KGlue.lean ====
/-
  The kernel program's host stages and the reference's are the same functions: each pair is built from the
  same operations over the same literal shapes and dimension records, so the two agree argument by argument.
-/
import proofs.«100054_j87634512707836_1_alg».proof.Proof.KFns
import proofs.«100054_j87634512707836_1_alg».proof.Proof.RefFns

noncomputable section

namespace Cert.KGlue

open Idealize.ShloMosaic

variable {F : FTy → Type} [FloatOps F]

/-- The clamped gather from the 100000-row table is the same function on both sides. -/
theorem takeA_eq (x : (⟨Cert.KernelIdeal.S100000x128, .f32⟩ : BufTy).Contents (Elt F))
    (idx : (⟨Cert.KernelIdeal.S100000x10, .i32⟩ : BufTy).Contents (Elt F)) :
    Cert.KFns.takeA x idx = Cert.RefFns.takeA x idx := rfl

/-- The clamped gather from the 200000-row table is the same function on both sides. -/
theorem takeB_eq (x : (⟨Cert.KernelIdeal.S200000x128, .f32⟩ : BufTy).Contents (Elt F))
    (idx : (⟨Cert.KernelIdeal.S100000x10, .i32⟩ : BufTy).Contents (Elt F)) :
    Cert.KFns.takeB x idx = Cert.RefFns.takeB x idx := rfl

/-- The neighbour sum is the same function on both sides. -/
theorem aggr_eq (t : (⟨Cert.KernelIdeal.S100000x10x128, .f32⟩ : BufTy).Contents (Elt F)) :
    Cert.KFns.aggr t = Cert.RefFns.aggr t := rfl

/-- The per-molecule atom count is the same function on both sides. -/
theorem cnt_eq (mol : (⟨Cert.KernelIdeal.S100000, .i32⟩ : BufTy).Contents (Elt F)) :
    Cert.KFns.cnt mol = Cert.RefFns.cnt mol := rfl

/-- The per-molecule mean is the same function on both sides. -/
theorem segMean_eq (mol : (⟨Cert.KernelIdeal.S100000, .i32⟩ : BufTy).Contents (Elt F))
    (x : (⟨Cert.KernelIdeal.S100000x128, .f32⟩ : BufTy).Contents (Elt F)) :
    Cert.KFns.segMean mol x = Cert.RefFns.segMean mol x := rfl

end Cert.KGlue

end
-- ==== Proof.RefAtomLib.lean ====
/-
  Index-by-index readings of the operations the reference's two float stages are built from, at the extended
  reals: a rows-by-columns product at (r, c) is a sum over the shared axis; a vector laid out as one row and
  repeated down the rows reads the vector; a column repeated along the rows reads the column; a per-row value
  kept as a one-entry column reads the value; a scalar repeated everywhere reads the scalar; the sum along
  the 128 features of a row starting from the literal zero is the plain sum; and two arrays laid side by side
  read the left one below column 151 and the right one from there on.
-/
import proofs.«100054_j87634512707836_1_alg».proof.Proof.RefFns
import proofs.«100054_j87634512707836_1_alg».proof.Proof.Spec
import Idealize.ShloMosaic.Lib.IdealHost
import Idealize.ShloMosaic.Lib.KernelVsHost
import Idealize.ShloMosaic.Lib.Pipeline.Value

namespace Cert.RefIdx

open Idealize.ShloMosaic Idealize.ShloMosaic.ValueIdx
open Cert.ReferenceIdeal Cert.ReferenceIdeal.Gen Cert.RefFns
open scoped BigOperators

/-! ## A rows-by-columns product at an index -/

/-- A plain rows-by-columns product at (r, c): the sum over the shared axis of the row's entries times the
    column's. -/
theorem dotGeneral_plain_apply (M K N : ℕ) (x : FVec Ideal ⟨2, ![M, K]⟩ .f32) (w : FVec Ideal ⟨2, ![K, N]⟩ .f32)
    (r : Fin M) (c : Fin N) :
    Host.dotGeneral (F := Ideal) (DotDims.plain M K N) none x w (ix2 r c) = ∑ j : Fin K, x (ix2 r j) * w (ix2 j c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- The reference's four products are plain rows-by-columns products. -/
theorem dot1_eq : dot_S100000x279_S279x512_S100000x512_1_0_0_1_n_n = DotDims.plain 100000 279 512 := rfl
theorem dot2_eq : dot_S100000x512_S512x128_S100000x128_1_0_0_1_n_n = DotDims.plain 100000 512 128 := rfl
theorem dot3_eq : dot_S1024x128_S128x512_S1024x512_1_0_0_1_n_n = DotDims.plain 1024 128 512 := rfl
theorem dot4_eq : dot_S1024x512_S512x1_S1024x1_1_0_0_1_n_n = DotDims.plain 1024 512 1 := rfl

/-! ## Broadcasts at an index -/

section Layout
variable {α : Type}

/-- A vector laid out as one row, at (0, k): the vector's entry k. -/
theorem bcast_asRow_apply {n : ℕ} (h1 : (⟨1, ![n]⟩ : Shape).BroadcastsInDim ⟨2, ![1, n]⟩ ![1])
    (b : (⟨1, ![n]⟩ : Shape).Idx → α) (k : Fin n) :
    broadcastInDim ⟨2, ![1, n]⟩ ![1] h1 b (ix2 0 k) = b (ix1 k) := by
  refine broadcastInDim_apply ![1] h1 b (ix2 0 k) (ix1 k) ?_
  intro a
  fin_cases a
  show k.val = if n = 1 then 0 else k.val
  split_ifs with hn
  · have := k.isLt; omega
  · rfl

/-- A vector laid out as one row and repeated down the rows, at (r, k): the vector's entry k. -/
theorem bcast_rowvec_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (r : Fin m) (k : Fin n) :
    broadcastInDim ⟨2, ![m, n]⟩ ![0, 1] h2 (broadcastInDim ⟨2, ![1, n]⟩ ![1] h1 b) (ix2 r k) = b (ix1 k) := by
  rw [broadcastInDim_oneRow_apply, bcast_asRow_apply]

/-- A one-entry-per-row column repeated along the rows, at (r, q): the column's entry r. -/
theorem bcast_col_apply {m n : ℕ} (h : (⟨2, ![m, 1]⟩ : Shape).BroadcastsInDim ⟨2, ![m, n]⟩ ![0, 1])
    (v : (⟨2, ![m, 1]⟩ : Shape).Idx → α) (r : Fin m) (q : Fin n) :
    broadcastInDim ⟨2, ![m, n]⟩ ![0, 1] h v (ix2 r q) = v (ix2 r 0) := by
  refine broadcastInDim_apply ![0, 1] h v (ix2 r q) (ix2 r 0) ?_
  intro a
  fin_cases a
  · show r.val = if m = 1 then 0 else r.val
    split_ifs with hm
    · have := r.isLt; omega
    · rfl
  · show (0 : ℕ) = if (1 : ℕ) = 1 then 0 else _
    simp

/-- A per-row value kept as a one-entry column, at (r, 0): the value of row r. -/
theorem bcast_keep_apply {m : ℕ} (h : (⟨1, ![m]⟩ : Shape).BroadcastsInDim ⟨2, ![m, 1]⟩ ![0])
    (v : (⟨1, ![m]⟩ : Shape).Idx → α) (r : Fin m) :
    broadcastInDim ⟨2, ![m, 1]⟩ ![0] h v (ix2 r 0) = v (ix1 r) := by
  refine broadcastInDim_apply ![0] h v (ix2 r 0) (ix1 r) ?_
  intro a
  fin_cases a
  show r.val = if m = 1 then 0 else r.val
  split_ifs with hm
  · have := r.isLt; omega
  · rfl

end Layout

/-- A literal scalar repeated over any shape reads the literal's value everywhere. -/
theorem bcast_const_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w := by
  rw [broadcastInDim_scalar_apply]; rfl

/-! ## The sum along a row's 128 features -/

/-- The reference's sum along the features of row r, started from the literal zero, is the plain sum. -/
theorem reduceRow_apply (y : FVec Ideal S100000x128 .f32) (r : Fin 100000) :
    Host.reduceAdd (F := Ideal) y (constant (F := Ideal) S_ .f32 0x00000000#32) reducesTo_S100000x128_S100000_d1 h_S_ (ix1 r)
      = ∑ c : Fin 128, y (ix2 r c) := by
  rw [hostReduceAdd_apply, Ideal.hostReduceAdd_single reducesTo_S100000x128_S100000_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-! ## Two arrays side by side -/

section Concat
variable {α : Type}

/-- Below column 151 the side-by-side array reads the left array. -/
theorem concat_left_apply (ofa : S100000x151.Idx → α) (ag : S100000x128.Idx → α) (r : Fin 100000) (jj : Fin 279) (j : Fin 151)
    (hj : jj.val = j.val) :
    concatenate S100000x279 1 [⟨S100000x151, ofa⟩, ⟨S100000x128, ag⟩] concatenates_S100000x151_S100000x128_S100000x279_d1 (ix2 r jj)
      = ofa (ix2 r j) :=
  concatenate_pair_apply_left 1 ofa ag _ (ix2 r jj) rfl (ix2 r j) (fun b => by
    match b with
    | ⟨0, _⟩ => rfl
    | ⟨1, _⟩ => exact hj.symm)

/-- From column 151 on it reads the right array, 151 columns earlier. -/
theorem concat_right_apply (ofa : S100000x151.Idx → α) (ag : S100000x128.Idx → α) (r : Fin 100000) (jj : Fin 279) (j : Fin 128)
    (hj : jj.val = 151 + j.val) :
    concatenate S100000x279 1 [⟨S100000x151, ofa⟩, ⟨S100000x128, ag⟩] concatenates_S100000x151_S100000x128_S100000x279_d1 (ix2 r jj)
      = ag (ix2 r j) :=
  concatenate_pair_apply_right 1 ofa ag _ (ix2 r jj) rfl rfl (ix2 r j)
    (fun b hb => by
      match b with
      | ⟨0, _⟩ => rfl
      | ⟨1, _⟩ => exact absurd rfl hb)
    (by show j.val + 151 = jj.val; omega)

end Concat

end Cert.RefIdx
-- ==== Proof.RefAtom.lean ====
/-
  The reference's feed-forward sublayer with layer normalisation, read entry by entry at the extended reals.

  The sublayer is cut into its three mathematical steps — the rectified hidden layer, the affine second layer, the
  normalisation along the 128 features — each the reference's own operations in order. At entry (r, k) the hidden
  layer's product over the 279 side-by-side features splits, at feature 151, into the atom's own 151 features
  against the top rows of the weight and the 128 message features against the bottom rows: a finite sum over
  151 + 128 indices is the sum over the first 151 plus the sum over the last 128, and nothing else about addition
  on the extended reals is used. The second layer is a product plus a bias; the normalisation is the row's sum
  divided by the literal 128, the centred row, its squares summed and divided by the same literal, the small
  literal added, the reciprocal square root, the scale and the shift — termwise what the row-level definition says.
-/
import proofs.«100054_j87634512707836_1_alg».proof.Proof.RefAtomLib

noncomputable section

namespace Cert.RefIdx

open Idealize.ShloMosaic Idealize.ShloMosaic.ValueIdx
open Cert.ReferenceIdeal Cert.ReferenceIdeal.Gen Cert.RefFns
open scoped BigOperators

/-- An f32 array of the given shape at the extended reals. -/
abbrev Arr (s : Shape) : Type := FVec Ideal s .f32

/-- The host's reciprocal square root at an index. -/
theorem hostRsqrt_apply {s : Shape} (x : FVec Ideal s .f32) (i : s.Idx) : Host.rsqrt x i = Ideal.rsqrt (x i) := rfl

/-! ## The three steps as the reference composes them -/

/-- The rectified hidden layer over all atoms. -/
def hidRef (ofa : Arr S100000x151) (ag : Arr S100000x128) (w1 : Arr S279x512) (b1 : Arr S512) : Arr S100000x512 :=
  maximumf (F := Ideal)
    (addf (F := Ideal)
      (Host.dotGeneral (F := Ideal) (φ₁ := .f32) (φ₂ := .f32) dot_S100000x279_S279x512_S100000x512_1_0_0_1_n_n none
        (concatenate S100000x279 1 [⟨S100000x151, ofa⟩, ⟨S100000x128, ag⟩] concatenates_S100000x151_S100000x128_S100000x279_d1) w1)
      (broadcastInDim S100000x512 ![0, 1] bcast_S1x512_S100000x512_0_1 (broadcastInDim S1x512 ![1] bcast_S512_S1x512_1 b1)))
    (broadcastInDim S100000x512 ![] bcast_S_S100000x512 (constant (F := Ideal) S_ .f32 0x00000000#32))

/-- The affine second layer over all atoms. -/
def linRef (h : Arr S100000x512) (w2 : Arr S512x128) (b2 : Arr S128) : Arr S100000x128 :=
  addf (F := Ideal) (Host.dotGeneral (F := Ideal) (φ₁ := .f32) (φ₂ := .f32) dot_S100000x512_S512x128_S100000x128_1_0_0_1_n_n none h w2)
    (broadcastInDim S100000x128 ![0, 1] bcast_S1x128_S100000x128_0_1 (broadcastInDim S1x128 ![1] bcast_S128_S1x128_1 b2))

/-- Each row's mean, as a one-entry column: the row's sum divided by the literal 128. -/
def meanRef (y : Arr S100000x128) : Arr S100000x1 :=
  Host.divf (F := Ideal)
    (broadcastInDim S100000x1 ![0] bcast_S100000_S100000x1_0
      (Host.reduceAdd (F := Ideal) y (constant (F := Ideal) S_ .f32 0x00000000#32) reducesTo_S100000x128_S100000_d1 h_S_))
    (broadcastInDim S100000x1 ![] bcast_S_S100000x1 (constant (F := Ideal) S_ .f32 0x43000000#32))

/-- The rows with their means subtracted. -/
def cenRef (y : Arr S100000x128) : Arr S100000x128 :=
  subf (F := Ideal) y (broadcastInDim S100000x128 ![0, 1] bcast_S100000x1_S100000x128_0_1 (meanRef y))

/-- Each row's variance, as a one-entry column: the centred row's squares summed, divided by the literal 128. -/
def varRef (y : Arr S100000x128) : Arr S100000x1 :=
  Host.divf (F := Ideal)
    (broadcastInDim S100000x1 ![0] bcast_S100000_S100000x1_0
      (Host.reduceAdd (F := Ideal) (mulf (F := Ideal) (cenRef y) (cenRef y)) (constant (F := Ideal) S_ .f32 0x00000000#32)
        reducesTo_S100000x128_S100000_d1 h_S_))
    (broadcastInDim S100000x1 ![] bcast_S_S100000x1 (constant (F := Ideal) S_ .f32 0x43000000#32))

/-- The normalisation along the features, scaled and shifted. -/
def lnRef (y : Arr S100000x128) (g be : Arr S128) : Arr S100000x128 :=
  addf (F := Ideal)
    (mulf (F := Ideal)
      (mulf (F := Ideal) (cenRef y)
        (broadcastInDim S100000x128 ![0, 1] bcast_S100000x1_S100000x128_0_1
          (Host.rsqrt (F := Ideal)
            (addf (F := Ideal) (varRef y)
              (broadcastInDim S100000x1 ![] bcast_S_S100000x1 (constant (F := Ideal) S_ .f32 0x3727C5AC#32))))))
      (broadcastInDim S100000x128 ![0, 1] bcast_S1x128_S100000x128_0_1 (broadcastInDim S1x128 ![1] bcast_S128_S1x128_1 g)))
    (broadcastInDim S100000x128 ![0, 1] bcast_S1x128_S100000x128_0_1 (broadcastInDim S1x128 ![1] bcast_S128_S1x128_1 be))

/-- The sublayer is the three steps in order. -/
theorem atomRef_split (ofa : Arr S100000x151) (ag : Arr S100000x128) (w1 : Arr S279x512) (b1 : Arr S512)
    (w2 : Arr S512x128) (b2 g be : Arr S128) :
    atomRef (F := Ideal) ofa ag w1 b1 w2 b2 g be = lnRef (linRef (hidRef ofa ag w1 b1) w2 b2) g be := rfl

/-! ## Each step at an entry -/

/-- The hidden layer at (r, k): the atom's features against the top 151 rows of the weight plus the message's
    against the bottom 128, plus the bias, clipped below at the literal zero. -/
theorem hidRef_apply (ofa : Arr S100000x151) (ag : Arr S100000x128) (w1 : Arr S279x512) (b1 : Arr S512)
    (wt : (⟨2, ![151, 512]⟩ : Shape).Idx → EReal) (wb : (⟨2, ![128, 512]⟩ : Shape).Idx → EReal)
    (b1' : (⟨2, ![1, 512]⟩ : Shape).Idx → EReal)
    (hwt : ∀ (j : Fin 151) (k : Fin 512), wt (ix2 j k) = w1 (ix2 ⟨j.val, by omega⟩ k))
    (hwb : ∀ (j : Fin 128) (k : Fin 512), wb (ix2 j k) = w1 (ix2 ⟨151 + j.val, by omega⟩ k))
    (hb1 : ∀ k : Fin 512, b1' (ix2 0 k) = b1 (ix1 k)) (r : Fin 100000) (k : Fin 512) :
    hidRef ofa ag w1 b1 (ix2 r k)
      = Spec.hid (Spec.row2 ofa r) (Spec.row2 ag r) (Spec.mat2 wt) (Spec.mat2 wb) (Spec.row2 b1' 0) k := by
  unfold hidRef
  rw [maximumf_apply, addf_apply, bcast_const_apply, bcast_rowvec_apply, dot1_eq, dotGeneral_plain_apply]
  simp only [Spec.hid, Spec.row2, Spec.mat2]
  -- the 279 side-by-side features: the first 151 read the atom's row, the last 128 the message's
  have hs : (∑ j : Fin 279, concatenate S100000x279 1 [⟨S100000x151, ofa⟩, ⟨S100000x128, ag⟩]
          concatenates_S100000x151_S100000x128_S100000x279_d1 (ix2 r j) * w1 (ix2 j k))
      = (∑ j : Fin 151, ofa (ix2 r j) * wt (ix2 j k)) + ∑ j : Fin 128, ag (ix2 r j) * wb (ix2 j k) := by
    refine (Fin.sum_univ_add (a := 151) (b := 128) (fun j : Fin 279 =>
      concatenate S100000x279 1 [⟨S100000x151, ofa⟩, ⟨S100000x128, ag⟩]
          concatenates_S100000x151_S100000x128_S100000x279_d1 (ix2 r j) * w1 (ix2 j k))).trans ?_
    refine congrArg₂ (· + ·) (Finset.sum_congr rfl fun j _ => ?_) (Finset.sum_congr rfl fun j _ => ?_)
    · show concatenate S100000x279 1 [⟨S100000x151, ofa⟩, ⟨S100000x128, ag⟩]
          concatenates_S100000x151_S100000x128_S100000x279_d1 (ix2 r (Fin.castAdd 128 j)) * w1 (ix2 (Fin.castAdd 128 j) k) = _
      rw [concat_left_apply ofa ag r (Fin.castAdd 128 j) j rfl, hwt j k]
      rfl
    · show concatenate S100000x279 1 [⟨S100000x151, ofa⟩, ⟨S100000x128, ag⟩]
          concatenates_S100000x151_S100000x128_S100000x279_d1 (ix2 r (Fin.natAdd 151 j)) * w1 (ix2 (Fin.natAdd 151 j) k) = _
      rw [concat_right_apply ofa ag r (Fin.natAdd 151 j) j rfl, hwb j k]
      rfl
  rw [hs, hb1 k]

/-- The second layer at (r, c): the hidden row against column c of the weight, plus the bias. -/
theorem linRef_apply (h : Arr S100000x512) (w2 : Arr S512x128) (b2 : Arr S128) (r : Fin 100000) (c : Fin 128) :
    linRef h w2 b2 (ix2 r c) = (∑ k : Fin 512, h (ix2 r k) * w2 (ix2 k c)) + b2 (ix1 c) := by
  unfold linRef
  rw [addf_apply, bcast_rowvec_apply, dot2_eq, dotGeneral_plain_apply]

/-- Row r's mean. -/
theorem meanRef_apply (y : Arr S100000x128) (r : Fin 100000) :
    meanRef y (ix2 r 0) = Ideal.div (∑ c : Fin 128, y (ix2 r c)) (Ideal.ofBits .f32 0x43000000#32) := by
  unfold meanRef
  rw [hostDivf_apply, bcast_keep_apply, reduceRow_apply, bcast_const_apply]

/-- The centred row at (r, c). -/
theorem cenRef_apply (y : Arr S100000x128) (r : Fin 100000) (c : Fin 128) :
    cenRef y (ix2 r c) = y (ix2 r c) - Ideal.div (∑ c' : Fin 128, y (ix2 r c')) (Ideal.ofBits .f32 0x43000000#32) := by
  unfold cenRef
  rw [subf_apply, bcast_col_apply, meanRef_apply]

/-- Row r's variance. -/
theorem varRef_apply (y : Arr S100000x128) (r : Fin 100000) :
    varRef y (ix2 r 0)
      = Ideal.div (∑ c : Fin 128, cenRef y (ix2 r c) * cenRef y (ix2 r c)) (Ideal.ofBits .f32 0x43000000#32) := by
  unfold varRef
  rw [hostDivf_apply, bcast_keep_apply, reduceRow_apply, bcast_const_apply]
  rfl

/-- The normalisation at (r, q) is the row-level normalisation of row r at feature q. -/
theorem lnRef_apply (y : Arr S100000x128) (g be : Arr S128) (r : Fin 100000) (q : Fin 128) :
    lnRef y g be (ix2 r q) = Spec.lnRow (Spec.row2 y r) (fun c => g (ix1 c)) (fun c => be (ix1 c)) q := by
  unfold lnRef
  rw [addf_apply, mulf_apply, mulf_apply, bcast_rowvec_apply, bcast_rowvec_apply, bcast_col_apply, hostRsqrt_apply,
    addf_apply, varRef_apply, bcast_const_apply]
  simp only [cenRef_apply, Spec.lnRow, Spec.row2]

/-! ## The sublayer at an entry -/

/-- The reference's sublayer is, entry by entry, the row-level sublayer of the atom's row and its message's row,
    with the first-layer weight read as its top 151 and bottom 128 rows and the biases, scale and shift as rows. -/
theorem atomRef_eq (ofa : (⟨S100000x151, .f32⟩ : BufTy).Contents (Elt Ideal)) (ag : (⟨S100000x128, .f32⟩ : BufTy).Contents (Elt Ideal))
    (w1 : (⟨S279x512, .f32⟩ : BufTy).Contents (Elt Ideal)) (b1 : (⟨S512, .f32⟩ : BufTy).Contents (Elt Ideal))
    (w2 : (⟨S512x128, .f32⟩ : BufTy).Contents (Elt Ideal)) (b2 g be : (⟨S128, .f32⟩ : BufTy).Contents (Elt Ideal))
    (wt : (⟨2, ![151, 512]⟩ : Shape).Idx → EReal) (wb : (⟨2, ![128, 512]⟩ : Shape).Idx → EReal)
    (b1' : (⟨2, ![1, 512]⟩ : Shape).Idx → EReal) (b2' g' be' : (⟨2, ![1, 128]⟩ : Shape).Idx → EReal)
    (hwt : ∀ (j : Fin 151) (k : Fin 512), wt (ix2 j k) = w1 (ix2 ⟨j.val, by omega⟩ k))
    (hwb : ∀ (j : Fin 128) (k : Fin 512), wb (ix2 j k) = w1 (ix2 ⟨151 + j.val, by omega⟩ k))
    (hb1 : ∀ k : Fin 512, b1' (ix2 0 k) = b1 (ix1 k)) (hb2 : ∀ c : Fin 128, b2' (ix2 0 c) = b2 (ix1 c))
    (hg : ∀ c : Fin 128, g' (ix2 0 c) = g (ix1 c)) (hbe : ∀ c : Fin 128, be' (ix2 0 c) = be (ix1 c)) :
    atomRef (F := Ideal) ofa ag w1 b1 w2 b2 g be = Cert.Spec.atomArr (A := 100000) ofa ag wt wb b1' w2 b2' g' be' := by
  funext i
  obtain ⟨r, q, rfl⟩ : ∃ (r : Fin 100000) (q : Fin 128), i = ix2 r q := ⟨i 0, i 1, eq_ix2 i⟩
  rw [atomRef_split, lnRef_apply]
  have e1 : Spec.row2 (linRef (hidRef ofa ag w1 b1) w2 b2) r
      = Spec.lin (Spec.hid (Spec.row2 ofa r) (Spec.row2 ag r) (Spec.mat2 wt) (Spec.mat2 wb) (Spec.row2 b1' 0))
          (Spec.mat2 w2) (Spec.row2 b2' 0) := by
    funext c
    show linRef (hidRef ofa ag w1 b1) w2 b2 (ix2 r c) = _
    rw [linRef_apply]
    simp only [Spec.lin]
    refine congrArg₂ (· + ·) (Finset.sum_congr rfl fun k _ => ?_) (hb2 c).symm
    rw [hidRef_apply ofa ag w1 b1 wt wb b1' hwt hwb hb1 r k]
    rfl
  have eg : (fun c : Fin 128 => g (ix1 c)) = Spec.row2 g' 0 := funext fun c => (hg c).symm
  have ebe : (fun c : Fin 128 => be (ix1 c)) = Spec.row2 be' 0 := funext fun c => (hbe c).symm
  rw [e1, eg, ebe]
  rfl

end Cert.RefIdx

end
-- ==== Proof.RefMol.lean ====
/-
  The reference's molecule head, read entry by entry at the extended reals.

  Each head is a product of the molecule's mean row with a weight, plus a bias, clipped below at the literal zero,
  then a product with a one-column weight, plus a one-entry bias: at molecule r that is one number, the row-level
  head of row r. The two heads are added and multiplied by the literal one half.
-/
import proofs.«100054_j87634512707836_1_alg».proof.Proof.RefAtomLib

noncomputable section

namespace Cert.RefIdx

open Idealize.ShloMosaic Idealize.ShloMosaic.ValueIdx
open Cert.ReferenceIdeal Cert.ReferenceIdeal.Gen Cert.RefFns
open scoped BigOperators

/-- One head over all molecules, as the reference composes it. -/
def headFn (x : FVec Ideal S1024x128 .f32) (w3 : FVec Ideal S128x512 .f32) (b3 : FVec Ideal S512 .f32)
    (w4 : FVec Ideal S512x1 .f32) (b4 : FVec Ideal S1 .f32) : FVec Ideal S1024x1 .f32 :=
  addf (F := Ideal)
    (Host.dotGeneral (F := Ideal) (φ₁ := .f32) (φ₂ := .f32) dot_S1024x512_S512x1_S1024x1_1_0_0_1_n_n none
      (maximumf (F := Ideal)
        (addf (F := Ideal)
          (Host.dotGeneral (F := Ideal) (φ₁ := .f32) (φ₂ := .f32) dot_S1024x128_S128x512_S1024x512_1_0_0_1_n_n none x w3)
          (broadcastInDim S1024x512 ![0, 1] bcast_S1x512_S1024x512_0_1 (broadcastInDim S1x512 ![1] bcast_S512_S1x512_1 b3)))
        (broadcastInDim S1024x512 ![] bcast_S_S1024x512 (constant (F := Ideal) S_ .f32 0x00000000#32)))
      w4)
    (broadcastInDim S1024x1 ![0, 1] bcast_S1x1_S1024x1_0_1 (broadcastInDim S1x1 ![1] bcast_S1_S1x1_1 b4))

/-- The reference's head is that composition. -/
theorem headRef_split (x : FVec Ideal S1024x128 .f32) (w3 : FVec Ideal S128x512 .f32) (b3 : FVec Ideal S512 .f32)
    (w4 : FVec Ideal S512x1 .f32) (b4 : FVec Ideal S1 .f32) :
    headRef (F := Ideal) x w3 b3 w4 b4 = headFn x w3 b3 w4 b4 := rfl

/-- One head at molecule r: the rectified affine image of the molecule's row against the one-column weight, plus
    the one-entry bias. -/
theorem headRef_apply (x : FVec Ideal S1024x128 .f32) (w3 : FVec Ideal S128x512 .f32) (b3 : FVec Ideal S512 .f32)
    (w4 : FVec Ideal S512x1 .f32) (b4 : FVec Ideal S1 .f32)
    (b3' : (⟨2, ![1, 512]⟩ : Shape).Idx → EReal) (b4' : (⟨2, ![1, 1]⟩ : Shape).Idx → EReal)
    (h3 : ∀ k : Fin 512, b3' (ix2 0 k) = b3 (ix1 k)) (h4 : b4' (ix2 0 0) = b4 (ix1 0)) (r : Fin 1024) :
    headRef (F := Ideal) x w3 b3 w4 b4 (ix2 r 0)
      = Spec.headRow (Spec.row2 x r) (Spec.mat2 w3) (Spec.row2 b3' 0) (fun k => w4 (ix2 k 0)) (b4' (ix2 0 0)) := by
  rw [headRef_split]
  unfold headFn
  rw [addf_apply, bcast_rowvec_apply, dot4_eq, dotGeneral_plain_apply]
  simp only [Spec.headRow, Spec.row2, Spec.mat2]
  rw [h4]
  refine congrArg (· + _) (Finset.sum_congr rfl fun k _ => ?_)
  rw [maximumf_apply, addf_apply, bcast_const_apply, bcast_rowvec_apply, dot3_eq, dotGeneral_plain_apply, h3 k]

/-- The reference's molecule head is, molecule by molecule, the two row-level heads added and halved, with the
    biases read as rows. -/
theorem molRef_eq (xa xb : (⟨S1024x128, .f32⟩ : BufTy).Contents (Elt Ideal))
    (w3a : (⟨S128x512, .f32⟩ : BufTy).Contents (Elt Ideal)) (b3a : (⟨S512, .f32⟩ : BufTy).Contents (Elt Ideal))
    (w4a : (⟨S512x1, .f32⟩ : BufTy).Contents (Elt Ideal)) (b4a : (⟨S1, .f32⟩ : BufTy).Contents (Elt Ideal))
    (w3b : (⟨S128x512, .f32⟩ : BufTy).Contents (Elt Ideal)) (b3b : (⟨S512, .f32⟩ : BufTy).Contents (Elt Ideal))
    (w4b : (⟨S512x1, .f32⟩ : BufTy).Contents (Elt Ideal)) (b4b : (⟨S1, .f32⟩ : BufTy).Contents (Elt Ideal))
    (b3a' b3b' : (⟨2, ![1, 512]⟩ : Shape).Idx → EReal) (b4a' b4b' : (⟨2, ![1, 1]⟩ : Shape).Idx → EReal)
    (h3a : ∀ k : Fin 512, b3a' (ix2 0 k) = b3a (ix1 k)) (h3b : ∀ k : Fin 512, b3b' (ix2 0 k) = b3b (ix1 k))
    (h4a : b4a' (ix2 0 0) = b4a (ix1 0)) (h4b : b4b' (ix2 0 0) = b4b (ix1 0)) :
    molRef (F := Ideal) xa xb w3a b3a w4a b4a w3b b3b w4b b4b
      = Cert.Spec.molArr (M := 1024) xa xb w3a b3a' w4a b4a' w3b b3b' w4b b4b' := by
  funext i
  obtain ⟨r, q, rfl⟩ : ∃ (r : Fin 1024) (q : Fin 1), i = ix2 r q := ⟨i 0, i 1, eq_ix2 i⟩
  obtain rfl : q = 0 := Subsingleton.elim _ _
  unfold molRef
  rw [mulf_apply, addf_apply, bcast_const_apply, headRef_apply xa w3a b3a w4a b4a b3a' b4a' h3a h4a r,
    headRef_apply xb w3b b3b w4b b4b b3b' b4b' h3b h4b r]
  rfl

end Cert.RefIdx

end
-- ==== Proof.LibRows.lean ====
/-
  Two layout moves of the kernel's host code read at explicit coordinates: a block of consecutive rows cut out
  of a matrix (row j of the cut is row off + j of the matrix), and a vector re-laid as a one-row matrix (entry
  (0, k) of the row is entry k of the vector).
-/
import Idealize.ShloMosaic.Lib.Pipeline.Value
import Idealize.ShloMosaic.Lib.ValueIdx

namespace Cert.LibRows

open Idealize.ShloMosaic Idealize.ShloMosaic.ValueIdx

variable {α : Type}

/-- Rows off … off + R' − 1 of an R × C matrix, all columns: entry (j, k) is the matrix's entry (off + j, k). -/
theorem slice_rows_apply {R R' C : ℕ} (off : ℕ) (x : (⟨2, ![R, C]⟩ : Shape).Idx → α)
    (h : (⟨2, ![R, C]⟩ : Shape).Slices ![off, 0] ⟨2, ![R', C]⟩) (j : Fin R') (k : Fin C) (hj : off + j.val < R) :
    extractStridedSlice ⟨2, ![R', C]⟩ ![off, 0] x h (ix2 j k) = x (ix2 (⟨off + j.val, hj⟩ : Fin R) k) := by
  refine extractStridedSlice_apply ![off, 0] x h (ix2 j k) (ix2 (⟨off + j.val, hj⟩ : Fin R) k) ?_
  intro a
  match a with
  | ⟨0, _⟩ => rfl
  | ⟨1, _⟩ => show k.val = 0 + k.val; omega

/-- A vector of n entries re-laid as a 1 × n matrix: entry (0, k) is the vector's entry k. -/
theorem row_of_vector_apply {n : ℕ} (x : (⟨1, ![n]⟩ : Shape).Idx → α)
    (h : (⟨1, ![n]⟩ : Shape).ShapeCasts ⟨2, ![1, n]⟩) (k : Fin n) :
    shapeCast ⟨2, ![1, n]⟩ x h (ix2 (0 : Fin 1) k) = x (ix1 k) := by
  refine shapeCast_apply x h (ix2 (0 : Fin 1) k) (ix1 k) ?_
  rw [Shape.rowMajor_val_two, Shape.rowMajor_val_one]
  show k.val = 0 * n + k.val
  omega

end Cert.LibRows
-- ==== Proof.Bridge.lean ====
/-
  The two programs' results as one function of the 26 arguments. On the kernel's side the result is the
  molecule head of the per-molecule means of the atom sublayer, the sublayer fed with W1 cut into its top 151
  and bottom 128 rows and the bias, scale and shift vectors re-laid as one-row matrices; on the reference's
  side it is the composition of its named stages. The reference's two float stages are the same functions index
  by index (the product over the 279 concatenated features is the sum of the two products), and the gather,
  neighbour sum and per-molecule mean are literally the same host operations on both sides.
-/
import proofs.«100054_j87634512707836_1_alg».proof.Proof.KFns
import proofs.«100054_j87634512707836_1_alg».proof.Proof.KGlue
import proofs.«100054_j87634512707836_1_alg».proof.Proof.RefFns
import proofs.«100054_j87634512707836_1_alg».proof.Proof.RefAtom
import proofs.«100054_j87634512707836_1_alg».proof.Proof.RefMol
import proofs.«100054_j87634512707836_1_alg».proof.Proof.LibRows
import proofs.«100054_j87634512707836_1_alg».proof.Proof.Spec

noncomputable section

namespace Cert.Bridge

open Idealize.ShloMosaic Idealize.ShloMosaic.ValueIdx Cert.KernelIdeal Cert.KernelIdeal.Gen Cert.LibRows

/-- The top 151 rows of W1 at (j, k). -/
theorem top_apply (w1 : (⟨S279x512, .f32⟩ : BufTy).Contents (Elt Ideal)) (j : Fin 151) (k : Fin 512) :
    extractStridedSlice S151x512 ![0, 0] w1 slices_S279x512_S151x512_0_0 (ix2 j k) = w1 (ix2 (⟨j.val, by omega⟩ : Fin 279) k) := by
  refine (slice_rows_apply (R := 279) (R' := 151) (C := 512) 0 w1 slices_S279x512_S151x512_0_0 j k (by omega)).trans ?_
  congr 2
  exact Fin.ext (Nat.zero_add _)

/-- The bottom 128 rows of W1 at (j, k). -/
theorem bot_apply (w1 : (⟨S279x512, .f32⟩ : BufTy).Contents (Elt Ideal)) (j : Fin 128) (k : Fin 512) :
    extractStridedSlice S128x512 ![151, 0] w1 slices_S279x512_S128x512_151_0 (ix2 j k) = w1 (ix2 (⟨151 + j.val, by omega⟩ : Fin 279) k) :=
  slice_rows_apply (R := 279) (R' := 128) (C := 512) 151 w1 slices_S279x512_S128x512_151_0 j k (by omega)

/-- The atom sublayer with the kernel's cut weights and one-row biases is the reference's sublayer. -/
theorem atom_eq (ofa : (⟨S100000x151, .f32⟩ : BufTy).Contents (Elt Ideal)) (ag : (⟨S100000x128, .f32⟩ : BufTy).Contents (Elt Ideal)) (w1 : (⟨S279x512, .f32⟩ : BufTy).Contents (Elt Ideal)) (b1 : (⟨S512, .f32⟩ : BufTy).Contents (Elt Ideal))
    (w2 : (⟨S512x128, .f32⟩ : BufTy).Contents (Elt Ideal)) (b2 g be : (⟨S128, .f32⟩ : BufTy).Contents (Elt Ideal)) :
    Cert.Spec.atomArr (A := 100000) ofa ag
        (extractStridedSlice S151x512 ![0, 0] w1 slices_S279x512_S151x512_0_0)
        (extractStridedSlice S128x512 ![151, 0] w1 slices_S279x512_S128x512_151_0)
        (shapeCast S1x512 b1 shapeCasts_S512_S1x512) w2 (shapeCast S1x128 b2 shapeCasts_S128_S1x128)
        (shapeCast S1x128 g shapeCasts_S128_S1x128) (shapeCast S1x128 be shapeCasts_S128_S1x128)
      = Cert.RefFns.atomRef (F := Ideal) ofa ag w1 b1 w2 b2 g be :=
  (Cert.RefIdx.atomRef_eq ofa ag w1 b1 w2 b2 g be _ _ _ _ _ _ (top_apply w1) (bot_apply w1)
    (fun k => row_of_vector_apply b1 shapeCasts_S512_S1x512 k) (fun c => row_of_vector_apply b2 shapeCasts_S128_S1x128 c)
    (fun c => row_of_vector_apply g shapeCasts_S128_S1x128 c) (fun c => row_of_vector_apply be shapeCasts_S128_S1x128 c)).symm

/-- The molecule head with the kernel's one-row biases is the reference's head. -/
theorem mol_eq (xa xb : (⟨S1024x128, .f32⟩ : BufTy).Contents (Elt Ideal)) (w3a : (⟨S128x512, .f32⟩ : BufTy).Contents (Elt Ideal)) (b3a : (⟨S512, .f32⟩ : BufTy).Contents (Elt Ideal)) (w4a : (⟨S512x1, .f32⟩ : BufTy).Contents (Elt Ideal)) (b4a : (⟨S1, .f32⟩ : BufTy).Contents (Elt Ideal))
    (w3b : (⟨S128x512, .f32⟩ : BufTy).Contents (Elt Ideal)) (b3b : (⟨S512, .f32⟩ : BufTy).Contents (Elt Ideal)) (w4b : (⟨S512x1, .f32⟩ : BufTy).Contents (Elt Ideal)) (b4b : (⟨S1, .f32⟩ : BufTy).Contents (Elt Ideal)) :
    Cert.Spec.molArr (M := 1024) xa xb w3a (shapeCast S1x512 b3a shapeCasts_S512_S1x512) w4a (shapeCast S1x1 b4a shapeCasts_S1_S1x1)
        w3b (shapeCast S1x512 b3b shapeCasts_S512_S1x512) w4b (shapeCast S1x1 b4b shapeCasts_S1_S1x1)
      = Cert.RefFns.molRef (F := Ideal) xa xb w3a b3a w4a b4a w3b b3b w4b b4b :=
  (Cert.RefIdx.molRef_eq xa xb w3a b3a w4a b4a w3b b3b w4b b4b _ _ _ _
    (fun k => row_of_vector_apply b3a shapeCasts_S512_S1x512 k) (fun k => row_of_vector_apply b3b shapeCasts_S512_S1x512 k)
    (row_of_vector_apply b4a shapeCasts_S1_S1x1 0) (row_of_vector_apply b4b shapeCasts_S1_S1x1 0)).symm

/-- The kernel's composed value is the reference's result function. -/
theorem final_eq (ao : (⟨S100000x128, .f32⟩ : BufTy).Contents (Elt Ideal)) (bo : (⟨S200000x128, .f32⟩ : BufTy).Contents (Elt Ideal)) (ofa : (⟨S100000x151, .f32⟩ : BufTy).Contents (Elt Ideal))
    (a2a a2b : (⟨S100000x10, .i32⟩ : BufTy).Contents (Elt Ideal)) (mol : (⟨S100000, .i32⟩ : BufTy).Contents (Elt Ideal))
    (w1aa : (⟨S279x512, .f32⟩ : BufTy).Contents (Elt Ideal)) (b1aa : (⟨S512, .f32⟩ : BufTy).Contents (Elt Ideal)) (w2aa : (⟨S512x128, .f32⟩ : BufTy).Contents (Elt Ideal)) (b2aa gaa beaa : (⟨S128, .f32⟩ : BufTy).Contents (Elt Ideal))
    (w1ab : (⟨S279x512, .f32⟩ : BufTy).Contents (Elt Ideal)) (b1ab : (⟨S512, .f32⟩ : BufTy).Contents (Elt Ideal)) (w2ab : (⟨S512x128, .f32⟩ : BufTy).Contents (Elt Ideal)) (b2ab gab beab : (⟨S128, .f32⟩ : BufTy).Contents (Elt Ideal))
    (w3a : (⟨S128x512, .f32⟩ : BufTy).Contents (Elt Ideal)) (b3a : (⟨S512, .f32⟩ : BufTy).Contents (Elt Ideal)) (w4a : (⟨S512x1, .f32⟩ : BufTy).Contents (Elt Ideal)) (b4a : (⟨S1, .f32⟩ : BufTy).Contents (Elt Ideal))
    (w3b : (⟨S128x512, .f32⟩ : BufTy).Contents (Elt Ideal)) (b3b : (⟨S512, .f32⟩ : BufTy).Contents (Elt Ideal)) (w4b : (⟨S512x1, .f32⟩ : BufTy).Contents (Elt Ideal)) (b4b : (⟨S1, .f32⟩ : BufTy).Contents (Elt Ideal)) :
    Cert.Spec.molArr (M := 1024)
        (Cert.KFns.segMean mol (Cert.Spec.atomArr (A := 100000) ofa (Cert.KFns.aggr (Cert.KFns.takeA ao a2a))
          (extractStridedSlice S151x512 ![0, 0] w1aa slices_S279x512_S151x512_0_0)
          (extractStridedSlice S128x512 ![151, 0] w1aa slices_S279x512_S128x512_151_0)
          (shapeCast S1x512 b1aa shapeCasts_S512_S1x512) w2aa (shapeCast S1x128 b2aa shapeCasts_S128_S1x128)
          (shapeCast S1x128 gaa shapeCasts_S128_S1x128) (shapeCast S1x128 beaa shapeCasts_S128_S1x128)))
        (Cert.KFns.segMean mol (Cert.Spec.atomArr (A := 100000) ofa (Cert.KFns.aggr (Cert.KFns.takeB bo a2b))
          (extractStridedSlice S151x512 ![0, 0] w1ab slices_S279x512_S151x512_0_0)
          (extractStridedSlice S128x512 ![151, 0] w1ab slices_S279x512_S128x512_151_0)
          (shapeCast S1x512 b1ab shapeCasts_S512_S1x512) w2ab (shapeCast S1x128 b2ab shapeCasts_S128_S1x128)
          (shapeCast S1x128 gab shapeCasts_S128_S1x128) (shapeCast S1x128 beab shapeCasts_S128_S1x128)))
        w3a (shapeCast S1x512 b3a shapeCasts_S512_S1x512) w4a (shapeCast S1x1 b4a shapeCasts_S1_S1x1)
        w3b (shapeCast S1x512 b3b shapeCasts_S512_S1x512) w4b (shapeCast S1x1 b4b shapeCasts_S1_S1x1)
      = Cert.RefFns.refOut (F := Ideal) ao bo ofa a2a a2b mol w1aa b1aa w2aa b2aa gaa beaa w1ab b1ab w2ab b2ab gab beab
          w3a b3a w4a b4a w3b b3b w4b b4b := by
  rw [mol_eq, atom_eq, atom_eq, Cert.KGlue.segMean_eq, Cert.KGlue.segMean_eq, Cert.KGlue.aggr_eq, Cert.KGlue.aggr_eq,
    Cert.KGlue.takeA_eq, Cert.KGlue.takeB_eq]
  rfl

end Cert.Bridge

end
-- ==== Proof.KValue.lean ====
/-
  The kernel's result as a function of its arguments. The result buffer at the end of the chain is what the
  molecule head's region leaves; that region finds the two per-molecule means of the atom region's two output
  arrays and the head's weights and row-shaped biases; the atom region's outputs are the sublayer of what that
  region finds — the atom features, the two summed neighbour gathers, W1's top and bottom row blocks, the other
  weights and the row-shaped bias, scale and shift vectors. Composed, this is the reference's result function.
-/
import proofs.«100054_j87634512707836_1_alg».proof.Proof.KHost
import proofs.«100054_j87634512707836_1_alg».proof.Proof.KReg0
import proofs.«100054_j87634512707836_1_alg».proof.Proof.KReg1
import proofs.«100054_j87634512707836_1_alg».proof.Proof.KPayAtom
import proofs.«100054_j87634512707836_1_alg».proof.Proof.KPayMol
import proofs.«100054_j87634512707836_1_alg».proof.Proof.Bridge

set_option maxRecDepth 16384

noncomputable section

namespace Cert.KValue

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

set_option maxHeartbeats 8000000 in
/-- What the molecule head's region leaves, in terms of what the atom region leaves and the arguments. -/
theorem head_value (c : Dev nD) :
    W7 (F := Ideal) m ρ c (Proc.devRef .tc main_v38)
      = Cert.Spec.molArr (M := 1024)
          (Cert.KFns.segMean (m ((c.tc : Thread nD τ).loc main_arg5) : (⟨S100000, .i32⟩ : BufTy).Contents (Elt Ideal)) (W5 m ρ c (Proc.devRef .tc main_v16_0)))
          (Cert.KFns.segMean (m ((c.tc : Thread nD τ).loc main_arg5) : (⟨S100000, .i32⟩ : BufTy).Contents (Elt Ideal)) (W5 m ρ c (Proc.devRef .tc main_v16_1)))
          (m ((c.tc : Thread nD τ).loc main_arg18))
          (shapeCast S1x512 (m ((c.tc : Thread nD τ).loc main_arg19) : (⟨S512, .f32⟩ : BufTy).Contents (Elt Ideal)) shapeCasts_S512_S1x512)
          (m ((c.tc : Thread nD τ).loc main_arg20))
          (shapeCast S1x1 (m ((c.tc : Thread nD τ).loc main_arg21) : (⟨S1, .f32⟩ : BufTy).Contents (Elt Ideal)) shapeCasts_S1_S1x1)
          (m ((c.tc : Thread nD τ).loc main_arg22))
          (shapeCast S1x512 (m ((c.tc : Thread nD τ).loc main_arg23) : (⟨S512, .f32⟩ : BufTy).Contents (Elt Ideal)) shapeCasts_S512_S1x512)
          (m ((c.tc : Thread nD τ).loc main_arg24))
          (shapeCast S1x1 (m ((c.tc : Thread nD τ).loc main_arg25) : (⟨S1, .f32⟩ : BufTy).Contents (Elt Ideal)) shapeCasts_S1_S1x1) := by
  rw [Cert.KHost.W7_main_v38, Cert.KReg.arr10 (V6 m ρ) c Cert.KPay.out1_10_eq]
  rw [Cert.KHost.in1_0, Cert.KHost.in1_1, Cert.KHost.in1_2, Cert.KHost.in1_3, Cert.KHost.in1_4, Cert.KHost.in1_5,
    Cert.KHost.in1_6, Cert.KHost.in1_7, Cert.KHost.in1_8, Cert.KHost.in1_9]

set_option maxHeartbeats 8000000 in
/-- What the atom region leaves in its first output array: the sublayer of the atom features and the summed
    gather from the atom table, with the first branch's weights. -/
theorem atomA_value (c : Dev nD) :
    W5 (F := Ideal) m ρ c (Proc.devRef .tc main_v16_0)
      = Cert.Spec.atomArr (A := 100000) (m ((c.tc : Thread nD τ).loc main_arg2)) (Cert.KFns.aggr (Cert.KFns.takeA (m ((c.tc : Thread nD τ).loc main_arg0) : (⟨S100000x128, .f32⟩ : BufTy).Contents (Elt Ideal)) (m ((c.tc : Thread nD τ).loc main_arg3) : (⟨S100000x10, .i32⟩ : BufTy).Contents (Elt Ideal))))
          (extractStridedSlice S151x512 ![0, 0] (m ((c.tc : Thread nD τ).loc main_arg6) : (⟨S279x512, .f32⟩ : BufTy).Contents (Elt Ideal)) slices_S279x512_S151x512_0_0)
          (extractStridedSlice S128x512 ![151, 0] (m ((c.tc : Thread nD τ).loc main_arg6) : (⟨S279x512, .f32⟩ : BufTy).Contents (Elt Ideal)) slices_S279x512_S128x512_151_0)
          (shapeCast S1x512 (m ((c.tc : Thread nD τ).loc main_arg7) : (⟨S512, .f32⟩ : BufTy).Contents (Elt Ideal)) shapeCasts_S512_S1x512) (m ((c.tc : Thread nD τ).loc main_arg8))
          (shapeCast S1x128 (m ((c.tc : Thread nD τ).loc main_arg9) : (⟨S128, .f32⟩ : BufTy).Contents (Elt Ideal)) shapeCasts_S128_S1x128)
          (shapeCast S1x128 (m ((c.tc : Thread nD τ).loc main_arg10) : (⟨S128, .f32⟩ : BufTy).Contents (Elt Ideal)) shapeCasts_S128_S1x128)
          (shapeCast S1x128 (m ((c.tc : Thread nD τ).loc main_arg11) : (⟨S128, .f32⟩ : BufTy).Contents (Elt Ideal)) shapeCasts_S128_S1x128) := by
  rw [Cert.KHost.W5_main_v16_0, Cert.KReg.arr17 (V4 m ρ) c Cert.KPay.out0_17_eq]
  rw [Cert.KHost.in0_0, Cert.KHost.in0_1, Cert.KHost.in0_3, Cert.KHost.in0_4, Cert.KHost.in0_5, Cert.KHost.in0_6,
    Cert.KHost.in0_7, Cert.KHost.in0_8, Cert.KHost.in0_9]

set_option maxHeartbeats 8000000 in
/-- What the atom region leaves in its second output array: the same with the summed gather from the bond table
    and the second branch's weights. -/
theorem atomB_value (c : Dev nD) :
    W5 (F := Ideal) m ρ c (Proc.devRef .tc main_v16_1)
      = Cert.Spec.atomArr (A := 100000) (m ((c.tc : Thread nD τ).loc main_arg2)) (Cert.KFns.aggr (Cert.KFns.takeB (m ((c.tc : Thread nD τ).loc main_arg1) : (⟨S200000x128, .f32⟩ : BufTy).Contents (Elt Ideal)) (m ((c.tc : Thread nD τ).loc main_arg4) : (⟨S100000x10, .i32⟩ : BufTy).Contents (Elt Ideal))))
          (extractStridedSlice S151x512 ![0, 0] (m ((c.tc : Thread nD τ).loc main_arg12) : (⟨S279x512, .f32⟩ : BufTy).Contents (Elt Ideal)) slices_S279x512_S151x512_0_0)
          (extractStridedSlice S128x512 ![151, 0] (m ((c.tc : Thread nD τ).loc main_arg12) : (⟨S279x512, .f32⟩ : BufTy).Contents (Elt Ideal)) slices_S279x512_S128x512_151_0)
          (shapeCast S1x512 (m ((c.tc : Thread nD τ).loc main_arg13) : (⟨S512, .f32⟩ : BufTy).Contents (Elt Ideal)) shapeCasts_S512_S1x512) (m ((c.tc : Thread nD τ).loc main_arg14))
          (shapeCast S1x128 (m ((c.tc : Thread nD τ).loc main_arg15) : (⟨S128, .f32⟩ : BufTy).Contents (Elt Ideal)) shapeCasts_S128_S1x128)
          (shapeCast S1x128 (m ((c.tc : Thread nD τ).loc main_arg16) : (⟨S128, .f32⟩ : BufTy).Contents (Elt Ideal)) shapeCasts_S128_S1x128)
          (shapeCast S1x128 (m ((c.tc : Thread nD τ).loc main_arg17) : (⟨S128, .f32⟩ : BufTy).Contents (Elt Ideal)) shapeCasts_S128_S1x128) := by
  rw [Cert.KHost.W5_main_v16_1, Cert.KReg.arr18 (V4 m ρ) c Cert.KPay.out0_18_eq]
  rw [Cert.KHost.in0_0, Cert.KHost.in0_2, Cert.KHost.in0_10, Cert.KHost.in0_11, Cert.KHost.in0_12, Cert.KHost.in0_13,
    Cert.KHost.in0_14, Cert.KHost.in0_15, Cert.KHost.in0_16]

set_option maxHeartbeats 8000000 in
/-- The kernel's result buffer at the end of its run is the reference's result function of the arguments. -/
theorem kernel_value (c : Dev nD) :
    W7 (F := Ideal) m ρ c (Proc.devRef .tc main_v38)
      = Cert.RefFns.refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  rw [head_value, atomA_value, atomB_value]
  exact Cert.Bridge.final_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))

end Cert.KValue

end
-- ==== Proof.RefOps.lean ====
/-
  The reference program as one straight line of array operations. Its entry function calls five small
  functions (the clamped row gather for each of the two tables, and the rectification at three shapes); a call
  executes the callee's body on the operands, so with every call replaced by that body the program is a list of
  180 operations, each writing one array from arrays written before it. The list is given in consecutive
  stretches, one per mathematical step, and the entry function is shown equal to the list run in order.
-/
import proofs.«100054_j87634512707836_1_alg».proof.ReferenceIdeal
import proofs.«100054_j87634512707836_1_alg».proof.Proof.Gen.ReferenceIdeal
import Idealize.ShloMosaic.Lib.StableHlo.Run
import Idealize.ShloMosaic.Lib.Pipeline.Regions

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## General facts about a line of operations -/

/-- Running two lines one after the other from contents `V`: the second runs from what the first leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every operation of two lines holds of every operation of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- A chain of lines is the line of their concatenation. -/
theorem chain_seq {nD : Nat} {τ : Topo} {sig : RefSig} {Val : EltTy → Type} {Λ : Labels} :
    ∀ ls : List (List (HloOp τ sig Val)),
      (Pipeline.chain (ls.map fun l => (seq l : Prog (TpuEff nD τ sig Val Λ .tc) PUnit))) = seq (ls.foldr (· ++ ·) [])
  | [] => rfl
  | l :: ls => by
    rw [List.map_cons, Pipeline.chain_cons, chain_seq ls, List.foldr_cons, seq_append]

/-! ## The stretches -/

/-- The gather of the first table's rows at the first index array: the 23 operations of the row gather. (23 operations.) -/
abbrev opsTakeA : List (HloOp τ sig (Elt F)) :=
  [ StableHlo.nullary main_call0_c (constantI S_ 32 0#32 : (⟨S_, .i32⟩ : BufTy).Contents (Elt F)),
    StableHlo.unary main_call0_c main_call0_v0 (broadcastInDim S100000x10 ![] bcast_S_S100000x10 : (⟨S_, .i32⟩ : BufTy).Contents (Elt F) → (⟨S100000x10, .i32⟩ : BufTy).Contents (Elt F)),
    StableHlo.binary main_arg3 main_call0_v0 main_call0_v1 (cmpi .slt : (⟨S100000x10, .i32⟩ : BufTy).Contents (Elt F) → (⟨S100000x10, .i32⟩ : BufTy).Contents (Elt F) → (⟨S100000x10, .i1⟩ : BufTy).Contents (Elt F)),
    StableHlo.nullary main_call0_c_0 (constantI S_ 32 100000#32 : (⟨S_, .i32⟩ : BufTy).Contents (Elt F)),
    StableHlo.unary main_call0_c_0 main_call0_v2 (broadcastInDim S100000x10 ![] bcast_S_S100000x10 : (⟨S_, .i32⟩ : BufTy).Contents (Elt F) → (⟨S100000x10, .i32⟩ : BufTy).Contents (Elt F)),
    StableHlo.binary main_arg3 main_call0_v2 main_call0_v3 (addi : (⟨S100000x10, .i32⟩ : BufTy).Contents (Elt F) → (⟨S100000x10, .i32⟩ : BufTy).Contents (Elt F) → (⟨S100000x10, .i32⟩ : BufTy).Contents (Elt F)),
    StableHlo.ternary main_call0_v1 main_call0_v3 main_arg3 main_call0_v4 (select : (⟨S100000x10, .i1⟩ : BufTy).Contents (Elt F) → (⟨S100000x10, .i32⟩ : BufTy).Contents (Elt F) → (⟨S100000x10, .i32⟩ : BufTy).Contents (Elt F) → (⟨S100000x10, .i32⟩ : BufTy).Contents (Elt F)),
    StableHlo.unary main_call0_v4 main_call0_v5 (broadcastInDim S100000x10x1 ![0, 1] bcast_S100000x10_S100000x10x1_0_1 : (⟨S100000x10, .i32⟩ : BufTy).Contents (Elt F) → (⟨S100000x10x1, .i32⟩ : BufTy).Contents (Elt F)),
    StableHlo.nullary main_call0_c_1 (constantI S1 32 99999#32 : (⟨S1, .i32⟩ : BufTy).Contents (Elt F)),
    StableHlo.nullary main_call0_c_2 (constantI S_ 32 0#32 : (⟨S_, .i32⟩ : BufTy).Contents (Elt F)),
    StableHlo.unary main_call0_c_2 main_call0_v6 (broadcastInDim S100000x10x1 ![] bcast_S_S100000x10x1 : (⟨S_, .i32⟩ : BufTy).Contents (Elt F) → (⟨S100000x10x1, .i32⟩ : BufTy).Contents (Elt F)),
    StableHlo.binary main_call0_v5 main_call0_v6 main_call0_v7 (cmpi .sge : (⟨S100000x10x1, .i32⟩ : BufTy).Contents (Elt F) → (⟨S100000x10x1, .i32⟩ : BufTy).Contents (Elt F) → (⟨S100000x10x1, .i1⟩ : BufTy).Contents (Elt F)),
    StableHlo.unary main_call0_c_1 main_call0_v8 (broadcastInDim S1x1x1 ![2] bcast_S1_S1x1x1_2 : (⟨S1, .i32⟩ : BufTy).Contents (Elt F) → (⟨S1x1x1, .i32⟩ : BufTy).Contents (Elt F)),
    StableHlo.unary main_call0_v8 main_call0_v9 (broadcastInDim S100000x10x1 ![0, 1, 2] bcast_S1x1x1_S100000x10x1_0_1_2 : (⟨S1x1x1, .i32⟩ : BufTy).Contents (Elt F) → (⟨S100000x10x1, .i32⟩ : BufTy).Contents (Elt F)),
    StableHlo.binary main_call0_v5 main_call0_v9 main_call0_v10 (cmpi .sle : (⟨S100000x10x1, .i32⟩ : BufTy).Contents (Elt F) → (⟨S100000x10x1, .i32⟩ : BufTy).Contents (Elt F) → (⟨S100000x10x1, .i1⟩ : BufTy).Contents (Elt F)),
    StableHlo.binary main_call0_v7 main_call0_v10 main_call0_v11 (andi : (⟨S100000x10x1, .i1⟩ : BufTy).Contents (Elt F) → (⟨S100000x10x1, .i1⟩ : BufTy).Contents (Elt F) → (⟨S100000x10x1, .i1⟩ : BufTy).Contents (Elt F)),
    StableHlo.nullary main_call0_c_3 (constantI S_ 1 1#1 : (⟨S_, .i1⟩ : BufTy).Contents (Elt F)),
    StableHlo.binary main_call0_v11 main_call0_c_3 main_call0_v12 ((fun x v => Host.reduce IntOp.andi x v reducesTo_S100000x10x1_S100000x10_d2 h_S_) : (⟨S100000x10x1, .i1⟩ : BufTy).Contents (Elt F) → (⟨S_, .i1⟩ : BufTy).Contents (Elt F) → (⟨S100000x10, .i1⟩ : BufTy).Contents (Elt F)),
    StableHlo.binary main_arg0 main_call0_v5 main_call0_v13 ((fun x i => Host.gather gather_S100000x128_S100000x10x1_S100000x10x128_2_0_n_n_0_2_1128 x i) : (⟨S100000x128, .f32⟩ : BufTy).Contents (Elt F) → (⟨S100000x10x1, .i32⟩ : BufTy).Contents (Elt F) → (⟨S100000x10x128, .f32⟩ : BufTy).Contents (Elt F)),
    StableHlo.unary main_call0_v12 main_call0_v14 (broadcastInDim S100000x10x128 ![0, 1] bcast_S100000x10_S100000x10x128_0_1 : (⟨S100000x10, .i1⟩ : BufTy).Contents (Elt F) → (⟨S100000x10x128, .i1⟩ : BufTy).Contents (Elt F)),
    StableHlo.nullary main_call0_cst (constant S_ .f32 0x7FC00000#32 : (⟨S_, .f32⟩ : BufTy).Contents (Elt F)),
    StableHlo.unary main_call0_cst main_call0_v15 (broadcastInDim S100000x10x128 ![] bcast_S_S100000x10x128 : (⟨S_, .f32⟩ : BufTy).Contents (Elt F) → (⟨S100000x10x128, .f32⟩ : BufTy).Contents (Elt F)),
    StableHlo.ternary main_call0_v14 main_call0_v13 main_call0_v15 main_v0 (select : (⟨S100000x10x128, .i1⟩ : BufTy).Contents (Elt F) → (⟨S100000x10x128, .f32⟩ : BufTy).Contents (Elt F) → (⟨S100000x10x128, .f32⟩ : BufTy).Contents (Elt F) → (⟨S100000x10x128, .f32⟩ : BufTy).Contents (Elt F)) ]
theorem opsTakeA_sub : (opsTakeA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsTakeA_fresh : (opsTakeA : List (HloOp τ sig (Elt F))).Forall fun op => op.fresh = ∅ := by
  simp only [List.Forall]; repeat' constructor

/-- The sum of each atom's gathered rows. (2 operations.) -/
abbrev opsAggA : List (HloOp τ sig (Elt F)) :=
  [ StableHlo.nullary main_cst (constant S_ .f32 0x00000000#32),
    StableHlo.binary main_v0 main_cst main_v1 ((fun x v => Host.reduceAdd x v reducesTo_S100000x10x128_S100000x128_d1 h_S_) : (⟨S100000x10x128, .f32⟩ : BufTy).Contents (Elt F) → (⟨S_, .f32⟩ : BufTy).Contents (Elt F) → (⟨S100000x128, .f32⟩ : BufTy).Contents (Elt F)) ]
theorem opsAggA_sub : (opsAggA : List (HloOp τ sig (Elt F))).Forall fun op => op.bufs ⊆ tcRefs τ sig :=
  ⟨nullary_bufs_sub .., binary_bufs_sub ..⟩
theorem opsAggA_fresh : (opsAggA : List (HloOp τ sig (Elt F))).Forall fun op => op.fresh = ∅ := by
  simp only [List.Forall]; repeat' constructor

/-- First branch: features beside the aggregated message, times W1, plus b1. (5 operations.) -/
abbrev opsFfA1 : List (HloOp τ sig (Elt F)) :=
  [ StableHlo.binary main_arg2 main_v1 main_v2 ((fun a b => concatenate S100000x279 1 [⟨S100000x151, a⟩, ⟨S100000x128, b⟩] concatenates_S100000x151_S100000x128_S100000x279_d1) : (⟨S100000x151, .f32⟩ : BufTy).Contents (Elt F) → (⟨S100000x128, .f32⟩ : BufTy).Contents (Elt F) → (⟨S100000x279, .f32⟩ : BufTy).Contents (Elt F)),
    StableHlo.binary main_v2 main_arg6 main_v3 ((fun l r => Host.dotGeneral dot_S100000x279_S279x512_S100000x512_1_0_0_1_n_n none l r) : (⟨S100000x279, .f32⟩ : BufTy).Contents (Elt F) → (⟨S279x512, .f32⟩ : BufTy).Contents (Elt F) → (⟨S100000x512, .f32⟩ : BufTy).Contents (Elt F)),
    StableHlo.unary main_arg7 main_v4 (broadcastInDim S1x512 ![1] bcast_S512_S1x512_1 : (⟨S512, .f32⟩ : BufTy).Contents (Elt F) → (⟨S1x512, .f32⟩ : BufTy).Contents (Elt F)),
    StableHlo.unary main_v4 main_v5 (broadcastInDim S100000x512 ![0, 1] bcast_S1x512_S100000x512_0_1 : (⟨S1x512, .f32⟩ : BufTy).Contents (Elt F) → (⟨S100000x512, .f32⟩ : BufTy).Contents (Elt F)),
    StableHlo.binary main_v3 main_v5 main_v6 (addf : (⟨S100000x512, .f32⟩ : BufTy).Contents (Elt F) → (⟨S100000x512, .f32⟩ : BufTy).Contents (Elt F) → (⟨S100000x512, .f32⟩ : BufTy).Contents (Elt F)) ]
theorem opsFfA1_sub : (opsFfA1 : List (HloOp τ sig (Elt F))).Forall fun op => op.bufs ⊆ tcRefs τ sig :=
  ⟨binary_bufs_sub .., binary_bufs_sub .., unary_bufs_sub .., unary_bufs_sub .., binary_bufs_sub ..⟩
theorem opsFfA1_fresh : (opsFfA1 : List (HloOp τ sig (Elt F))).Forall fun op => op.fresh = ∅ := by
  simp only [List.Forall]; repeat' constructor

/-- First branch: the rectification. (3 operations.) -/
abbrev opsReluA : List (HloOp τ sig (Elt F)) :=
  [ StableHlo.nullary main_call1_cst (constant S_ .f32 0x00000000#32 : (⟨S_, .f32⟩ : BufTy).Contents (Elt F)),
    StableHlo.unary main_call1_cst main_call1_v0 (broadcastInDim S100000x512 ![] bcast_S_S100000x512 : (⟨S_, .f32⟩ : BufTy).Contents (Elt F) → (⟨S100000x512, .f32⟩ : BufTy).Contents (Elt F)),
    StableHlo.binary main_v6 main_call1_v0 main_v7 (maximumf : (⟨S100000x512, .f32⟩ : BufTy).Contents (Elt F) → (⟨S100000x512, .f32⟩ : BufTy).Contents (Elt F) → (⟨S100000x512, .f32⟩ : BufTy).Contents (Elt F)) ]
theorem opsReluA_sub : (opsReluA : List (HloOp τ sig (Elt F))).Forall fun op => op.bufs ⊆ tcRefs τ sig :=
  ⟨nullary_bufs_sub .., unary_bufs_sub .., binary_bufs_sub ..⟩
theorem opsReluA_fresh : (opsReluA : List (HloOp τ sig (Elt F))).Forall fun op => op.fresh = ∅ := by
  simp only [List.Forall]; repeat' constructor

/-- First branch: times W2, plus b2, and the normalisation along the features, scaled and shifted. (33 operations.) -/
abbrev opsFfA2 : List (HloOp τ sig (Elt F)) :=
  [ StableHlo.binary main_v7 main_arg8 main_v8 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    StableHlo.unary main_arg9 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S100000x128 ![0, 1] bcast_S1x128_S100000x128_0_1 : (⟨S1x128, .f32⟩ : BufTy).Contents (Elt F) → (⟨S100000x128, .f32⟩ : BufTy).Contents (Elt F)),
    StableHlo.binary main_v8 main_v10 main_v11 (addf : (⟨S100000x128, .f32⟩ : BufTy).Contents (Elt F) → (⟨S100000x128, .f32⟩ : BufTy).Contents (Elt F) → (⟨S100000x128, .f32⟩ : BufTy).Contents (Elt F)),
    StableHlo.nullary main_cst_0 (constant S_ .f32 0x00000000#32),
    StableHlo.binary main_v11 main_cst_0 main_v12 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v12 main_v13 (broadcastInDim S100000x1 ![0] bcast_S100000_S100000x1_0 : (⟨S100000, .f32⟩ : BufTy).Contents (Elt F) → (⟨S100000x1, .f32⟩ : BufTy).Contents (Elt F)),
    StableHlo.nullary main_cst_1 (constant S_ .f32 0x43000000#32),
    StableHlo.unary main_cst_1 main_v14 (broadcastInDim S100000x1 ![] bcast_S_S100000x1 : (⟨S_, .f32⟩ : BufTy).Contents (Elt F) → (⟨S100000x1, .f32⟩ : BufTy).Contents (Elt F)),
    StableHlo.binary main_v13 main_v14 main_v15 (Host.divf : (⟨S100000x1, .f32⟩ : BufTy).Contents (Elt F) → (⟨S100000x1, .f32⟩ : BufTy).Contents (Elt F) → (⟨S100000x1, .f32⟩ : BufTy).Contents (Elt F)),
    StableHlo.unary main_v15 main_v16 (broadcastInDim S100000x128 ![0, 1] bcast_S100000x1_S100000x128_0_1 : (⟨S100000x1, .f32⟩ : BufTy).Contents (Elt F) → (⟨S100000x128, .f32⟩ : BufTy).Contents (Elt F)),
    StableHlo.binary main_v11 main_v16 main_v17 (subf : (⟨S100000x128, .f32⟩ : BufTy).Contents (Elt F) → (⟨S100000x128, .f32⟩ : BufTy).Contents (Elt F) → (⟨S100000x128, .f32⟩ : BufTy).Contents (Elt F)),
    StableHlo.binary main_v17 main_v17 main_v18 (mulf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x00000000#32),
    StableHlo.binary main_v18 main_cst_2 main_v19 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.nullary main_cst_3 (constant S_ .f32 0x43000000#32),
    StableHlo.unary main_cst_3 main_v21 (broadcastInDim S100000x1 ![] bcast_S_S100000x1 : (⟨S_, .f32⟩ : BufTy).Contents (Elt F) → (⟨S100000x1, .f32⟩ : BufTy).Contents (Elt F)),
    StableHlo.binary main_v20 main_v21 main_v22 (Host.divf : (⟨S100000x1, .f32⟩ : BufTy).Contents (Elt F) → (⟨S100000x1, .f32⟩ : BufTy).Contents (Elt F) → (⟨S100000x1, .f32⟩ : BufTy).Contents (Elt F)),
    StableHlo.unary main_v15 main_v23 (broadcastInDim S100000x128 ![0, 1] bcast_S100000x1_S100000x128_0_1 : (⟨S100000x1, .f32⟩ : BufTy).Contents (Elt F) → (⟨S100000x128, .f32⟩ : BufTy).Contents (Elt F)),
    StableHlo.binary main_v11 main_v23 main_v24 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v25 (broadcastInDim S100000x1 ![] bcast_S_S100000x1 : (⟨S_, .f32⟩ : BufTy).Contents (Elt F) → (⟨S100000x1, .f32⟩ : BufTy).Contents (Elt F)),
    StableHlo.binary main_v22 main_v25 main_v26 (addf : (⟨S100000x1, .f32⟩ : BufTy).Contents (Elt F) → (⟨S100000x1, .f32⟩ : BufTy).Contents (Elt F) → (⟨S100000x1, .f32⟩ : BufTy).Contents (Elt F)),
    StableHlo.unary main_v26 main_v27 (Host.rsqrt : (⟨S100000x1, .f32⟩ : BufTy).Contents (Elt F) → (⟨S100000x1, .f32⟩ : BufTy).Contents (Elt F)),
    StableHlo.unary main_v27 main_v28 (broadcastInDim S100000x128 ![0, 1] bcast_S100000x1_S100000x128_0_1 : (⟨S100000x1, .f32⟩ : BufTy).Contents (Elt F) → (⟨S100000x128, .f32⟩ : BufTy).Contents (Elt F)),
    StableHlo.binary main_v24 main_v28 main_v29 (mulf : (⟨S100000x128, .f32⟩ : BufTy).Contents (Elt F) → (⟨S100000x128, .f32⟩ : BufTy).Contents (Elt F) → (⟨S100000x128, .f32⟩ : BufTy).Contents (Elt F)),
    StableHlo.unary main_arg10 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v31 main_v32 (mulf : (⟨S100000x128, .f32⟩ : BufTy).Contents (Elt F) → (⟨S100000x128, .f32⟩ : BufTy).Contents (Elt F) → (⟨S100000x128, .f32⟩ : BufTy).Contents (Elt F)),
    StableHlo.unary main_arg11 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v34 main_v35 (addf : (⟨S100000x128, .f32⟩ : BufTy).Contents (Elt F) → (⟨S100000x128, .f32⟩ : BufTy).Contents (Elt F) → (⟨S100000x128, .f32⟩ : BufTy).Contents (Elt F)) ]
theorem opsFfA2_sub : (opsFfA2 : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem opsFfA2_fresh : (opsFfA2 : List (HloOp τ sig (Elt F))).Forall fun op => op.fresh = ∅ := by
  simp only [List.Forall]; repeat' constructor

/-- The gather of the second table's rows at the second index array. (23 operations.) -/
abbrev opsTakeB : List (HloOp τ sig (Elt F)) :=
  [ StableHlo.nullary main_call2_c (constantI S_ 32 0#32 : (⟨S_, .i32⟩ : BufTy).Contents (Elt F)),
    StableHlo.unary main_call2_c main_call2_v0 (broadcastInDim S100000x10 ![] bcast_S_S100000x10 : (⟨S_, .i32⟩ : BufTy).Contents (Elt F) → (⟨S100000x10, .i32⟩ : BufTy).Contents (Elt F)),
    StableHlo.binary main_arg4 main_call2_v0 main_call2_v1 (cmpi .slt : (⟨S100000x10, .i32⟩ : BufTy).Contents (Elt F) → (⟨S100000x10, .i32⟩ : BufTy).Contents (Elt F) → (⟨S100000x10, .i1⟩ : BufTy).Contents (Elt F)),
    StableHlo.nullary main_call2_c_0 (constantI S_ 32 200000#32 : (⟨S_, .i32⟩ : BufTy).Contents (Elt F)),
    StableHlo.unary main_call2_c_0 main_call2_v2 (broadcastInDim S100000x10 ![] bcast_S_S100000x10 : (⟨S_, .i32⟩ : BufTy).Contents (Elt F) → (⟨S100000x10, .i32⟩ : BufTy).Contents (Elt F)),
    StableHlo.binary main_arg4 main_call2_v2 main_call2_v3 (addi : (⟨S100000x10, .i32⟩ : BufTy).Contents (Elt F) → (⟨S100000x10, .i32⟩ : BufTy).Contents (Elt F) → (⟨S100000x10, .i32⟩ : BufTy).Contents (Elt F)),
    StableHlo.ternary main_call2_v1 main_call2_v3 main_arg4 main_call2_v4 (select : (⟨S100000x10, .i1⟩ : BufTy).Contents (Elt F) → (⟨S100000x10, .i32⟩ : BufTy).Contents (Elt F) → (⟨S100000x10, .i32⟩ : BufTy).Contents (Elt F) → (⟨S100000x10, .i32⟩ : BufTy).Contents (Elt F)),
    StableHlo.unary main_call2_v4 main_call2_v5 (broadcastInDim S100000x10x1 ![0, 1] bcast_S100000x10_S100000x10x1_0_1 : (⟨S100000x10, .i32⟩ : BufTy).Contents (Elt F) → (⟨S100000x10x1, .i32⟩ : BufTy).Contents (Elt F)),
    StableHlo.nullary main_call2_c_1 (constantI S1 32 199999#32 : (⟨S1, .i32⟩ : BufTy).Contents (Elt F)),
    StableHlo.nullary main_call2_c_2 (constantI S_ 32 0#32 : (⟨S_, .i32⟩ : BufTy).Contents (Elt F)),
    StableHlo.unary main_call2_c_2 main_call2_v6 (broadcastInDim S100000x10x1 ![] bcast_S_S100000x10x1 : (⟨S_, .i32⟩ : BufTy).Contents (Elt F) → (⟨S100000x10x1, .i32⟩ : BufTy).Contents (Elt F)),
    StableHlo.binary main_call2_v5 main_call2_v6 main_call2_v7 (cmpi .sge : (⟨S100000x10x1, .i32⟩ : BufTy).Contents (Elt F) → (⟨S100000x10x1, .i32⟩ : BufTy).Contents (Elt F) → (⟨S100000x10x1, .i1⟩ : BufTy).Contents (Elt F)),
    StableHlo.unary main_call2_c_1 main_call2_v8 (broadcastInDim S1x1x1 ![2] bcast_S1_S1x1x1_2 : (⟨S1, .i32⟩ : BufTy).Contents (Elt F) → (⟨S1x1x1, .i32⟩ : BufTy).Contents (Elt F)),
    StableHlo.unary main_call2_v8 main_call2_v9 (broadcastInDim S100000x10x1 ![0, 1, 2] bcast_S1x1x1_S100000x10x1_0_1_2 : (⟨S1x1x1, .i32⟩ : BufTy).Contents (Elt F) → (⟨S100000x10x1, .i32⟩ : BufTy).Contents (Elt F)),
    StableHlo.binary main_call2_v5 main_call2_v9 main_call2_v10 (cmpi .sle : (⟨S100000x10x1, .i32⟩ : BufTy).Contents (Elt F) → (⟨S100000x10x1, .i32⟩ : BufTy).Contents (Elt F) → (⟨S100000x10x1, .i1⟩ : BufTy).Contents (Elt F)),
    StableHlo.binary main_call2_v7 main_call2_v10 main_call2_v11 (andi : (⟨S100000x10x1, .i1⟩ : BufTy).Contents (Elt F) → (⟨S100000x10x1, .i1⟩ : BufTy).Contents (Elt F) → (⟨S100000x10x1, .i1⟩ : BufTy).Contents (Elt F)),
    StableHlo.nullary main_call2_c_3 (constantI S_ 1 1#1 : (⟨S_, .i1⟩ : BufTy).Contents (Elt F)),
    StableHlo.binary main_call2_v11 main_call2_c_3 main_call2_v12 ((fun x v => Host.reduce IntOp.andi x v reducesTo_S100000x10x1_S100000x10_d2 h_S_) : (⟨S100000x10x1, .i1⟩ : BufTy).Contents (Elt F) → (⟨S_, .i1⟩ : BufTy).Contents (Elt F) → (⟨S100000x10, .i1⟩ : BufTy).Contents (Elt F)),
    StableHlo.binary main_arg1 main_call2_v5 main_call2_v13 ((fun x i => Host.gather gather_S200000x128_S100000x10x1_S100000x10x128_2_0_n_n_0_2_1128 x i) : (⟨S200000x128, .f32⟩ : BufTy).Contents (Elt F) → (⟨S100000x10x1, .i32⟩ : BufTy).Contents (Elt F) → (⟨S100000x10x128, .f32⟩ : BufTy).Contents (Elt F)),
    StableHlo.unary main_call2_v12 main_call2_v14 (broadcastInDim S100000x10x128 ![0, 1] bcast_S100000x10_S100000x10x128_0_1 : (⟨S100000x10, .i1⟩ : BufTy).Contents (Elt F) → (⟨S100000x10x128, .i1⟩ : BufTy).Contents (Elt F)),
    StableHlo.nullary main_call2_cst (constant S_ .f32 0x7FC00000#32 : (⟨S_, .f32⟩ : BufTy).Contents (Elt F)),
    StableHlo.unary main_call2_cst main_call2_v15 (broadcastInDim S100000x10x128 ![] bcast_S_S100000x10x128 : (⟨S_, .f32⟩ : BufTy).Contents (Elt F) → (⟨S100000x10x128, .f32⟩ : BufTy).Contents (Elt F)),
    StableHlo.ternary main_call2_v14 main_call2_v13 main_call2_v15 main_v36 (select : (⟨S100000x10x128, .i1⟩ : BufTy).Contents (Elt F) → (⟨S100000x10x128, .f32⟩ : BufTy).Contents (Elt F) → (⟨S100000x10x128, .f32⟩ : BufTy).Contents (Elt F) → (⟨S100000x10x128, .f32⟩ : BufTy).Contents (Elt F)) ]
theorem opsTakeB_sub : (opsTakeB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsTakeB_fresh : (opsTakeB : List (HloOp τ sig (Elt F))).Forall fun op => op.fresh = ∅ := by
  simp only [List.Forall]; repeat' constructor

/-- The sum of each atom's gathered rows, second branch. (2 operations.) -/
abbrev opsAggB : List (HloOp τ sig (Elt F)) :=
  [ StableHlo.nullary main_cst_5 (constant S_ .f32 0x00000000#32),
    StableHlo.binary main_v36 main_cst_5 main_v37 ((fun x v => Host.reduceAdd x v reducesTo_S100000x10x128_S100000x128_d1 h_S_) : (⟨S100000x10x128, .f32⟩ : BufTy).Contents (Elt F) → (⟨S_, .f32⟩ : BufTy).Contents (Elt F) → (⟨S100000x128, .f32⟩ : BufTy).Contents (Elt F)) ]
theorem opsAggB_sub : (opsAggB : List (HloOp τ sig (Elt F))).Forall fun op => op.bufs ⊆ tcRefs τ sig :=
  ⟨nullary_bufs_sub .., binary_bufs_sub ..⟩
theorem opsAggB_fresh : (opsAggB : List (HloOp τ sig (Elt F))).Forall fun op => op.fresh = ∅ := by
  simp only [List.Forall]; repeat' constructor

/-- Second branch: features beside the aggregated message, times W1, plus b1. (5 operations.) -/
abbrev opsFfB1 : List (HloOp τ sig (Elt F)) :=
  [ StableHlo.binary main_arg2 main_v37 main_v38 ((fun a b => concatenate S100000x279 1 [⟨S100000x151, a⟩, ⟨S100000x128, b⟩] concatenates_S100000x151_S100000x128_S100000x279_d1) : (⟨S100000x151, .f32⟩ : BufTy).Contents (Elt F) → (⟨S100000x128, .f32⟩ : BufTy).Contents (Elt F) → (⟨S100000x279, .f32⟩ : BufTy).Contents (Elt F)),
    StableHlo.binary main_v38 main_arg12 main_v39 ((fun l r => Host.dotGeneral dot_S100000x279_S279x512_S100000x512_1_0_0_1_n_n none l r) : (⟨S100000x279, .f32⟩ : BufTy).Contents (Elt F) → (⟨S279x512, .f32⟩ : BufTy).Contents (Elt F) → (⟨S100000x512, .f32⟩ : BufTy).Contents (Elt F)),
    StableHlo.unary main_arg13 main_v40 (broadcastInDim S1x512 ![1] bcast_S512_S1x512_1 : (⟨S512, .f32⟩ : BufTy).Contents (Elt F) → (⟨S1x512, .f32⟩ : BufTy).Contents (Elt F)),
    StableHlo.unary main_v40 main_v41 (broadcastInDim S100000x512 ![0, 1] bcast_S1x512_S100000x512_0_1 : (⟨S1x512, .f32⟩ : BufTy).Contents (Elt F) → (⟨S100000x512, .f32⟩ : BufTy).Contents (Elt F)),
    StableHlo.binary main_v39 main_v41 main_v42 (addf : (⟨S100000x512, .f32⟩ : BufTy).Contents (Elt F) → (⟨S100000x512, .f32⟩ : BufTy).Contents (Elt F) → (⟨S100000x512, .f32⟩ : BufTy).Contents (Elt F)) ]
theorem opsFfB1_sub : (opsFfB1 : List (HloOp τ sig (Elt F))).Forall fun op => op.bufs ⊆ tcRefs τ sig :=
  ⟨binary_bufs_sub .., binary_bufs_sub .., unary_bufs_sub .., unary_bufs_sub .., binary_bufs_sub ..⟩
theorem opsFfB1_fresh : (opsFfB1 : List (HloOp τ sig (Elt F))).Forall fun op => op.fresh = ∅ := by
  simp only [List.Forall]; repeat' constructor

/-- Second branch: the rectification. (3 operations.) -/
abbrev opsReluB : List (HloOp τ sig (Elt F)) :=
  [ StableHlo.nullary main_call3_cst (constant S_ .f32 0x00000000#32 : (⟨S_, .f32⟩ : BufTy).Contents (Elt F)),
    StableHlo.unary main_call3_cst main_call3_v0 (broadcastInDim S100000x512 ![] bcast_S_S100000x512 : (⟨S_, .f32⟩ : BufTy).Contents (Elt F) → (⟨S100000x512, .f32⟩ : BufTy).Contents (Elt F)),
    StableHlo.binary main_v42 main_call3_v0 main_v43 (maximumf : (⟨S100000x512, .f32⟩ : BufTy).Contents (Elt F) → (⟨S100000x512, .f32⟩ : BufTy).Contents (Elt F) → (⟨S100000x512, .f32⟩ : BufTy).Contents (Elt F)) ]
theorem opsReluB_sub : (opsReluB : List (HloOp τ sig (Elt F))).Forall fun op => op.bufs ⊆ tcRefs τ sig :=
  ⟨nullary_bufs_sub .., unary_bufs_sub .., binary_bufs_sub ..⟩
theorem opsReluB_fresh : (opsReluB : List (HloOp τ sig (Elt F))).Forall fun op => op.fresh = ∅ := by
  simp only [List.Forall]; repeat' constructor

/-- Second branch: times W2, plus b2, and the row sums for the mean. (9 operations.) -/
abbrev opsFfB2a : List (HloOp τ sig (Elt F)) :=
  [ StableHlo.binary main_v43 main_arg14 main_v44 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    StableHlo.unary main_arg15 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x00000000#32),
    StableHlo.binary main_v47 main_cst_6 main_v48 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v48 main_v49 (broadcastInDim S100000x1 ![0] bcast_S100000_S100000x1_0 : (⟨S100000, .f32⟩ : BufTy).Contents (Elt F) → (⟨S100000x1, .f32⟩ : BufTy).Contents (Elt F)),
    StableHlo.nullary main_cst_7 (constant S_ .f32 0x43000000#32),
    StableHlo.unary main_cst_7 main_v50 (broadcastInDim S100000x1 ![] bcast_S_S100000x1 : (⟨S_, .f32⟩ : BufTy).Contents (Elt F) → (⟨S100000x1, .f32⟩ : BufTy).Contents (Elt F)) ]
theorem opsFfB2a_sub : (opsFfB2a : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub ..⟩
theorem opsFfB2a_fresh : (opsFfB2a : List (HloOp τ sig (Elt F))).Forall fun op => op.fresh = ∅ := by
  simp only [List.Forall]; repeat' constructor

/-- Second branch: the rest of the normalisation, scaled and shifted. (24 operations.) -/
abbrev opsFfB2b : List (HloOp τ sig (Elt F)) :=
  [ StableHlo.binary main_v49 main_v50 main_v51 (Host.divf : (⟨S100000x1, .f32⟩ : BufTy).Contents (Elt F) → (⟨S100000x1, .f32⟩ : BufTy).Contents (Elt F) → (⟨S100000x1, .f32⟩ : BufTy).Contents (Elt F)),
    StableHlo.unary main_v51 main_v52 (broadcastInDim S100000x128 ![0, 1] bcast_S100000x1_S100000x128_0_1 : (⟨S100000x1, .f32⟩ : BufTy).Contents (Elt F) → (⟨S100000x128, .f32⟩ : BufTy).Contents (Elt F)),
    StableHlo.binary main_v47 main_v52 main_v53 (subf : (⟨S100000x128, .f32⟩ : BufTy).Contents (Elt F) → (⟨S100000x128, .f32⟩ : BufTy).Contents (Elt F) → (⟨S100000x128, .f32⟩ : BufTy).Contents (Elt F)),
    StableHlo.binary main_v53 main_v53 main_v54 (mulf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x00000000#32),
    StableHlo.binary main_v54 main_cst_8 main_v55 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v55 main_v56 (broadcastInDim S100000x1 ![0] bcast_S100000_S100000x1_0 : (⟨S100000, .f32⟩ : BufTy).Contents (Elt F) → (⟨S100000x1, .f32⟩ : BufTy).Contents (Elt F)),
    StableHlo.nullary main_cst_9 (constant S_ .f32 0x43000000#32),
    StableHlo.unary main_cst_9 main_v57 (broadcastInDim S100000x1 ![] bcast_S_S100000x1 : (⟨S_, .f32⟩ : BufTy).Contents (Elt F) → (⟨S100000x1, .f32⟩ : BufTy).Contents (Elt F)),
    StableHlo.binary main_v56 main_v57 main_v58 (Host.divf : (⟨S100000x1, .f32⟩ : BufTy).Contents (Elt F) → (⟨S100000x1, .f32⟩ : BufTy).Contents (Elt F) → (⟨S100000x1, .f32⟩ : BufTy).Contents (Elt F)),
    StableHlo.unary main_v51 main_v59 (broadcastInDim S100000x128 ![0, 1] bcast_S100000x1_S100000x128_0_1 : (⟨S100000x1, .f32⟩ : BufTy).Contents (Elt F) → (⟨S100000x128, .f32⟩ : BufTy).Contents (Elt F)),
    StableHlo.binary main_v47 main_v59 main_v60 (subf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3727C5AC#32),
    StableHlo.unary main_cst_10 main_v61 (broadcastInDim S100000x1 ![] bcast_S_S100000x1 : (⟨S_, .f32⟩ : BufTy).Contents (Elt F) → (⟨S100000x1, .f32⟩ : BufTy).Contents (Elt F)),
    StableHlo.binary main_v58 main_v61 main_v62 (addf : (⟨S100000x1, .f32⟩ : BufTy).Contents (Elt F) → (⟨S100000x1, .f32⟩ : BufTy).Contents (Elt F) → (⟨S100000x1, .f32⟩ : BufTy).Contents (Elt F)),
    StableHlo.unary main_v62 main_v63 (Host.rsqrt : (⟨S100000x1, .f32⟩ : BufTy).Contents (Elt F) → (⟨S100000x1, .f32⟩ : BufTy).Contents (Elt F)),
    StableHlo.unary main_v63 main_v64 (broadcastInDim S100000x128 ![0, 1] bcast_S100000x1_S100000x128_0_1 : (⟨S100000x1, .f32⟩ : BufTy).Contents (Elt F) → (⟨S100000x128, .f32⟩ : BufTy).Contents (Elt F)),
    StableHlo.binary main_v60 main_v64 main_v65 (mulf : (⟨S100000x128, .f32⟩ : BufTy).Contents (Elt F) → (⟨S100000x128, .f32⟩ : BufTy).Contents (Elt F) → (⟨S100000x128, .f32⟩ : BufTy).Contents (Elt F)),
    StableHlo.unary main_arg16 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S100000x128 ![0, 1] bcast_S1x128_S100000x128_0_1 : (⟨S1x128, .f32⟩ : BufTy).Contents (Elt F) → (⟨S100000x128, .f32⟩ : BufTy).Contents (Elt F)),
    StableHlo.binary main_v65 main_v67 main_v68 (mulf : (⟨S100000x128, .f32⟩ : BufTy).Contents (Elt F) → (⟨S100000x128, .f32⟩ : BufTy).Contents (Elt F) → (⟨S100000x128, .f32⟩ : BufTy).Contents (Elt F)),
    StableHlo.unary main_arg17 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v68 main_v70 main_v71 (addf : (⟨S100000x128, .f32⟩ : BufTy).Contents (Elt F) → (⟨S100000x128, .f32⟩ : BufTy).Contents (Elt F) → (⟨S100000x128, .f32⟩ : BufTy).Contents (Elt F)) ]
theorem opsFfB2b_sub : (opsFfB2b : List (HloOp τ sig (Elt F))).Forall fun op => op.bufs ⊆ tcRefs τ sig :=
  ⟨binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem opsFfB2b_fresh : (opsFfB2b : List (HloOp τ sig (Elt F))).Forall fun op => op.fresh = ∅ := by
  simp only [List.Forall]; repeat' constructor

/-- The per-molecule counts and the two per-molecule means. (22 operations.) -/
abbrev opsSeg : List (HloOp τ sig (Elt F)) :=
  [ StableHlo.nullary main_cst_11 (constant S_ .f32 0x3F800000#32),
    StableHlo.unary main_cst_11 main_v72 (broadcastInDim S100000 ![] bcast_S_S100000 : (⟨S_, .f32⟩ : BufTy).Contents (Elt F) → (⟨S100000, .f32⟩ : BufTy).Contents (Elt F)),
    StableHlo.nullary main_cst_12 (constant S_ .f32 0x00000000#32),
    StableHlo.unary main_cst_12 main_v73 (broadcastInDim S1024 ![] bcast_S_S1024 : (⟨S_, .f32⟩ : BufTy).Contents (Elt F) → (⟨S1024, .f32⟩ : BufTy).Contents (Elt F)),
    StableHlo.unary main_arg5 main_v74 (broadcastInDim S100000x1 ![0] bcast_S100000_S100000x1_0 : (⟨S100000, .i32⟩ : BufTy).Contents (Elt F) → (⟨S100000x1, .i32⟩ : BufTy).Contents (Elt F)),
    StableHlo.ternary main_v73 main_v74 main_v72 main_v75 ((fun x i u => Host.scatterAdd scatter_S1024_S100000x1_S100000_n_0_0_1 x i u) : (⟨S1024, .f32⟩ : BufTy).Contents (Elt F) → (⟨S100000x1, .i32⟩ : BufTy).Contents (Elt F) → (⟨S100000, .f32⟩ : BufTy).Contents (Elt F) → (⟨S1024, .f32⟩ : BufTy).Contents (Elt F)),
    StableHlo.nullary main_cst_13 (constant S_ .f32 0x3F800000#32),
    StableHlo.unary main_cst_13 main_v76 (broadcastInDim S1024 ![] bcast_S_S1024 : (⟨S_, .f32⟩ : BufTy).Contents (Elt F) → (⟨S1024, .f32⟩ : BufTy).Contents (Elt F)),
    StableHlo.binary main_v75 main_v76 main_v77 (maximumf : (⟨S1024, .f32⟩ : BufTy).Contents (Elt F) → (⟨S1024, .f32⟩ : BufTy).Contents (Elt F) → (⟨S1024, .f32⟩ : BufTy).Contents (Elt F)),
    StableHlo.unary main_v77 main_v78 (broadcastInDim S1024x1 ![0] bcast_S1024_S1024x1_0 : (⟨S1024, .f32⟩ : BufTy).Contents (Elt F) → (⟨S1024x1, .f32⟩ : BufTy).Contents (Elt F)),
    StableHlo.nullary main_cst_14 (constant S_ .f32 0x00000000#32),
    StableHlo.unary main_cst_14 main_v79 (broadcastInDim S1024x128 ![] bcast_S_S1024x128 : (⟨S_, .f32⟩ : BufTy).Contents (Elt F) → (⟨S1024x128, .f32⟩ : BufTy).Contents (Elt F)),
    StableHlo.unary main_arg5 main_v80 (broadcastInDim S100000x1 ![0] bcast_S100000_S100000x1_0 : (⟨S100000, .i32⟩ : BufTy).Contents (Elt F) → (⟨S100000x1, .i32⟩ : BufTy).Contents (Elt F)),
    StableHlo.ternary main_v79 main_v80 main_v35 main_v81 ((fun x i u => Host.scatterAdd scatter_S1024x128_S100000x1_S100000x128_1_0_0_1 x i u) : (⟨S1024x128, .f32⟩ : BufTy).Contents (Elt F) → (⟨S100000x1, .i32⟩ : BufTy).Contents (Elt F) → (⟨S100000x128, .f32⟩ : BufTy).Contents (Elt F) → (⟨S1024x128, .f32⟩ : BufTy).Contents (Elt F)),
    StableHlo.unary main_v78 main_v82 (broadcastInDim S1024x128 ![0, 1] bcast_S1024x1_S1024x128_0_1 : (⟨S1024x1, .f32⟩ : BufTy).Contents (Elt F) → (⟨S1024x128, .f32⟩ : BufTy).Contents (Elt F)),
    StableHlo.binary main_v81 main_v82 main_v83 (Host.divf : (⟨S1024x128, .f32⟩ : BufTy).Contents (Elt F) → (⟨S1024x128, .f32⟩ : BufTy).Contents (Elt F) → (⟨S1024x128, .f32⟩ : BufTy).Contents (Elt F)),
    StableHlo.nullary main_cst_15 (constant S_ .f32 0x00000000#32),
    StableHlo.unary main_cst_15 main_v84 (broadcastInDim S1024x128 ![] bcast_S_S1024x128 : (⟨S_, .f32⟩ : BufTy).Contents (Elt F) → (⟨S1024x128, .f32⟩ : BufTy).Contents (Elt F)),
    StableHlo.unary main_arg5 main_v85 (broadcastInDim S100000x1 ![0] bcast_S100000_S100000x1_0 : (⟨S100000, .i32⟩ : BufTy).Contents (Elt F) → (⟨S100000x1, .i32⟩ : BufTy).Contents (Elt F)),
    StableHlo.ternary main_v84 main_v85 main_v71 main_v86 ((fun x i u => Host.scatterAdd scatter_S1024x128_S100000x1_S100000x128_1_0_0_1 x i u) : (⟨S1024x128, .f32⟩ : BufTy).Contents (Elt F) → (⟨S100000x1, .i32⟩ : BufTy).Contents (Elt F) → (⟨S100000x128, .f32⟩ : BufTy).Contents (Elt F) → (⟨S1024x128, .f32⟩ : BufTy).Contents (Elt F)),
    StableHlo.unary main_v78 main_v87 (broadcastInDim S1024x128 ![0, 1] bcast_S1024x1_S1024x128_0_1 : (⟨S1024x1, .f32⟩ : BufTy).Contents (Elt F) → (⟨S1024x128, .f32⟩ : BufTy).Contents (Elt F)),
    StableHlo.binary main_v86 main_v87 main_v88 (Host.divf : (⟨S1024x128, .f32⟩ : BufTy).Contents (Elt F) → (⟨S1024x128, .f32⟩ : BufTy).Contents (Elt F) → (⟨S1024x128, .f32⟩ : BufTy).Contents (Elt F)) ]
theorem opsSeg_sub : (opsSeg : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., unary_bufs_sub .., binary_bufs_sub .., nullary_bufs_sub .., unary_bufs_sub .., unary_bufs_sub .., ternary_bufs_sub .., unary_bufs_sub .., binary_bufs_sub ..⟩
theorem opsSeg_fresh : (opsSeg : List (HloOp τ sig (Elt F))).Forall fun op => op.fresh = ∅ := by
  simp only [List.Forall]; repeat' constructor

/-- First head: the mean rows times W3, plus b3. (4 operations.) -/
abbrev opsHd1 : List (HloOp τ sig (Elt F)) :=
  [ StableHlo.binary main_v83 main_arg18 main_v89 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.unary main_arg19 main_v90 (broadcastInDim S1x512 ![1] bcast_S512_S1x512_1 : (⟨S512, .f32⟩ : BufTy).Contents (Elt F) → (⟨S1x512, .f32⟩ : BufTy).Contents (Elt F)),
    StableHlo.unary main_v90 main_v91 (broadcastInDim S1024x512 ![0, 1] bcast_S1x512_S1024x512_0_1 : (⟨S1x512, .f32⟩ : BufTy).Contents (Elt F) → (⟨S1024x512, .f32⟩ : BufTy).Contents (Elt F)),
    StableHlo.binary main_v89 main_v91 main_v92 (addf : (⟨S1024x512, .f32⟩ : BufTy).Contents (Elt F) → (⟨S1024x512, .f32⟩ : BufTy).Contents (Elt F) → (⟨S1024x512, .f32⟩ : BufTy).Contents (Elt F)) ]
theorem opsHd1_sub : (opsHd1 : List (HloOp τ sig (Elt F))).Forall fun op => op.bufs ⊆ tcRefs τ sig :=
  ⟨binary_bufs_sub .., unary_bufs_sub .., unary_bufs_sub .., binary_bufs_sub ..⟩
theorem opsHd1_fresh : (opsHd1 : List (HloOp τ sig (Elt F))).Forall fun op => op.fresh = ∅ := by
  simp only [List.Forall]; repeat' constructor

/-- First head: the rectification. (3 operations.) -/
abbrev opsRelu4 : List (HloOp τ sig (Elt F)) :=
  [ StableHlo.nullary main_call4_cst (constant S_ .f32 0x00000000#32 : (⟨S_, .f32⟩ : BufTy).Contents (Elt F)),
    StableHlo.unary main_call4_cst main_call4_v0 (broadcastInDim S1024x512 ![] bcast_S_S1024x512 : (⟨S_, .f32⟩ : BufTy).Contents (Elt F) → (⟨S1024x512, .f32⟩ : BufTy).Contents (Elt F)),
    StableHlo.binary main_v92 main_call4_v0 main_v93 (maximumf : (⟨S1024x512, .f32⟩ : BufTy).Contents (Elt F) → (⟨S1024x512, .f32⟩ : BufTy).Contents (Elt F) → (⟨S1024x512, .f32⟩ : BufTy).Contents (Elt F)) ]
theorem opsRelu4_sub : (opsRelu4 : List (HloOp τ sig (Elt F))).Forall fun op => op.bufs ⊆ tcRefs τ sig :=
  ⟨nullary_bufs_sub .., unary_bufs_sub .., binary_bufs_sub ..⟩
theorem opsRelu4_fresh : (opsRelu4 : List (HloOp τ sig (Elt F))).Forall fun op => op.fresh = ∅ := by
  simp only [List.Forall]; repeat' constructor

/-- First head: times W4, plus b4; second head: the mean rows times W3, plus b3. (8 operations.) -/
abbrev opsHd2 : List (HloOp τ sig (Elt F)) :=
  [ StableHlo.binary main_v93 main_arg20 main_v94 ((fun l r => Host.dotGeneral dot_S1024x512_S512x1_S1024x1_1_0_0_1_n_n none l r) : (⟨S1024x512, .f32⟩ : BufTy).Contents (Elt F) → (⟨S512x1, .f32⟩ : BufTy).Contents (Elt F) → (⟨S1024x1, .f32⟩ : BufTy).Contents (Elt F)),
    StableHlo.unary main_arg21 main_v95 (broadcastInDim S1x1 ![1] bcast_S1_S1x1_1 : (⟨S1, .f32⟩ : BufTy).Contents (Elt F) → (⟨S1x1, .f32⟩ : BufTy).Contents (Elt F)),
    StableHlo.unary main_v95 main_v96 (broadcastInDim S1024x1 ![0, 1] bcast_S1x1_S1024x1_0_1 : (⟨S1x1, .f32⟩ : BufTy).Contents (Elt F) → (⟨S1024x1, .f32⟩ : BufTy).Contents (Elt F)),
    StableHlo.binary main_v94 main_v96 main_v97 (addf : (⟨S1024x1, .f32⟩ : BufTy).Contents (Elt F) → (⟨S1024x1, .f32⟩ : BufTy).Contents (Elt F) → (⟨S1024x1, .f32⟩ : BufTy).Contents (Elt F)),
    StableHlo.binary main_v88 main_arg22 main_v98 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.unary main_arg23 main_v99 (broadcastInDim S1x512 ![1] bcast_S512_S1x512_1 : (⟨S512, .f32⟩ : BufTy).Contents (Elt F) → (⟨S1x512, .f32⟩ : BufTy).Contents (Elt F)),
    StableHlo.unary main_v99 main_v100 (broadcastInDim S1024x512 ![0, 1] bcast_S1x512_S1024x512_0_1 : (⟨S1x512, .f32⟩ : BufTy).Contents (Elt F) → (⟨S1024x512, .f32⟩ : BufTy).Contents (Elt F)),
    StableHlo.binary main_v98 main_v100 main_v101 (addf : (⟨S1024x512, .f32⟩ : BufTy).Contents (Elt F) → (⟨S1024x512, .f32⟩ : BufTy).Contents (Elt F) → (⟨S1024x512, .f32⟩ : BufTy).Contents (Elt F)) ]
theorem opsHd2_sub : (opsHd2 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩
theorem opsHd2_fresh : (opsHd2 : List (HloOp τ sig (Elt F))).Forall fun op => op.fresh = ∅ := by
  simp only [List.Forall]; repeat' constructor

/-- Second head: the rectification. (3 operations.) -/
abbrev opsRelu5 : List (HloOp τ sig (Elt F)) :=
  [ StableHlo.nullary main_call5_cst (constant S_ .f32 0x00000000#32 : (⟨S_, .f32⟩ : BufTy).Contents (Elt F)),
    StableHlo.unary main_call5_cst main_call5_v0 (broadcastInDim S1024x512 ![] bcast_S_S1024x512 : (⟨S_, .f32⟩ : BufTy).Contents (Elt F) → (⟨S1024x512, .f32⟩ : BufTy).Contents (Elt F)),
    StableHlo.binary main_v101 main_call5_v0 main_v102 (maximumf : (⟨S1024x512, .f32⟩ : BufTy).Contents (Elt F) → (⟨S1024x512, .f32⟩ : BufTy).Contents (Elt F) → (⟨S1024x512, .f32⟩ : BufTy).Contents (Elt F)) ]
theorem opsRelu5_sub : (opsRelu5 : List (HloOp τ sig (Elt F))).Forall fun op => op.bufs ⊆ tcRefs τ sig :=
  ⟨nullary_bufs_sub .., unary_bufs_sub .., binary_bufs_sub ..⟩
theorem opsRelu5_fresh : (opsRelu5 : List (HloOp τ sig (Elt F))).Forall fun op => op.fresh = ∅ := by
  simp only [List.Forall]; repeat' constructor

/-- Second head: times W4, plus b4; the two heads added and halved. (8 operations.) -/
abbrev opsHd3 : List (HloOp τ sig (Elt F)) :=
  [ StableHlo.binary main_v102 main_arg24 main_v103 ((fun l r => Host.dotGeneral dot_S1024x512_S512x1_S1024x1_1_0_0_1_n_n none l r) : (⟨S1024x512, .f32⟩ : BufTy).Contents (Elt F) → (⟨S512x1, .f32⟩ : BufTy).Contents (Elt F) → (⟨S1024x1, .f32⟩ : BufTy).Contents (Elt F)),
    StableHlo.unary main_arg25 main_v104 (broadcastInDim S1x1 ![1] bcast_S1_S1x1_1 : (⟨S1, .f32⟩ : BufTy).Contents (Elt F) → (⟨S1x1, .f32⟩ : BufTy).Contents (Elt F)),
    StableHlo.unary main_v104 main_v105 (broadcastInDim S1024x1 ![0, 1] bcast_S1x1_S1024x1_0_1 : (⟨S1x1, .f32⟩ : BufTy).Contents (Elt F) → (⟨S1024x1, .f32⟩ : BufTy).Contents (Elt F)),
    StableHlo.binary main_v103 main_v105 main_v106 (addf : (⟨S1024x1, .f32⟩ : BufTy).Contents (Elt F) → (⟨S1024x1, .f32⟩ : BufTy).Contents (Elt F) → (⟨S1024x1, .f32⟩ : BufTy).Contents (Elt F)),
    StableHlo.binary main_v97 main_v106 main_v107 (addf : (⟨S1024x1, .f32⟩ : BufTy).Contents (Elt F) → (⟨S1024x1, .f32⟩ : BufTy).Contents (Elt F) → (⟨S1024x1, .f32⟩ : BufTy).Contents (Elt F)),
    StableHlo.nullary main_cst_16 (constant S_ .f32 0x3F000000#32),
    StableHlo.unary main_cst_16 main_v108 (broadcastInDim S1024x1 ![] bcast_S_S1024x1 : (⟨S_, .f32⟩ : BufTy).Contents (Elt F) → (⟨S1024x1, .f32⟩ : BufTy).Contents (Elt F)),
    StableHlo.binary main_v107 main_v108 main_v109 (mulf : (⟨S1024x1, .f32⟩ : BufTy).Contents (Elt F) → (⟨S1024x1, .f32⟩ : BufTy).Contents (Elt F) → (⟨S1024x1, .f32⟩ : BufTy).Contents (Elt F)) ]
theorem opsHd3_sub : (opsHd3 : List (HloOp τ sig (Elt F))).Forall fun op => op.bufs ⊆ tcRefs τ sig :=
  ⟨binary_bufs_sub .., unary_bufs_sub .., unary_bufs_sub .., binary_bufs_sub .., binary_bufs_sub .., nullary_bufs_sub .., unary_bufs_sub .., binary_bufs_sub ..⟩
theorem opsHd3_fresh : (opsHd3 : List (HloOp τ sig (Elt F))).Forall fun op => op.fresh = ∅ := by
  simp only [List.Forall]; repeat' constructor

/-! ## The whole line -/

/-- The stretches in order. -/
abbrev stretches : List (List (HloOp τ sig (Elt F))) :=
  [opsTakeA, opsAggA, opsFfA1, opsReluA, opsFfA2, opsTakeB, opsAggB, opsFfB1, opsReluB, opsFfB2a, opsFfB2b, opsSeg, opsHd1, opsRelu4, opsHd2, opsRelu5, opsHd3]

/-- The reference's 180 operations, in order. -/
abbrev ops : List (HloOp τ sig (Elt F)) :=
  opsTakeA ++ (opsAggA ++ (opsFfA1 ++ (opsReluA ++ (opsFfA2 ++ (opsTakeB ++ (opsAggB ++ (opsFfB1 ++ (opsReluB ++ (opsFfB2a ++ (opsFfB2b ++ (opsSeg ++ (opsHd1 ++ (opsRelu4 ++ (opsHd2 ++ (opsRelu5 ++ (opsHd3 ++ []))))))))))))))))

theorem ops_eq : (ops : List (HloOp τ sig (Elt F))) = stretches.foldr (· ++ ·) [] := rfl

/-- The first part of the entry function: its stretches run in order, the last in tail position. -/
theorem main_part0_eq (c : Dev nD) : main_part0 (F := F) c = (Pipeline.chainK
  [ seq opsTakeA,
    seq opsAggA,
    seq opsFfA1,
    seq opsReluA,
    seq opsFfA2,
    seq opsTakeB,
    seq opsAggB,
    seq opsFfB1,
    seq opsReluB ]
  (seq opsFfB2a) : Prog (TpuEff nD τ sig (Elt F) (Pipeline.Sig Λ₀ (Fin 0) fun p => (pcfgs (F := F) p).Adm) .tc) PUnit) := by
  chain_rfl

/-- The second part. -/
theorem main_part1_eq (c : Dev nD) : main_part1 (F := F) c = (Pipeline.chainK
  [ seq opsFfB2b,
    seq opsSeg,
    seq opsHd1,
    seq opsRelu4,
    seq opsHd2 ]
  (seq opsRelu5) : Prog (TpuEff nD τ sig (Elt F) (Pipeline.Sig Λ₀ (Fin 0) fun p => (pcfgs (F := F) p).Adm) .tc) PUnit) := by
  chain_rfl

/-- The last part. -/
theorem main_part2_eq (c : Dev nD) : main_part2 (F := F) c = (Pipeline.chain
  [ seq opsHd3 ] : Prog (TpuEff nD τ sig (Elt F) (Pipeline.Sig Λ₀ (Fin 0) fun p => (pcfgs (F := F) p).Adm) .tc) PUnit) := by
  chain_rfl

/-- The entry function is its 180 operations run in order. -/
theorem main_eq (c : Dev nD) : main (F := F) c = seq ops := by
  have h : main (F := F) c = (main_part0 (F := F) c >>= fun _ => main_part1 (F := F) c >>= fun _ => main_part2 (F := F) c) := rfl
  rw [h, main_part0_eq, main_part1_eq, main_part2_eq, Pipeline.chainK_bind_chain, Pipeline.chainK_bind_chain, ops_eq, ← chain_seq]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append opsTakeA_sub (forall_append opsAggA_sub (forall_append opsFfA1_sub (forall_append opsReluA_sub (forall_append opsFfA2_sub (forall_append opsTakeB_sub (forall_append opsAggB_sub (forall_append opsFfB1_sub (forall_append opsReluB_sub (forall_append opsFfB2a_sub (forall_append opsFfB2b_sub (forall_append opsSeg_sub (forall_append opsHd1_sub (forall_append opsRelu4_sub (forall_append opsHd2_sub (forall_append opsRelu5_sub (forall_append opsHd3_sub (trivial)))))))))))))))))

theorem ops_fresh : (ops : List (HloOp τ sig (Elt F))).Forall fun op => op.fresh = ∅ :=
  forall_append opsTakeA_fresh (forall_append opsAggA_fresh (forall_append opsFfA1_fresh (forall_append opsReluA_fresh (forall_append opsFfA2_fresh (forall_append opsTakeB_fresh (forall_append opsAggB_fresh (forall_append opsFfB1_fresh (forall_append opsReluB_fresh (forall_append opsFfB2a_fresh (forall_append opsFfB2b_fresh (forall_append opsSeg_fresh (forall_append opsHd1_fresh (forall_append opsRelu4_fresh (forall_append opsHd2_fresh (forall_append opsRelu5_fresh (forall_append opsHd3_fresh (trivial)))))))))))))))))

end Cert.RefRun

end
-- ==== Proof.RefFrame.lean ====
/-
  Which arrays each stage of the reference writes. The reference's line of operations is grouped into eight
  stages (two gathers, two neighbour sums, two feed-forward sublayers with their normalisation, the per-molecule
  means, the two heads); each stage writes a known list of arrays and leaves every other array as it was, and the
  whole line is the stages run in order.
-/
import proofs.«100054_j87634512707836_1_alg».proof.Proof.RefOps

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## Which arrays a stretch writes -/

/-- An operation whose only written array is `y` writes within any list of arrays holding `y`. -/
theorem writes_sub_of_mem {W : List (Ref sig .tc)} {y : Ref sig .tc} {s : Finset (DevRef τ sig)}
    (hs : s = {Proc.devRef .tc y}) (hy : y ∈ W) : s ⊆ (W.map (Proc.devRef (τ := τ) .tc)).toFinset := by
  subst hs
  exact Finset.singleton_subset_iff.mpr (List.mem_toFinset.mpr (List.mem_map.mpr ⟨y, hy, rfl⟩))

/-- The arrays written by: the first gather. -/
abbrev wTakeA : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
theorem opsTakeA_writes : (opsTakeA : List (HloOp τ sig (Elt F))).Forall fun op => op.writes ⊆ ((wTakeA).map (Proc.devRef (τ := τ) .tc)).toFinset :=
  ⟨writes_sub_of_mem (y := main_call0_c) rfl (by decide),
   writes_sub_of_mem (y := main_call0_v0) rfl (by decide),
   writes_sub_of_mem (y := main_call0_v1) rfl (by decide),
   writes_sub_of_mem (y := main_call0_c_0) rfl (by decide),
   writes_sub_of_mem (y := main_call0_v2) rfl (by decide),
   writes_sub_of_mem (y := main_call0_v3) rfl (by decide),
   writes_sub_of_mem (y := main_call0_v4) rfl (by decide),
   writes_sub_of_mem (y := main_call0_v5) rfl (by decide),
   writes_sub_of_mem (y := main_call0_c_1) rfl (by decide),
   writes_sub_of_mem (y := main_call0_c_2) rfl (by decide),
   writes_sub_of_mem (y := main_call0_v6) rfl (by decide),
   writes_sub_of_mem (y := main_call0_v7) rfl (by decide),
   writes_sub_of_mem (y := main_call0_v8) rfl (by decide),
   writes_sub_of_mem (y := main_call0_v9) rfl (by decide),
   writes_sub_of_mem (y := main_call0_v10) rfl (by decide),
   writes_sub_of_mem (y := main_call0_v11) rfl (by decide),
   writes_sub_of_mem (y := main_call0_c_3) rfl (by decide),
   writes_sub_of_mem (y := main_call0_v12) rfl (by decide),
   writes_sub_of_mem (y := main_call0_v13) rfl (by decide),
   writes_sub_of_mem (y := main_call0_v14) rfl (by decide),
   writes_sub_of_mem (y := main_call0_cst) rfl (by decide),
   writes_sub_of_mem (y := main_call0_v15) rfl (by decide),
   writes_sub_of_mem (y := main_v0) rfl (by decide)⟩
/-- The first gather. -/
abbrev gTakeA : List (HloOp τ sig (Elt F)) := opsTakeA
/-- An array this stage does not write keeps its contents. -/
theorem gTakeA_frame (V : Valuation τ sig (Elt F)) {r : Ref sig .tc} (hr : r ∉ wTakeA) :
    after gTakeA V (no_index (Proc.devRef .tc r)) = V (Proc.devRef .tc r) :=
  after_of_writes_sub gTakeA V opsTakeA_writes hr

/-- The arrays written by: the first neighbour sum. -/
abbrev wAggA : List (Ref sig .tc) :=
  [main_cst, main_v1]
theorem opsAggA_writes : (opsAggA : List (HloOp τ sig (Elt F))).Forall fun op => op.writes ⊆ ((wAggA).map (Proc.devRef (τ := τ) .tc)).toFinset :=
  ⟨writes_sub_of_mem (y := main_cst) rfl (by decide),
   writes_sub_of_mem (y := main_v1) rfl (by decide)⟩
/-- The first neighbour sum. -/
abbrev gAggA : List (HloOp τ sig (Elt F)) := opsAggA
/-- An array this stage does not write keeps its contents. -/
theorem gAggA_frame (V : Valuation τ sig (Elt F)) {r : Ref sig .tc} (hr : r ∉ wAggA) :
    after gAggA V (no_index (Proc.devRef .tc r)) = V (Proc.devRef .tc r) :=
  after_of_writes_sub gAggA V opsAggA_writes hr

/-- The arrays written by: the first branch's feed-forward sublayer and normalisation. -/
abbrev wAtomA : List (Ref sig .tc) :=
  [main_v2, main_v3, main_v4, main_v5, main_v6, main_call1_cst, main_call1_v0, main_v7, main_v8, main_v9, main_v10, main_v11, main_cst_0, main_v12, main_v13, main_cst_1, main_v14, main_v15, main_v16, main_v17, main_v18, main_cst_2, main_v19, main_v20, main_cst_3, main_v21, main_v22, main_v23, main_v24, main_cst_4, main_v25, main_v26, main_v27, main_v28, main_v29, main_v30, main_v31, main_v32, main_v33, main_v34, main_v35]
theorem opsFfA1_writes : (opsFfA1 : List (HloOp τ sig (Elt F))).Forall fun op => op.writes ⊆ ((wAtomA).map (Proc.devRef (τ := τ) .tc)).toFinset :=
  ⟨writes_sub_of_mem (y := main_v2) rfl (by decide),
   writes_sub_of_mem (y := main_v3) rfl (by decide),
   writes_sub_of_mem (y := main_v4) rfl (by decide),
   writes_sub_of_mem (y := main_v5) rfl (by decide),
   writes_sub_of_mem (y := main_v6) rfl (by decide)⟩
theorem opsReluA_writes : (opsReluA : List (HloOp τ sig (Elt F))).Forall fun op => op.writes ⊆ ((wAtomA).map (Proc.devRef (τ := τ) .tc)).toFinset :=
  ⟨writes_sub_of_mem (y := main_call1_cst) rfl (by decide),
   writes_sub_of_mem (y := main_call1_v0) rfl (by decide),
   writes_sub_of_mem (y := main_v7) rfl (by decide)⟩
theorem opsFfA2_writes : (opsFfA2 : List (HloOp τ sig (Elt F))).Forall fun op => op.writes ⊆ ((wAtomA).map (Proc.devRef (τ := τ) .tc)).toFinset :=
  ⟨writes_sub_of_mem (y := main_v8) rfl (by decide),
   writes_sub_of_mem (y := main_v9) rfl (by decide),
   writes_sub_of_mem (y := main_v10) rfl (by decide),
   writes_sub_of_mem (y := main_v11) rfl (by decide),
   writes_sub_of_mem (y := main_cst_0) rfl (by decide),
   writes_sub_of_mem (y := main_v12) rfl (by decide),
   writes_sub_of_mem (y := main_v13) rfl (by decide),
   writes_sub_of_mem (y := main_cst_1) rfl (by decide),
   writes_sub_of_mem (y := main_v14) rfl (by decide),
   writes_sub_of_mem (y := main_v15) rfl (by decide),
   writes_sub_of_mem (y := main_v16) rfl (by decide),
   writes_sub_of_mem (y := main_v17) rfl (by decide),
   writes_sub_of_mem (y := main_v18) rfl (by decide),
   writes_sub_of_mem (y := main_cst_2) rfl (by decide),
   writes_sub_of_mem (y := main_v19) rfl (by decide),
   writes_sub_of_mem (y := main_v20) rfl (by decide),
   writes_sub_of_mem (y := main_cst_3) rfl (by decide),
   writes_sub_of_mem (y := main_v21) rfl (by decide),
   writes_sub_of_mem (y := main_v22) rfl (by decide),
   writes_sub_of_mem (y := main_v23) rfl (by decide),
   writes_sub_of_mem (y := main_v24) rfl (by decide),
   writes_sub_of_mem (y := main_cst_4) rfl (by decide),
   writes_sub_of_mem (y := main_v25) rfl (by decide),
   writes_sub_of_mem (y := main_v26) rfl (by decide),
   writes_sub_of_mem (y := main_v27) rfl (by decide),
   writes_sub_of_mem (y := main_v28) rfl (by decide),
   writes_sub_of_mem (y := main_v29) rfl (by decide),
   writes_sub_of_mem (y := main_v30) rfl (by decide),
   writes_sub_of_mem (y := main_v31) rfl (by decide),
   writes_sub_of_mem (y := main_v32) rfl (by decide),
   writes_sub_of_mem (y := main_v33) rfl (by decide),
   writes_sub_of_mem (y := main_v34) rfl (by decide),
   writes_sub_of_mem (y := main_v35) rfl (by decide)⟩
/-- The first branch's feed-forward sublayer and normalisation. -/
abbrev gAtomA : List (HloOp τ sig (Elt F)) := opsFfA1 ++ opsReluA ++ opsFfA2
/-- An array this stage does not write keeps its contents. -/
theorem gAtomA_frame (V : Valuation τ sig (Elt F)) {r : Ref sig .tc} (hr : r ∉ wAtomA) :
    after gAtomA V (no_index (Proc.devRef .tc r)) = V (Proc.devRef .tc r) :=
  after_of_writes_sub gAtomA V (forall_append (forall_append opsFfA1_writes opsReluA_writes) opsFfA2_writes) hr

/-- The arrays written by: the second gather. -/
abbrev wTakeB : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v36]
theorem opsTakeB_writes : (opsTakeB : List (HloOp τ sig (Elt F))).Forall fun op => op.writes ⊆ ((wTakeB).map (Proc.devRef (τ := τ) .tc)).toFinset :=
  ⟨writes_sub_of_mem (y := main_call2_c) rfl (by decide),
   writes_sub_of_mem (y := main_call2_v0) rfl (by decide),
   writes_sub_of_mem (y := main_call2_v1) rfl (by decide),
   writes_sub_of_mem (y := main_call2_c_0) rfl (by decide),
   writes_sub_of_mem (y := main_call2_v2) rfl (by decide),
   writes_sub_of_mem (y := main_call2_v3) rfl (by decide),
   writes_sub_of_mem (y := main_call2_v4) rfl (by decide),
   writes_sub_of_mem (y := main_call2_v5) rfl (by decide),
   writes_sub_of_mem (y := main_call2_c_1) rfl (by decide),
   writes_sub_of_mem (y := main_call2_c_2) rfl (by decide),
   writes_sub_of_mem (y := main_call2_v6) rfl (by decide),
   writes_sub_of_mem (y := main_call2_v7) rfl (by decide),
   writes_sub_of_mem (y := main_call2_v8) rfl (by decide),
   writes_sub_of_mem (y := main_call2_v9) rfl (by decide),
   writes_sub_of_mem (y := main_call2_v10) rfl (by decide),
   writes_sub_of_mem (y := main_call2_v11) rfl (by decide),
   writes_sub_of_mem (y := main_call2_c_3) rfl (by decide),
   writes_sub_of_mem (y := main_call2_v12) rfl (by decide),
   writes_sub_of_mem (y := main_call2_v13) rfl (by decide),
   writes_sub_of_mem (y := main_call2_v14) rfl (by decide),
   writes_sub_of_mem (y := main_call2_cst) rfl (by decide),
   writes_sub_of_mem (y := main_call2_v15) rfl (by decide),
   writes_sub_of_mem (y := main_v36) rfl (by decide)⟩
/-- The second gather. -/
abbrev gTakeB : List (HloOp τ sig (Elt F)) := opsTakeB
/-- An array this stage does not write keeps its contents. -/
theorem gTakeB_frame (V : Valuation τ sig (Elt F)) {r : Ref sig .tc} (hr : r ∉ wTakeB) :
    after gTakeB V (no_index (Proc.devRef .tc r)) = V (Proc.devRef .tc r) :=
  after_of_writes_sub gTakeB V opsTakeB_writes hr

/-- The arrays written by: the second neighbour sum. -/
abbrev wAggB : List (Ref sig .tc) :=
  [main_cst_5, main_v37]
theorem opsAggB_writes : (opsAggB : List (HloOp τ sig (Elt F))).Forall fun op => op.writes ⊆ ((wAggB).map (Proc.devRef (τ := τ) .tc)).toFinset :=
  ⟨writes_sub_of_mem (y := main_cst_5) rfl (by decide),
   writes_sub_of_mem (y := main_v37) rfl (by decide)⟩
/-- The second neighbour sum. -/
abbrev gAggB : List (HloOp τ sig (Elt F)) := opsAggB
/-- An array this stage does not write keeps its contents. -/
theorem gAggB_frame (V : Valuation τ sig (Elt F)) {r : Ref sig .tc} (hr : r ∉ wAggB) :
    after gAggB V (no_index (Proc.devRef .tc r)) = V (Proc.devRef .tc r) :=
  after_of_writes_sub gAggB V opsAggB_writes hr

/-- The arrays written by: the second branch's feed-forward sublayer and normalisation. -/
abbrev wAtomB : List (Ref sig .tc) :=
  [main_v38, main_v39, main_v40, main_v41, main_v42, main_call3_cst, main_call3_v0, main_v43, main_v44, main_v45, main_v46, main_v47, main_cst_6, main_v48, main_v49, main_cst_7, main_v50, main_v51, main_v52, main_v53, main_v54, main_cst_8, main_v55, main_v56, main_cst_9, main_v57, main_v58, main_v59, main_v60, main_cst_10, main_v61, main_v62, main_v63, main_v64, main_v65, main_v66, main_v67, main_v68, main_v69, main_v70, main_v71]
theorem opsFfB1_writes : (opsFfB1 : List (HloOp τ sig (Elt F))).Forall fun op => op.writes ⊆ ((wAtomB).map (Proc.devRef (τ := τ) .tc)).toFinset :=
  ⟨writes_sub_of_mem (y := main_v38) rfl (by decide),
   writes_sub_of_mem (y := main_v39) rfl (by decide),
   writes_sub_of_mem (y := main_v40) rfl (by decide),
   writes_sub_of_mem (y := main_v41) rfl (by decide),
   writes_sub_of_mem (y := main_v42) rfl (by decide)⟩
theorem opsReluB_writes : (opsReluB : List (HloOp τ sig (Elt F))).Forall fun op => op.writes ⊆ ((wAtomB).map (Proc.devRef (τ := τ) .tc)).toFinset :=
  ⟨writes_sub_of_mem (y := main_call3_cst) rfl (by decide),
   writes_sub_of_mem (y := main_call3_v0) rfl (by decide),
   writes_sub_of_mem (y := main_v43) rfl (by decide)⟩
theorem opsFfB2a_writes : (opsFfB2a : List (HloOp τ sig (Elt F))).Forall fun op => op.writes ⊆ ((wAtomB).map (Proc.devRef (τ := τ) .tc)).toFinset :=
  ⟨writes_sub_of_mem (y := main_v44) rfl (by decide),
   writes_sub_of_mem (y := main_v45) rfl (by decide),
   writes_sub_of_mem (y := main_v46) rfl (by decide),
   writes_sub_of_mem (y := main_v47) rfl (by decide),
   writes_sub_of_mem (y := main_cst_6) rfl (by decide),
   writes_sub_of_mem (y := main_v48) rfl (by decide),
   writes_sub_of_mem (y := main_v49) rfl (by decide),
   writes_sub_of_mem (y := main_cst_7) rfl (by decide),
   writes_sub_of_mem (y := main_v50) rfl (by decide)⟩
theorem opsFfB2b_writes : (opsFfB2b : List (HloOp τ sig (Elt F))).Forall fun op => op.writes ⊆ ((wAtomB).map (Proc.devRef (τ := τ) .tc)).toFinset :=
  ⟨writes_sub_of_mem (y := main_v51) rfl (by decide),
   writes_sub_of_mem (y := main_v52) rfl (by decide),
   writes_sub_of_mem (y := main_v53) rfl (by decide),
   writes_sub_of_mem (y := main_v54) rfl (by decide),
   writes_sub_of_mem (y := main_cst_8) rfl (by decide),
   writes_sub_of_mem (y := main_v55) rfl (by decide),
   writes_sub_of_mem (y := main_v56) rfl (by decide),
   writes_sub_of_mem (y := main_cst_9) rfl (by decide),
   writes_sub_of_mem (y := main_v57) rfl (by decide),
   writes_sub_of_mem (y := main_v58) rfl (by decide),
   writes_sub_of_mem (y := main_v59) rfl (by decide),
   writes_sub_of_mem (y := main_v60) rfl (by decide),
   writes_sub_of_mem (y := main_cst_10) rfl (by decide),
   writes_sub_of_mem (y := main_v61) rfl (by decide),
   writes_sub_of_mem (y := main_v62) rfl (by decide),
   writes_sub_of_mem (y := main_v63) rfl (by decide),
   writes_sub_of_mem (y := main_v64) rfl (by decide),
   writes_sub_of_mem (y := main_v65) rfl (by decide),
   writes_sub_of_mem (y := main_v66) rfl (by decide),
   writes_sub_of_mem (y := main_v67) rfl (by decide),
   writes_sub_of_mem (y := main_v68) rfl (by decide),
   writes_sub_of_mem (y := main_v69) rfl (by decide),
   writes_sub_of_mem (y := main_v70) rfl (by decide),
   writes_sub_of_mem (y := main_v71) rfl (by decide)⟩
/-- The second branch's feed-forward sublayer and normalisation. -/
abbrev gAtomB : List (HloOp τ sig (Elt F)) := opsFfB1 ++ opsReluB ++ opsFfB2a ++ opsFfB2b
/-- An array this stage does not write keeps its contents. -/
theorem gAtomB_frame (V : Valuation τ sig (Elt F)) {r : Ref sig .tc} (hr : r ∉ wAtomB) :
    after gAtomB V (no_index (Proc.devRef .tc r)) = V (Proc.devRef .tc r) :=
  after_of_writes_sub gAtomB V (forall_append (forall_append (forall_append opsFfB1_writes opsReluB_writes) opsFfB2a_writes) opsFfB2b_writes) hr

/-- The arrays written by: the per-molecule means. -/
abbrev wSeg : List (Ref sig .tc) :=
  [main_cst_11, main_v72, main_cst_12, main_v73, main_v74, main_v75, main_cst_13, main_v76, main_v77, main_v78, main_cst_14, main_v79, main_v80, main_v81, main_v82, main_v83, main_cst_15, main_v84, main_v85, main_v86, main_v87, main_v88]
theorem opsSeg_writes : (opsSeg : List (HloOp τ sig (Elt F))).Forall fun op => op.writes ⊆ ((wSeg).map (Proc.devRef (τ := τ) .tc)).toFinset :=
  ⟨writes_sub_of_mem (y := main_cst_11) rfl (by decide),
   writes_sub_of_mem (y := main_v72) rfl (by decide),
   writes_sub_of_mem (y := main_cst_12) rfl (by decide),
   writes_sub_of_mem (y := main_v73) rfl (by decide),
   writes_sub_of_mem (y := main_v74) rfl (by decide),
   writes_sub_of_mem (y := main_v75) rfl (by decide),
   writes_sub_of_mem (y := main_cst_13) rfl (by decide),
   writes_sub_of_mem (y := main_v76) rfl (by decide),
   writes_sub_of_mem (y := main_v77) rfl (by decide),
   writes_sub_of_mem (y := main_v78) rfl (by decide),
   writes_sub_of_mem (y := main_cst_14) rfl (by decide),
   writes_sub_of_mem (y := main_v79) rfl (by decide),
   writes_sub_of_mem (y := main_v80) rfl (by decide),
   writes_sub_of_mem (y := main_v81) rfl (by decide),
   writes_sub_of_mem (y := main_v82) rfl (by decide),
   writes_sub_of_mem (y := main_v83) rfl (by decide),
   writes_sub_of_mem (y := main_cst_15) rfl (by decide),
   writes_sub_of_mem (y := main_v84) rfl (by decide),
   writes_sub_of_mem (y := main_v85) rfl (by decide),
   writes_sub_of_mem (y := main_v86) rfl (by decide),
   writes_sub_of_mem (y := main_v87) rfl (by decide),
   writes_sub_of_mem (y := main_v88) rfl (by decide)⟩
/-- The per-molecule means. -/
abbrev gSeg : List (HloOp τ sig (Elt F)) := opsSeg
/-- An array this stage does not write keeps its contents. -/
theorem gSeg_frame (V : Valuation τ sig (Elt F)) {r : Ref sig .tc} (hr : r ∉ wSeg) :
    after gSeg V (no_index (Proc.devRef .tc r)) = V (Proc.devRef .tc r) :=
  after_of_writes_sub gSeg V opsSeg_writes hr

/-- The arrays written by: the two molecule heads, averaged. -/
abbrev wHeads : List (Ref sig .tc) :=
  [main_v89, main_v90, main_v91, main_v92, main_call4_cst, main_call4_v0, main_v93, main_v94, main_v95, main_v96, main_v97, main_v98, main_v99, main_v100, main_v101, main_call5_cst, main_call5_v0, main_v102, main_v103, main_v104, main_v105, main_v106, main_v107, main_cst_16, main_v108, main_v109]
theorem opsHd1_writes : (opsHd1 : List (HloOp τ sig (Elt F))).Forall fun op => op.writes ⊆ ((wHeads).map (Proc.devRef (τ := τ) .tc)).toFinset :=
  ⟨writes_sub_of_mem (y := main_v89) rfl (by decide),
   writes_sub_of_mem (y := main_v90) rfl (by decide),
   writes_sub_of_mem (y := main_v91) rfl (by decide),
   writes_sub_of_mem (y := main_v92) rfl (by decide)⟩
theorem opsRelu4_writes : (opsRelu4 : List (HloOp τ sig (Elt F))).Forall fun op => op.writes ⊆ ((wHeads).map (Proc.devRef (τ := τ) .tc)).toFinset :=
  ⟨writes_sub_of_mem (y := main_call4_cst) rfl (by decide),
   writes_sub_of_mem (y := main_call4_v0) rfl (by decide),
   writes_sub_of_mem (y := main_v93) rfl (by decide)⟩
theorem opsHd2_writes : (opsHd2 : List (HloOp τ sig (Elt F))).Forall fun op => op.writes ⊆ ((wHeads).map (Proc.devRef (τ := τ) .tc)).toFinset :=
  ⟨writes_sub_of_mem (y := main_v94) rfl (by decide),
   writes_sub_of_mem (y := main_v95) rfl (by decide),
   writes_sub_of_mem (y := main_v96) rfl (by decide),
   writes_sub_of_mem (y := main_v97) rfl (by decide),
   writes_sub_of_mem (y := main_v98) rfl (by decide),
   writes_sub_of_mem (y := main_v99) rfl (by decide),
   writes_sub_of_mem (y := main_v100) rfl (by decide),
   writes_sub_of_mem (y := main_v101) rfl (by decide)⟩
theorem opsRelu5_writes : (opsRelu5 : List (HloOp τ sig (Elt F))).Forall fun op => op.writes ⊆ ((wHeads).map (Proc.devRef (τ := τ) .tc)).toFinset :=
  ⟨writes_sub_of_mem (y := main_call5_cst) rfl (by decide),
   writes_sub_of_mem (y := main_call5_v0) rfl (by decide),
   writes_sub_of_mem (y := main_v102) rfl (by decide)⟩
theorem opsHd3_writes : (opsHd3 : List (HloOp τ sig (Elt F))).Forall fun op => op.writes ⊆ ((wHeads).map (Proc.devRef (τ := τ) .tc)).toFinset :=
  ⟨writes_sub_of_mem (y := main_v103) rfl (by decide),
   writes_sub_of_mem (y := main_v104) rfl (by decide),
   writes_sub_of_mem (y := main_v105) rfl (by decide),
   writes_sub_of_mem (y := main_v106) rfl (by decide),
   writes_sub_of_mem (y := main_v107) rfl (by decide),
   writes_sub_of_mem (y := main_cst_16) rfl (by decide),
   writes_sub_of_mem (y := main_v108) rfl (by decide),
   writes_sub_of_mem (y := main_v109) rfl (by decide)⟩
/-- The two molecule heads, averaged. -/
abbrev gHeads : List (HloOp τ sig (Elt F)) := opsHd1 ++ opsRelu4 ++ opsHd2 ++ opsRelu5 ++ opsHd3
/-- An array this stage does not write keeps its contents. -/
theorem gHeads_frame (V : Valuation τ sig (Elt F)) {r : Ref sig .tc} (hr : r ∉ wHeads) :
    after gHeads V (no_index (Proc.devRef .tc r)) = V (Proc.devRef .tc r) :=
  after_of_writes_sub gHeads V (forall_append (forall_append (forall_append (forall_append opsHd1_writes opsRelu4_writes) opsHd2_writes) opsRelu5_writes) opsHd3_writes) hr

/-! ## The whole line, composed -/

/-- The whole line is the eight stages in order. -/
theorem after_ops (V : Valuation τ sig (Elt F)) :
    after ops V = after gHeads (after gSeg (after gAtomB (after gAggB (after gTakeB (after gAtomA (after gAggA (after gTakeA V))))))) := by
  simp only [ops, gAtomA, gAtomB, gHeads, gTakeA, gAggA, gTakeB, gAggB, gSeg, after_append, after_nil]

/-- An array no stage writes ends as it began. -/
theorem ops_frame (V : Valuation τ sig (Elt F)) {r : Ref sig .tc}
    (h1 : r ∉ wTakeA) (h2 : r ∉ wAggA) (h3 : r ∉ wAtomA) (h4 : r ∉ wTakeB) (h5 : r ∉ wAggB) (h6 : r ∉ wAtomB) (h7 : r ∉ wSeg) (h8 : r ∉ wHeads) :
    after ops V (Proc.devRef .tc r) = V (Proc.devRef .tc r) := by
  rw [after_ops, gHeads_frame _ h8, gSeg_frame _ h7, gAtomB_frame _ h6, gAggB_frame _ h5, gTakeB_frame _ h4, gAtomA_frame _ h3, gAggA_frame _ h2, gTakeA_frame _ h1]

end Cert.RefRun

end
-- ==== Proof.RefRun.lean ====
/-
  The reference program's run, read stage by stage. From any contents of the arrays, each stretch of the
  reference's operations leaves its result array at the named whole-array stage applied to what its operand arrays
  held, and leaves every array it does not write as it was. Composed in order, the result array ends at the
  reference's result as one function of the 26 argument arrays, and the arguments end unchanged; together with the
  fact that every execution of a straight line of operations terminates at the fold of their results, this is the
  statement about every run of the reference.
-/
import proofs.«100054_j87634512707836_1_alg».proof.Proof.RefFrame
import proofs.«100054_j87634512707836_1_alg».proof.Proof.RefFns

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## What each stage leaves in its result array -/

theorem gTakeA_read (V : Valuation τ sig (Elt F)) :
    after gTakeA V (Proc.devRef .tc main_v0) = RefFns.takeA (V (Proc.devRef .tc main_arg0)) (V (Proc.devRef .tc main_arg3)) := by
  after_results_simp
  rfl

theorem gAggA_read (V : Valuation τ sig (Elt F)) :
    after gAggA V (Proc.devRef .tc main_v1) = RefFns.aggr (V (Proc.devRef .tc main_v0)) := by
  after_results_simp
  rfl

theorem gAtomA_read (V : Valuation τ sig (Elt F)) :
    after gAtomA V (Proc.devRef .tc main_v35) = RefFns.atomRef (V (Proc.devRef .tc main_arg2)) (V (Proc.devRef .tc main_v1)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  simp only [gAtomA, after_append]
  after_results_simp
  rfl

theorem gTakeB_read (V : Valuation τ sig (Elt F)) :
    after gTakeB V (Proc.devRef .tc main_v36) = RefFns.takeB (V (Proc.devRef .tc main_arg1)) (V (Proc.devRef .tc main_arg4)) := by
  after_results_simp
  rfl

theorem gAggB_read (V : Valuation τ sig (Elt F)) :
    after gAggB V (Proc.devRef .tc main_v37) = RefFns.aggr (V (Proc.devRef .tc main_v36)) := by
  after_results_simp
  rfl

theorem gAtomB_read (V : Valuation τ sig (Elt F)) :
    after gAtomB V (Proc.devRef .tc main_v71) = RefFns.atomRef (V (Proc.devRef .tc main_arg2)) (V (Proc.devRef .tc main_v37)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  simp only [gAtomB, after_append]
  after_results_simp
  rfl

theorem gSeg_readA (V : Valuation τ sig (Elt F)) :
    after gSeg V (Proc.devRef .tc main_v83) = RefFns.segMean (V (Proc.devRef .tc main_arg5)) (V (Proc.devRef .tc main_v35)) := by
  after_results_simp
  rfl

theorem gSeg_readB (V : Valuation τ sig (Elt F)) :
    after gSeg V (Proc.devRef .tc main_v88) = RefFns.segMean (V (Proc.devRef .tc main_arg5)) (V (Proc.devRef .tc main_v71)) := by
  after_results_simp
  rfl

theorem gHeads_read (V : Valuation τ sig (Elt F)) :
    after gHeads V (Proc.devRef .tc main_v109) = RefFns.molRef (V (Proc.devRef .tc main_v83)) (V (Proc.devRef .tc main_v88)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  simp only [gHeads, after_append]
  after_results_simp
  rfl

/-! ## Arrays the first stages leave alone -/

/-- An array none of the first 2 stages writes holds after them what it held before. -/
theorem frame2 (V : Valuation τ sig (Elt F)) {r : Ref sig .tc} (h1 : r ∉ wTakeA) (h2 : r ∉ wAggA) :
    after gAggA (after gTakeA V) (Proc.devRef .tc r) = V (Proc.devRef .tc r) := by
  rw [gAggA_frame _ h2, gTakeA_frame _ h1]

/-- An array none of the first 3 stages writes holds after them what it held before. -/
theorem frame3 (V : Valuation τ sig (Elt F)) {r : Ref sig .tc} (h1 : r ∉ wTakeA) (h2 : r ∉ wAggA) (h3 : r ∉ wAtomA) :
    after gAtomA (after gAggA (after gTakeA V)) (Proc.devRef .tc r) = V (Proc.devRef .tc r) := by
  rw [gAtomA_frame _ h3, gAggA_frame _ h2, gTakeA_frame _ h1]

/-- An array none of the first 5 stages writes holds after them what it held before. -/
theorem frame5 (V : Valuation τ sig (Elt F)) {r : Ref sig .tc} (h1 : r ∉ wTakeA) (h2 : r ∉ wAggA) (h3 : r ∉ wAtomA) (h4 : r ∉ wTakeB) (h5 : r ∉ wAggB) :
    after gAggB (after gTakeB (after gAtomA (after gAggA (after gTakeA V)))) (Proc.devRef .tc r) = V (Proc.devRef .tc r) := by
  rw [gAggB_frame _ h5, gTakeB_frame _ h4, gAtomA_frame _ h3, gAggA_frame _ h2, gTakeA_frame _ h1]

/-- An array none of the first 6 stages writes holds after them what it held before. -/
theorem frame6 (V : Valuation τ sig (Elt F)) {r : Ref sig .tc} (h1 : r ∉ wTakeA) (h2 : r ∉ wAggA) (h3 : r ∉ wAtomA) (h4 : r ∉ wTakeB) (h5 : r ∉ wAggB) (h6 : r ∉ wAtomB) :
    after gAtomB (after gAggB (after gTakeB (after gAtomA (after gAggA (after gTakeA V))))) (Proc.devRef .tc r) = V (Proc.devRef .tc r) := by
  rw [gAtomB_frame _ h6, gAggB_frame _ h5, gTakeB_frame _ h4, gAtomA_frame _ h3, gAggA_frame _ h2, gTakeA_frame _ h1]

/-- An array none of the first 7 stages writes holds after them what it held before. -/
theorem frame7 (V : Valuation τ sig (Elt F)) {r : Ref sig .tc} (h1 : r ∉ wTakeA) (h2 : r ∉ wAggA) (h3 : r ∉ wAtomA) (h4 : r ∉ wTakeB) (h5 : r ∉ wAggB) (h6 : r ∉ wAtomB) (h7 : r ∉ wSeg) :
    after gSeg (after gAtomB (after gAggB (after gTakeB (after gAtomA (after gAggA (after gTakeA V)))))) (Proc.devRef .tc r) = V (Proc.devRef .tc r) := by
  rw [gSeg_frame _ h7, gAtomB_frame _ h6, gAggB_frame _ h5, gTakeB_frame _ h4, gAtomA_frame _ h3, gAggA_frame _ h2, gTakeA_frame _ h1]

/-- The result array ends at the reference's result as a function of the 26 arguments' contents: the heads read
    the two per-molecule means, each mean reads its branch's normalised rows, each branch reads its neighbour sum,
    each sum its gather, and every argument is read where no stage has written. -/
theorem ops_read (V : Valuation τ sig (Elt F)) :
    after ops V (Proc.devRef .tc main_v109) = RefFns.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  rw [after_ops,
    gHeads_read,
    gSeg_readA,
    gSeg_readB,
    frame7 _ (r := main_arg18) (by decide) (by decide) (by decide) (by decide) (by decide) (by decide) (by decide),
    frame7 _ (r := main_arg19) (by decide) (by decide) (by decide) (by decide) (by decide) (by decide) (by decide),
    frame7 _ (r := main_arg20) (by decide) (by decide) (by decide) (by decide) (by decide) (by decide) (by decide),
    frame7 _ (r := main_arg21) (by decide) (by decide) (by decide) (by decide) (by decide) (by decide) (by decide),
    frame7 _ (r := main_arg22) (by decide) (by decide) (by decide) (by decide) (by decide) (by decide) (by decide),
    frame7 _ (r := main_arg23) (by decide) (by decide) (by decide) (by decide) (by decide) (by decide) (by decide),
    frame7 _ (r := main_arg24) (by decide) (by decide) (by decide) (by decide) (by decide) (by decide) (by decide),
    frame7 _ (r := main_arg25) (by decide) (by decide) (by decide) (by decide) (by decide) (by decide) (by decide),
    frame6 _ (r := main_arg5) (by decide) (by decide) (by decide) (by decide) (by decide) (by decide),
    gAtomB_frame _ (r := main_v35) (by decide),
    gAggB_frame _ (r := main_v35) (by decide),
    gTakeB_frame _ (r := main_v35) (by decide),
    gAtomA_read,
    frame2 _ (r := main_arg2) (by decide) (by decide),
    frame2 _ (r := main_arg6) (by decide) (by decide),
    frame2 _ (r := main_arg7) (by decide) (by decide),
    frame2 _ (r := main_arg8) (by decide) (by decide),
    frame2 _ (r := main_arg9) (by decide) (by decide),
    frame2 _ (r := main_arg10) (by decide) (by decide),
    frame2 _ (r := main_arg11) (by decide) (by decide),
    gAggA_read,
    gTakeA_read,
    gAtomB_read,
    frame5 _ (r := main_arg2) (by decide) (by decide) (by decide) (by decide) (by decide),
    frame5 _ (r := main_arg12) (by decide) (by decide) (by decide) (by decide) (by decide),
    frame5 _ (r := main_arg13) (by decide) (by decide) (by decide) (by decide) (by decide),
    frame5 _ (r := main_arg14) (by decide) (by decide) (by decide) (by decide) (by decide),
    frame5 _ (r := main_arg15) (by decide) (by decide) (by decide) (by decide) (by decide),
    frame5 _ (r := main_arg16) (by decide) (by decide) (by decide) (by decide) (by decide),
    frame5 _ (r := main_arg17) (by decide) (by decide) (by decide) (by decide) (by decide),
    gAggB_read,
    gTakeB_read,
    frame3 _ (r := main_arg1) (by decide) (by decide) (by decide),
    frame3 _ (r := main_arg4) (by decide) (by decide) (by decide)]
  rfl

/-! ## Every run of the reference -/

/-- Every weakly fair execution of the reference terminates with every array at the fold of the operations'
    results over its launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ op h => List.forall_iff_forall_mem.mp ops_fresh op h)

/-- Every weakly fair execution of the reference terminates with the result array at the reference's result as a
    function of the 26 arguments' launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v109) = RefFns.refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v109).trans (ops_read (launchContents m c)),
      (h c main_arg0).trans (ops_frame (launchContents m c) (by decide) (by decide) (by decide) (by decide) (by decide) (by decide) (by decide) (by decide)),
      (h c main_arg1).trans (ops_frame (launchContents m c) (by decide) (by decide) (by decide) (by decide) (by decide) (by decide) (by decide) (by decide)),
      (h c main_arg2).trans (ops_frame (launchContents m c) (by decide) (by decide) (by decide) (by decide) (by decide) (by decide) (by decide) (by decide)),
      (h c main_arg3).trans (ops_frame (launchContents m c) (by decide) (by decide) (by decide) (by decide) (by decide) (by decide) (by decide) (by decide)),
      (h c main_arg4).trans (ops_frame (launchContents m c) (by decide) (by decide) (by decide) (by decide) (by decide) (by decide) (by decide) (by decide)),
      (h c main_arg5).trans (ops_frame (launchContents m c) (by decide) (by decide) (by decide) (by decide) (by decide) (by decide) (by decide) (by decide)),
      (h c main_arg6).trans (ops_frame (launchContents m c) (by decide) (by decide) (by decide) (by decide) (by decide) (by decide) (by decide) (by decide)),
      (h c main_arg7).trans (ops_frame (launchContents m c) (by decide) (by decide) (by decide) (by decide) (by decide) (by decide) (by decide) (by decide)),
      (h c main_arg8).trans (ops_frame (launchContents m c) (by decide) (by decide) (by decide) (by decide) (by decide) (by decide) (by decide) (by decide)),
      (h c main_arg9).trans (ops_frame (launchContents m c) (by decide) (by decide) (by decide) (by decide) (by decide) (by decide) (by decide) (by decide)),
      (h c main_arg10).trans (ops_frame (launchContents m c) (by decide) (by decide) (by decide) (by decide) (by decide) (by decide) (by decide) (by decide)),
      (h c main_arg11).trans (ops_frame (launchContents m c) (by decide) (by decide) (by decide) (by decide) (by decide) (by decide) (by decide) (by decide)),
      (h c main_arg12).trans (ops_frame (launchContents m c) (by decide) (by decide) (by decide) (by decide) (by decide) (by decide) (by decide) (by decide)),
      (h c main_arg13).trans (ops_frame (launchContents m c) (by decide) (by decide) (by decide) (by decide) (by decide) (by decide) (by decide) (by decide)),
      (h c main_arg14).trans (ops_frame (launchContents m c) (by decide) (by decide) (by decide) (by decide) (by decide) (by decide) (by decide) (by decide)),
      (h c main_arg15).trans (ops_frame (launchContents m c) (by decide) (by decide) (by decide) (by decide) (by decide) (by decide) (by decide) (by decide)),
      (h c main_arg16).trans (ops_frame (launchContents m c) (by decide) (by decide) (by decide) (by decide) (by decide) (by decide) (by decide) (by decide)),
      (h c main_arg17).trans (ops_frame (launchContents m c) (by decide) (by decide) (by decide) (by decide) (by decide) (by decide) (by decide) (by decide)),
      (h c main_arg18).trans (ops_frame (launchContents m c) (by decide) (by decide) (by decide) (by decide) (by decide) (by decide) (by decide) (by decide)),
      (h c main_arg19).trans (ops_frame (launchContents m c) (by decide) (by decide) (by decide) (by decide) (by decide) (by decide) (by decide) (by decide)),
      (h c main_arg20).trans (ops_frame (launchContents m c) (by decide) (by decide) (by decide) (by decide) (by decide) (by decide) (by decide) (by decide)),
      (h c main_arg21).trans (ops_frame (launchContents m c) (by decide) (by decide) (by decide) (by decide) (by decide) (by decide) (by decide) (by decide)),
      (h c main_arg22).trans (ops_frame (launchContents m c) (by decide) (by decide) (by decide) (by decide) (by decide) (by decide) (by decide) (by decide)),
      (h c main_arg23).trans (ops_frame (launchContents m c) (by decide) (by decide) (by decide) (by decide) (by decide) (by decide) (by decide) (by decide)),
      (h c main_arg24).trans (ops_frame (launchContents m c) (by decide) (by decide) (by decide) (by decide) (by decide) (by decide) (by decide) (by decide)),
      (h c main_arg25).trans (ops_frame (launchContents m c) (by decide) (by decide) (by decide) (by decide) (by decide) (by decide) (by decide) (by decide))⟩)
    (run_all m ρ)

end Cert.RefRun

end
-- ==== Proof.lean ====
/-
  The certificate's five claims for the per-atom feed-forward sublayer with layer normalisation followed by a
  per-molecule mean and a two-head molecule read-out.

  Frames: the two kernel programs' frames are the generated ones (two pipelined regions among host stretches);
  the reference's frame is its run with the result dropped. The preservation claim is stated as the trivial
  proposition for this pair (the ledger of rewrites between the two kernel programs is empty).

  The value claim. Run at the extended reals from memories that agree on the 26 arguments, both programs end
  with the same [1024, 1] array. The kernel's result buffer is the last boundary of the run's fold: the
  molecule head (region 1, one grid point, whole arrays) of the per-molecule means of region 0's two output
  arrays; region 0's output arrays are, row by row over its 100 blocks of 1000 atoms, the sublayer of the atom
  features and the gathered-and-summed neighbour messages, with W1 cut into its top 151 and bottom 128 rows. The
  reference concatenates features and message and multiplies by the whole W1: the product over 279 columns is
  the sum of the products over the first 151 and the last 128 (addition of extended reals is commutative and
  associative, so no finiteness is used), and everything else is the same operation under another spelling — a
  matrix product into a zero accumulator against a product with none, a lane sum against a sum from the literal
  zero, a cast-and-broadcast against a broadcast in dimensions, a change of float format that is the identity
  on extended reals.
-/
import proofs.«100054_j87634512707836_1_alg».proof.Defs
import proofs.«100054_j87634512707836_1_alg».proof.Proof.Gen.Kernel
import proofs.«100054_j87634512707836_1_alg».proof.Proof.Gen.Kernel.Skeleton
import proofs.«100054_j87634512707836_1_alg».proof.Proof.Gen.Kernel.Launch
import proofs.«100054_j87634512707836_1_alg».proof.Proof.Gen.Kernel.Points
import proofs.«100054_j87634512707836_1_alg».proof.Proof.Gen.Kernel.Frame
import proofs.«100054_j87634512707836_1_alg».proof.Proof.Gen.KernelIdeal
import proofs.«100054_j87634512707836_1_alg».proof.Proof.Gen.KernelIdeal.Skeleton
import proofs.«100054_j87634512707836_1_alg».proof.Proof.Gen.KernelIdeal.Launch
import proofs.«100054_j87634512707836_1_alg».proof.Proof.Gen.KernelIdeal.Points
import proofs.«100054_j87634512707836_1_alg».proof.Proof.Gen.KernelIdeal.Frame
import proofs.«100054_j87634512707836_1_alg».proof.Proof.Gen.ReferenceIdeal
import proofs.«100054_j87634512707836_1_alg».proof.Proof.Gen.Pre_finite_inputs
import proofs.«100054_j87634512707836_1_alg».proof.Proof.KRun
import proofs.«100054_j87634512707836_1_alg».proof.Proof.KValue
import proofs.«100054_j87634512707836_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.RefRun.run (F := Ideal) m ρ)

theorem preserves : Cert.preserves_Kernel_KernelIdeal := trivial

/-- Both runs end with the same result array: the kernel's run names its result as the last boundary of its
    fold, which is the reference's result function of the arguments; the reference's run ends at that function
    of its own arguments, which agree with the kernel's. -/
theorem algebraic : Cert.algebraic_KernelIdeal_ReferenceIdeal := by
  intro m ρ m' ρ' _ hagree
  refine ⟨fun c => Cert.KernelIdeal.Gen.W7 (F := Ideal) m ρ c (Proc.devRef .tc Cert.KernelIdeal.main_v38),
    Cert.KRun.run (F := Ideal) m ρ, ?_⟩
  refine (θ_run Cert.ReferenceIdeal.defs _ _).mono (fun _ h c => ⟨(h c).1.trans ?_, (h c).2⟩)
    (Cert.RefRun.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2]
  exact (Cert.KValue.kernel_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
